-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S512x256 : Shape := ⟨2, ![512, 256]⟩
abbrev S512 : Shape := ⟨1, ![512]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S65536x256 .f32) (main_arg1 : FVec F S512x256 .f32) (main_arg2 : FVec F S512 .f32) (main_arg3 : FVec F S512x256 .f32) (main_arg4 : FVec F S512 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S65536x256 : Shape := ⟨2, ![65536, 256]⟩
abbrev S512x256 : Shape := ⟨2, ![512, 256]⟩
abbrev S512 : Shape := ⟨1, ![512]⟩
abbrev S_ : Shape := ⟨0, ![]⟩
abbrev S512x1 : Shape := ⟨2, ![512, 1]⟩
abbrev S1x512 : Shape := ⟨2, ![1, 512]⟩
abbrev S2x1x512 : Shape := ⟨3, ![2, 1, 512]⟩
abbrev S2x512x256 : Shape := ⟨3, ![2, 512, 256]⟩
abbrev S2x1x1 : Shape := ⟨3, ![2, 1, 1]⟩
abbrev S2048x256 : Shape := ⟨2, ![2048, 256]⟩
abbrev S1x1x512 : Shape := ⟨3, ![1, 1, 512]⟩
abbrev S1x512x256 : Shape := ⟨3, ![1, 512, 256]⟩
abbrev S1x1x1 : Shape := ⟨3, ![1, 1, 1]⟩
abbrev S256x512 : Shape := ⟨2, ![256, 512]⟩
abbrev S2048x512 : Shape := ⟨2, ![2048, 512]⟩
abbrev S2048 : Shape := ⟨1, ![2048]⟩
abbrev S2048x1 : Shape := ⟨2, ![2048, 1]⟩
abbrev S1x2048x256 : Shape := ⟨3, ![1, 2048, 256]⟩
abbrev S1 : Shape := ⟨1, ![1]⟩
abbrev S512x2048 : Shape := ⟨2, ![512, 2048]⟩
abbrev S1x1 : Shape := ⟨2, ![1, 1]⟩

abbrev nBuf : Space → Nat
  | .hbm => 96
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S512, .f32⟩
  | .hbm, ⟨3, _⟩ => ⟨S512x256, .f32⟩
  | .hbm, ⟨4, _⟩ => ⟨S512, .f32⟩
  | .hbm, ⟨5, _⟩ => ⟨S512x256, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S1x512, .f32⟩
  | .hbm, ⟨10, _⟩ => ⟨S65536x256, .f32⟩
  | .hbm, ⟨11, _⟩ => ⟨S2x1x512, .f32⟩
  | .hbm, ⟨12, _⟩ => ⟨S2x512x256, .f32⟩
  | .hbm, ⟨13, _⟩ => ⟨S2x1x1, .f32⟩
  | .hbm, ⟨14, _⟩ => ⟨S_, .f32⟩
  | .hbm, ⟨15, _⟩ => ⟨S1x512, .f32⟩
  | .hbm, ⟨16, _⟩ => ⟨S512, .f32⟩
  | .hbm, ⟨17, _⟩ => ⟨S_, .f32⟩
  | .hbm, ⟨18, _⟩ => ⟨S512x256, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S_, .f32⟩
  | .hbm, ⟨44, _⟩ => ⟨S512x256, .f32⟩
  | .hbm, ⟨45, _⟩ => ⟨S512x256, .f32⟩
  | .hbm, ⟨46, _⟩ => ⟨S512x256, .f32⟩
  | .hbm, ⟨47, _⟩ => ⟨S512x1, .f32⟩
  | .hbm, ⟨48, _⟩ => ⟨S512x256, .f32⟩
  | .hbm, ⟨49, _⟩ => ⟨S512x256, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S_, .f32⟩
  | .hbm, ⟨58, _⟩ => ⟨S_, .f32⟩
  | .hbm, ⟨59, _⟩ => ⟨S512x256, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512, .f32⟩
  | .hbm, ⟨69, _⟩ => ⟨S512, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S512, .f32⟩
  | .hbm, ⟨78, _⟩ => ⟨S512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S512, .f32⟩
  | .hbm, ⟨83, _⟩ => ⟨S512, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S1x512, .f32⟩
  | .local _ .vmem, ⟨4, _⟩ => ⟨S2048x256, .f32⟩
  | .local _ .vmem, ⟨5, _⟩ => ⟨S2048x256, .f32⟩
  | .local _ .vmem, ⟨6, _⟩ => ⟨S1x1x512, .f32⟩
  | .local _ .vmem, ⟨7, _⟩ => ⟨S1x1x512, .f32⟩
  | .local _ .vmem, ⟨8, _⟩ => ⟨S1x512x256, .f32⟩
  | .local _ .vmem, ⟨9, _⟩ => ⟨S1x512x256, .f32⟩
  | .local _ .vmem, ⟨10, _⟩ => ⟨S1x1x1, .f32⟩
  | .local _ .vmem, ⟨11, _⟩ => ⟨S1x1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_cst_13 : Ref sig .tc := ⟨.hbm, 60, rfl⟩
abbrev main_v38 : Ref sig .tc := ⟨.hbm, 61, rfl⟩
abbrev main_cst_14 : Ref sig .tc := ⟨.hbm, 62, rfl⟩
abbrev main_v39 : Ref sig .tc := ⟨.hbm, 63, rfl⟩
abbrev main_v40 : Ref sig .tc := ⟨.hbm, 64, rfl⟩
abbrev main_cst_15 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_16 : Ref sig .tc := ⟨.hbm, 70, rfl⟩
abbrev main_v45 : Ref sig .tc := ⟨.hbm, 71, rfl⟩
abbrev main_v46 : Ref sig .tc := ⟨.hbm, 72, rfl⟩
abbrev main_cst_17 : Ref sig .tc := ⟨.hbm, 73, rfl⟩
abbrev main_v47 : Ref sig .tc := ⟨.hbm, 74, rfl⟩
abbrev main_cst_18 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_19 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_20 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_21 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_22 : Ref sig .tc := ⟨.hbm, 93, rfl⟩
abbrev main_v62 : Ref sig .tc := ⟨.hbm, 94, rfl⟩
abbrev main_v63 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  inb_S1x1x512_S1x1x512_0_0_0 : ∀ a, (![0, 0, 0] : Fin 3 → Nat) a + S1x1x512.size a ≤ S1x1x512.size a
  h_S1x1x512 : 0 < S1x1x512.numel
  inb_S1x512x256_S1x512x256_0_0_0 : ∀ a, (![0, 0, 0] : Fin 3 → Nat) a + S1x512x256.size a ≤ S1x512x256.size a
  h_S1x512x256 : 0 < S1x512x256.numel
  inb_S1x1x1_S1x1x1_0_0_0 : ∀ a, (![0, 0, 0] : Fin 3 → Nat) a + S1x1x1.size a ≤ S1x1x1.size a
  h_S1x1x1 : 0 < S1x1x1.numel
  inb_S2048x256_S2048x256_0_0 : ∀ a, (![0, 0] : Fin 2 → Nat) a + S2048x256.size a ≤ S2048x256.size a
  h_S2048x256 : 0 < S2048x256.numel
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  transposes_S512x256_p1_0_S256x512 : S512x256.Transposes [1, 0] S256x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  shapeCasts_S2048x256_S1x2048x256 : S2048x256.ShapeCasts S1x2048x256
  reduces_S1x2048x256_S1 : S1x2048x256.Reduces [1, 2] S1
  shapeCasts_S1_S1x1x1 : S1.ShapeCasts S1x1x1
  inpos_S1x1x1_p0_0_0 : ∀ a, (![0, 0, 0] : Fin 3 → Nat) a < S1x1x1.size a
  reduces_S2048x512_S512 : S2048x512.Reduces [0] S512
  shapeCasts_S512_S1x512 : S512.ShapeCasts S1x512
  shapeCasts_S1x512_S1x1x512 : S1x512.ShapeCasts S1x1x512
  transposes_S2048x512_p1_0_S512x2048 : S2048x512.Transposes [1, 0] S512x2048
  shapeCasts_S512x256_S1x512x256 : S512x256.ShapeCasts S1x512x256
  shapeCasts_S1x1x512_S1x1x512 : S1x1x512.ShapeCasts S1x1x512
  shapeCasts_S1x512x256_S1x512x256 : S1x512x256.ShapeCasts S1x512x256
  shapeCasts_S1x1x1_S1x1x1 : S1x1x1.ShapeCasts S1x1x1
  reducesTo_S2x1x512_S1x512_d0 : S2x1x512.ReducesTo [0] S1x512
  shapeCasts_S1x512_S512 : S1x512.ShapeCasts S512
  reducesTo_S2x512x256_S512x256_d0 : S2x512x256.ReducesTo [0] S512x256
  reducesTo_S2x1x1_S1x1_d0 : S2x1x1.ReducesTo [0] S1x1
  shapeCasts_S1x1_S_ : S1x1.ShapeCasts S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  bcast_S512x1_S512x256_0_1 : S512x1.BroadcastsInDim S512x256 (![0, 1] : Fin 2 → Fin S512x256.rank)
  reducesTo_S512x256_S_d0_1 : S512x256.ReducesTo [0, 1] S_
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x256.size a ≤ S2x512x256.size a
  hwx0_5 : ∀ i : grid0.Coords, EltTy.bits .f32 = 32 ∨ (Rect.block (s := S2x512x256) S1x512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_3) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S512x256 : Shape := ⟨2, ![512, 256]⟩
abbrev S512 : Shape := ⟨1, ![512]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S65536x512 : Shape := ⟨2, ![65536, 512]⟩
abbrev S256x512 : Shape := ⟨2, ![256, 512]⟩
abbrev S512x65536 : Shape := ⟨2, ![512, 65536]⟩
abbrev S512x1 : Shape := ⟨2, ![512, 1]⟩

abbrev nBuf : Space → Nat
  | .hbm => 135
  | .vmem => 0
  | .smem => 0
  | _ => 0

abbrev hbmTy0_0 (i : Nat) : BufTy := match i % 128 with
  | 0 => ⟨S65536x256, .f32⟩
  | 1 => ⟨S512x256, .f32⟩
  | 2 => ⟨S512, .f32⟩
  | 3 => ⟨S512x256, .f32⟩
  | 4 => ⟨S512, .f32⟩
  | 5 => ⟨S65536x256, .f32⟩
  | 6 => ⟨S_, .f32⟩
  | 7 => ⟨S65536, .f32⟩
  | 8 => ⟨S65536x1, .f32⟩
  | 9 => ⟨S512x256, .f32⟩
  | 10 => ⟨S_, .f32⟩
  | 11 => ⟨S512, .f32⟩
  | 12 => ⟨S1x512, .f32⟩
  | 13 => ⟨S65536x512, .f32⟩
  | 14 => ⟨S65536x512, .f32⟩
  | 15 => ⟨S65536x512, .f32⟩
  | 16 => ⟨S_, .f32⟩
  | 17 => ⟨S65536x256, .f32⟩
  | 18 => ⟨S65536x256, .f32⟩
  | 19 => ⟨S256x512, .f32⟩
  | 20 => ⟨S65536x512, .f32⟩
  | 21 => ⟨S65536x512, .f32⟩
  | 22 => ⟨S65536x512, .f32⟩
  | 23 => ⟨S_, .f32⟩
  | 24 => ⟨S65536x512, .f32⟩
  | 25 => ⟨S65536x512, .f32⟩
  | 26 => ⟨S_, .f32⟩
  | 27 => ⟨S65536, .f32⟩
  | 28 => ⟨S_, .f32⟩
  | 29 => ⟨S65536, .f32⟩
  | 30 => ⟨S65536, .f32⟩
  | 31 => ⟨S65536x1, .f32⟩
  | 32 => ⟨S65536x512, .f32⟩
  | 33 => ⟨S65536x512, .f32⟩
  | 34 => ⟨S65536x512, .f32⟩
  | 35 => ⟨S_, .f32⟩
  | 36 => ⟨S65536, .f32⟩
  | 37 => ⟨S65536x1, .f32⟩
  | 38 => ⟨S65536x512, .f32⟩
  | 39 => ⟨S65536x512, .f32⟩
  | 40 => ⟨S65536x256, .f32⟩
  | 41 => ⟨S_, .f32⟩
  | 42 => ⟨S512, .f32⟩
  | 43 => ⟨S512, .f32⟩
  | 44 => ⟨S_, .f32⟩
  | 45 => ⟨S512, .f32⟩
  | 46 => ⟨S_, .f32⟩
  | 47 => ⟨S512, .f32⟩
  | 48 => ⟨S512, .f32⟩
  | 49 => ⟨S512, .f32⟩
  | 50 => ⟨S_, .f32⟩
  | 51 => ⟨S_, .f32⟩
  | 52 => ⟨S_, .f32⟩
  | 53 => ⟨S512, .f32⟩
  | 54 => ⟨S512, .f32⟩
  | 55 => ⟨S_, .f32⟩
  | 56 => ⟨S_, .f32⟩
  | 57 => ⟨S512, .f32⟩
  | 58 => ⟨S512, .f32⟩
  | 59 => ⟨S512, .f32⟩
  | 60 => ⟨S512, .f32⟩
  | 61 => ⟨S512x65536, .f32⟩
  | 62 => ⟨S512x256, .f32⟩
  | 63 => ⟨S_, .f32⟩
  | 64 => ⟨S512x256, .f32⟩
  | 65 => ⟨S512x256, .f32⟩
  | 66 => ⟨S_, .f32⟩
  | 67 => ⟨S512x256, .f32⟩
  | 68 => ⟨S512x256, .f32⟩
  | 69 => ⟨S512x256, .f32⟩
  | 70 => ⟨S512x1, .f32⟩
  | 71 => ⟨S512x256, .f32⟩
  | 72 => ⟨S512x256, .f32⟩
  | 73 => ⟨S_, .f32⟩
  | 74 => ⟨S512, .f32⟩
  | 75 => ⟨S512, .f32⟩
  | 76 => ⟨S_, .f32⟩
  | 77 => ⟨S512, .f32⟩
  | 78 => ⟨S_, .f32⟩
  | 79 => ⟨S512, .f32⟩
  | 80 => ⟨S512, .f32⟩
  | 81 => ⟨S512, .f32⟩
  | 82 => ⟨S65536x256, .f32⟩
  | 83 => ⟨S65536x256, .f32⟩
  | 84 => ⟨S_, .f32⟩
  | 85 => ⟨S_, .f32⟩
  | 86 => ⟨S_, .f32⟩
  | 87 => ⟨S_, .f32⟩
  | 88 => ⟨S65536x256, .f32⟩
  | 89 => ⟨S65536x256, .f32⟩
  | 90 => ⟨S_, .f32⟩
  | 91 => ⟨S_, .f32⟩
  | 92 => ⟨S_, .f32⟩
  | 93 => ⟨S_, .f32⟩
  | 94 => ⟨S512x256, .f32⟩
  | 95 => ⟨S_, .f32⟩
  | 96 => ⟨S_, .f32⟩
  | 97 => ⟨S_, .f32⟩
  | 98 => ⟨S512, .f32⟩
  | 99 => ⟨S_, .f32⟩
  | 100 => ⟨S512, .f32⟩
  | 101 => ⟨S512, .f32⟩
  | 102 => ⟨S_, .f32⟩
  | 103 => ⟨S512, .f32⟩
  | 104 => ⟨S512, .f32⟩
  | 105 => ⟨S512, .f32⟩
  | 106 => ⟨S512, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S512, .f32⟩
  | 115 => ⟨S512, .f32⟩
  | 116 => ⟨S_, .f32⟩
  | 117 => ⟨S512, .f32⟩
  | 118 => ⟨S512, .f32⟩
  | 119 => ⟨S512, .f32⟩
  | 120 => ⟨S512, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S65536x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S65536x256, .f32⟩
  | 6 => ⟨S65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_19 : Ref sig .tc := ⟨.hbm, 90, rfl⟩
abbrev main_v65 : Ref sig .tc := ⟨.hbm, 91, rfl⟩
abbrev main_cst_20 : Ref sig .tc := ⟨.hbm, 92, rfl⟩
abbrev main_v66 : Ref sig .tc := ⟨.hbm, 93, rfl⟩
abbrev main_v67 : Ref sig .tc := ⟨.hbm, 94, rfl⟩
abbrev main_cst_21 : Ref sig .tc := ⟨.hbm, 95, rfl⟩
abbrev main_v68 : Ref sig .tc := ⟨.hbm, 96, rfl⟩
abbrev main_cst_22 : Ref sig .tc := ⟨.hbm, 97, rfl⟩
abbrev main_v69 : Ref sig .tc := ⟨.hbm, 98, rfl⟩
abbrev main_cst_23 : Ref sig .tc := ⟨.hbm, 99, rfl⟩
abbrev main_v70 : Ref sig .tc := ⟨.hbm, 100, rfl⟩
abbrev main_v71 : Ref sig .tc := ⟨.hbm, 101, rfl⟩
abbrev main_cst_24 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_25 : Ref sig .tc := ⟨.hbm, 107, rfl⟩
abbrev main_v76 : Ref sig .tc := ⟨.hbm, 108, rfl⟩
abbrev main_v77 : Ref sig .tc := ⟨.hbm, 109, rfl⟩
abbrev main_cst_26 : Ref sig .tc := ⟨.hbm, 110, rfl⟩
abbrev main_v78 : Ref sig .tc := ⟨.hbm, 111, rfl⟩
abbrev main_cst_27 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_28 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_29 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_30 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_31 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S512x256_S512_d1 : S512x256.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x256 : S_.BroadcastsInDim S65536x256 (![] : Fin 0 → Fin S65536x256.rank)
  transposes_S512x256_S256x512_1_0 : S512x256.Transposes [1, 0] S256x512
  bcast_S_S65536x512 : S_.BroadcastsInDim S65536x512 (![] : Fin 0 → Fin S65536x512.rank)
  reducesTo_S65536x512_S65536_d1 : S65536x512.ReducesTo [1] S65536
  bcast_S_S65536 : S_.BroadcastsInDim S65536 (![] : Fin 0 → Fin S65536.rank)
  bcast_S_S512 : S_.BroadcastsInDim S512 (![] : Fin 0 → Fin S512.rank)
  reducesTo_S65536x512_S512_d0 : S65536x512.ReducesTo [0] S512
  reducesTo_S512_S_d0 : S512.ReducesTo [0] S_
  transposes_S65536x512_S512x65536_1_0 : S65536x512.Transposes [1, 0] S512x65536
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  reducesTo_S65536x256_S_d0_1 : S65536x256.ReducesTo [0, 1] S_
  reducesTo_S512x256_S_d0_1 : S512x256.ReducesTo [0, 1] S_
  dot_S65536x256_S256x512_S65536x512_1_0_0_1_n_n_wf : DotDims.WF S65536x256 S256x512 S65536x512 [1] [0] [0] [1] [] []
  dot_S65536x512_S512x256_S65536x256_1_0_0_1_n_n_wf : DotDims.WF S65536x512 S512x256 S65536x256 [1] [0] [0] [1] [] []
  dot_S512x65536_S65536x256_S512x256_1_0_0_1_n_n_wf : DotDims.WF S512x65536 S65536x256 S512x256 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S512x65536_S65536x256_S512x256_1_0_0_1_n_n : DotDims S512x65536 S65536x256 S512x256 where
  lhsContracting := [1]
  rhsContracting := [0]
  lhsNonContracting := [0]
  rhsNonContracting := [1]
  lhsBatch := []
  rhsBatch := []
  wf := dot_S512x65536_S65536x256_S512x256_1_0_0_1_n_n_wf

class Facts : Prop extends Facts₀ where

variable [Facts]
-- ==== Proof.KShared.lean ====
/-
  What the two runs of the kernel body share. The program is five host lines (the code vectors' squared lengths as
  a row), one launch over a 2 × 16 grid, and eighty-two host lines after it. Stated here: what the region finds in
  each array (the launch-time memory after the five lines), that the later lines neither allocate nor write any
  array the launch stages, that no line at all writes an argument, the block of each window at a grid point, that
  an input's staging buffer always holds its block, and the body's one branch condition — "this is the first
  point of its core" — in closed form over the 32 points.
-/
import proofs.«128212_j45775761441268_2_alg».proof.Proof.Gen.Kernel.Launch
import proofs.«128212_j45775761441268_2_alg».proof.Proof.Gen.Kernel.Skeleton
import proofs.«128212_j45775761441268_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch-time memory after the five host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
-- the list of later lines has eighty-two entries: unfolding the conjunction over it exceeds the default budget
set_option maxHeartbeats 8000000 in
theorem hostOps1_fresh : (hostOps1 : List (HloOp τ sig (Elt F))).Forall fun op => op.fresh = ∅ := by
  simp only [List.Forall]; repeat' constructor

-- the chain carries the eighty-two later lines as one stretch: the term over it exceeds the default budget
set_option maxHeartbeats 8000000 in
/-- @main is the five lines, the region, the eighty-two lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the staged arrays and the buffers that bypass the launch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem keeps_main_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v3 : (hostOps1 : List (HloOp τ sig (Elt F))).Forall fun op => Proc.devRef .tc main_v3 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v4_0 : (hostOps1 : List (HloOp τ sig (Elt F))).Forall fun op => Proc.devRef .tc main_v4_0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v4_1 : (hostOps1 : List (HloOp τ sig (Elt F))).Forall fun op => Proc.devRef .tc main_v4_1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v4_2 : (hostOps1 : List (HloOp τ sig (Elt F))).Forall fun op => Proc.devRef .tc main_v4_2 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v4_3 : (hostOps1 : List (HloOp τ sig (Elt F))).Forall fun op => Proc.devRef .tc main_v4_3 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each later line writes only its own result buffer, and no result buffer of a later line is a staged array. -/
theorem hostOps1_keeps (w : Fin 7) : (hostOps1 : List (HloOp τ sig (Elt F))).Forall fun op =>
    Proc.devRef .tc (Pipeline.arrRef spec0 w) ∉ op.writes :=
  match w with
  | ⟨0, _⟩ => keeps_main_arg0
  | ⟨1, _⟩ => keeps_main_arg1
  | ⟨2, _⟩ => keeps_main_v3
  | ⟨3, _⟩ => keeps_main_v4_0
  | ⟨4, _⟩ => keeps_main_v4_1
  | ⟨5, _⟩ => keeps_main_v4_2
  | ⟨6, _⟩ => keeps_main_v4_3
/-- So the later lines write no staged array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  · exact (List.forall_iff_forall_mem.mp (hostOps1_keeps w)) op hop

/-- None of the five host lines before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the five host lines before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the five host lines before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the five host lines before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the five host lines before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host lines after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- None of the host lines after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- None of the host lines after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- From a run that ends with every staged array at what the proof data say and every other buffer as the later
    lines leave it, the five arguments end as launched: the data and the code book are staged inputs, the three
    small arrays are staged by no window and written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The body's branch condition -/

/-- The body's one conditional: the point's second coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 16): the first point of each core. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of output window 3, through which its contents are stated. -/
abbrev VO0_3 : View sig .tc .vmem S2048x256 .f32 := (Memref.whole cc0_stg3_0 : Memref sig .tc .vmem S2048x256 .f32).view
/-- One staging buffer of output window 4, through which its contents are stated. -/
abbrev VO0_4 : View sig .tc .vmem S1x1x512 .f32 := (Memref.whole cc0_stg4_0 : Memref sig .tc .vmem S1x1x512 .f32).view
/-- One staging buffer of output window 5, through which its contents are stated. -/
abbrev VO0_5 : View sig .tc .vmem S1x512x256 .f32 := (Memref.whole cc0_stg5_0 : Memref sig .tc .vmem S1x512x256 .f32).view
/-- One staging buffer of output window 6, through which its contents are stated. -/
abbrev VO0_6 : View sig .tc .vmem S1x1x1 .f32 := (Memref.whole cc0_stg6_0 : Memref sig .tc .vmem S1x1x1 .f32).view
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)

end Cert.Kernel.Gen.Hand

end
-- ==== Proof.KRunA.lean ====
/-
  The kernel body run once, symbolically, at a point whose second coordinate is zero (the first point of a core): the three
  accumulators are first stored as zero, then the block is scored, quantized and stored, and each accumulator is
  read back and stored again with the block's contribution added.
  The run yields, for each of the four output buffers, the list of pieces the body's stores leave in it.
-/
import proofs.«128212_j45775761441268_2_alg».proof.Proof.KShared

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the three inputs at their contents `x0 x1 x2`, the quantized block's buffer at anything,
    the accumulators' at anything — the body runs to the continuation holding the inputs as they were and each output
    buffer with the body's pieces written. -/
noncomputable def kernelRun0_A (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) :
    Σ' (L3 : List (View.Piece (Elt F) S2048x256 .f32)) (L4 : List (View.Piece (Elt F) S1x1x512 .f32)) (L5 : List (View.Piece (Elt F) S1x512x256 .f32)), { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__vq_kernel i arg2 harg2 arg3 harg3 arg4 harg4 arg5 harg5 arg6 harg6 arg7 harg7 arg8 harg8) K } := by
  refine ⟨?_, ?_, ?_, ?_, fun E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.Kernel.Gen.Hand

end
-- ==== Proof.KRunB.lean ====
/-
  The kernel body run once, symbolically, at a point whose second coordinate is not zero: the three accumulators are handed in at
  their running contents, the block is scored, quantized and stored, and each accumulator is read back and stored
  again with the block's contribution added.
  The run yields, for each of the four output buffers, the list of pieces the body's stores leave in it.
-/
import proofs.«128212_j45775761441268_2_alg».proof.Proof.KRunA

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the three inputs at their contents `x0 x1 x2`, the quantized block's buffer at anything,
    the accumulators' at their running contents `xo4 xo5 xo6` — the body runs to the continuation holding the inputs as they were and each output
    buffer with the body's pieces written. -/
noncomputable def kernelRun0_B (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) :
    Σ' (L3 : List (View.Piece (Elt F) S2048x256 .f32)) (L4 : List (View.Piece (Elt F) S1x1x512 .f32)) (L5 : List (View.Piece (Elt F) S1x512x256 .f32)), { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__vq_kernel i arg2 harg2 arg3 harg3 arg4 harg4 arg5 harg5 arg6 harg6 arg7 harg7 arg8 harg8) K } := by
  refine ⟨?_, ?_, ?_, ?_, fun E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.Kernel.Gen.Hand

end
-- ==== Proof.KFrame.lean ====
/-
  The launch as a whole. At each of the 32 grid points the body leaves the quantized block in the first output's
  buffer and the three running sums in the other three; the sums are carried from a point to the next (their
  buffers are written back only after a core's sixteenth point) and restart from zero at a core's first point.
  `outsAt0` names what the four buffers hold after each point, by recursion on the point; with it as proof data
  the body meets its obligation at every point, the launch theorem gives the run of the whole program — five
  host lines, the region, eighty-two host lines — and the five arguments end as they were launched.
-/
import proofs.«128212_j45775761441268_2_alg».proof.Proof.KRunB

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 3 tile its block, so they cover it. -/
theorem cover0_A_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) (y : S2048x256.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S2048x256.size (by sl_kernel_rfl) y

/-- What case A leaves in output 3's staging buffer: its pieces read back. -/
def out0_A_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) : Vec F S2048x256 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

/-- Case A's pieces for output 4 tile its block, so they cover it. -/
theorem cover0_A_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) (y : S1x1x512.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S1x1x512.size (by sl_kernel_rfl) y

/-- What case A leaves in output 4's staging buffer: its pieces read back. -/
def out0_A_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) : Vec F S1x1x512 .f32 :=
  VO0_4.read (Elt F) (VO0_4.writes (Elt F) VO0_4.junk (kernelRun0_A c i arg2 harg2 arg3 harg3 arg4 harg4 arg5 harg5 arg6 harg6 arg7 harg7 arg8 harg8 hc0 x0 x1 x2).2.1)

/-- Case A's pieces for output 5 tile its block, so they cover it. -/
theorem cover0_A_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) (y : S1x512x256.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S1x512x256.size (by sl_kernel_rfl) y

/-- What case A leaves in output 5's staging buffer: its pieces read back. -/
def out0_A_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) : Vec F S1x512x256 .f32 :=
  VO0_5.read (Elt F) (VO0_5.writes (Elt F) VO0_5.junk (kernelRun0_A c i arg2 harg2 arg3 harg3 arg4 harg4 arg5 harg5 arg6 harg6 arg7 harg7 arg8 harg8 hc0 x0 x1 x2).2.2.1)

/-- Case A's pieces for output 6 tile its block, so they cover it. -/
theorem cover0_A_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) (y : S1x1x1.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S1x1x1.size (by sl_kernel_rfl) y

/-- What case A leaves in output 6's staging buffer: its pieces read back. -/
def out0_A_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) : Vec F S1x1x1 .f32 :=
  VO0_6.read (Elt F) (VO0_6.writes (Elt F) VO0_6.junk (kernelRun0_A c i arg2 harg2 arg3 harg3 arg4 harg4 arg5 harg5 arg6 harg6 arg7 harg7 arg8 harg8 hc0 x0 x1 x2).2.2.2.1)

/-- Case B's pieces for output 3 tile its block, so they cover it. -/
theorem cover0_B_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) (y : S2048x256.Idx) :
    ∃ pc ∈ (kernelRun0_B c i arg2 harg2 arg3 harg3 arg4 harg4 arg5 harg5 arg6 harg6 arg7 harg7 arg8 harg8 hc0 x0 x1 x2 xo4 xo5 xo6).1, y ∈ pc.1.set :=
  View.cover_of_tiledL (kernelRun0_B c i arg2 harg2 arg3 harg3 arg4 harg4 arg5 harg5 arg6 harg6 arg7 harg7 arg8 harg8 hc0 x0 x1 x2 xo4 xo5 xo6).1 S2048x256.size (by sl_kernel_rfl) y

/-- What case B leaves in output 3's staging buffer: its pieces read back. -/
def out0_B_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) : Vec F S2048x256 .f32 :=
  VO0_3.read (Elt F) (VO0_3.writes (Elt F) VO0_3.junk (kernelRun0_B c i arg2 harg2 arg3 harg3 arg4 harg4 arg5 harg5 arg6 harg6 arg7 harg7 arg8 harg8 hc0 x0 x1 x2 xo4 xo5 xo6).1)

/-- Case B's pieces for output 4 tile its block, so they cover it. -/
theorem cover0_B_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) (y : S1x1x512.Idx) :
    ∃ pc ∈ (kernelRun0_B c i arg2 harg2 arg3 harg3 arg4 harg4 arg5 harg5 arg6 harg6 arg7 harg7 arg8 harg8 hc0 x0 x1 x2 xo4 xo5 xo6).2.1, y ∈ pc.1.set :=
  View.cover_of_tiledL (kernelRun0_B c i arg2 harg2 arg3 harg3 arg4 harg4 arg5 harg5 arg6 harg6 arg7 harg7 arg8 harg8 hc0 x0 x1 x2 xo4 xo5 xo6).2.1 S1x1x512.size (by sl_kernel_rfl) y

/-- What case B leaves in output 4's staging buffer: its pieces read back. -/
def out0_B_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) : Vec F S1x1x512 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 xo4 xo5 xo6).2.1)

/-- Case B's pieces for output 5 tile its block, so they cover it. -/
theorem cover0_B_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) (y : S1x512x256.Idx) :
    ∃ pc ∈ (kernelRun0_B c i arg2 harg2 arg3 harg3 arg4 harg4 arg5 harg5 arg6 harg6 arg7 harg7 arg8 harg8 hc0 x0 x1 x2 xo4 xo5 xo6).2.2.1, y ∈ pc.1.set :=
  View.cover_of_tiledL (kernelRun0_B c i arg2 harg2 arg3 harg3 arg4 harg4 arg5 harg5 arg6 harg6 arg7 harg7 arg8 harg8 hc0 x0 x1 x2 xo4 xo5 xo6).2.2.1 S1x512x256.size (by sl_kernel_rfl) y

/-- What case B leaves in output 5's staging buffer: its pieces read back. -/
def out0_B_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) : Vec F S1x512x256 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 xo4 xo5 xo6).2.2.1)

/-- Case B's pieces for output 6 tile its block, so they cover it. -/
theorem cover0_B_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) (y : S1x1x1.Idx) :
    ∃ pc ∈ (kernelRun0_B c i arg2 harg2 arg3 harg3 arg4 harg4 arg5 harg5 arg6 harg6 arg7 harg7 arg8 harg8 hc0 x0 x1 x2 xo4 xo5 xo6).2.2.2.1, y ∈ pc.1.set :=
  View.cover_of_tiledL (kernelRun0_B c i arg2 harg2 arg3 harg3 arg4 harg4 arg5 harg5 arg6 harg6 arg7 harg7 arg8 harg8 hc0 x0 x1 x2 xo4 xo5 xo6).2.2.2.1 S1x1x1.size (by sl_kernel_rfl) y

/-- What case B leaves in output 6's staging buffer: its pieces read back. -/
def out0_B_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) : Vec F S1x1x1 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 xo4 xo5 xo6).2.2.2.1)

/-! ## What the four output buffers hold after each point -/

/-- After the body at position `n`: the first point of a core runs the zeroing case on the point's blocks; any other
    point runs the accumulating case on the point's blocks and on what the point before left in the three sums. -/
def outsAt0 (c : Dev nD) : (n : ℕ) → n < cfg0.N → Vec F S2048x256 .f32 × Vec F S1x1x512 .f32 × Vec F S1x512x256 .f32 × Vec F S1x1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
        out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)

/-- At a core's first point: the zeroing case's contents. -/
theorem outsAt0_A (c : Dev nD) (t : Fin cfg0.N) (h0 : t.val % 16 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
        out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
        out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) := by
  obtain ⟨n, hn⟩ := t
  cases n with
  | zero => exact rfl
  | succ n => exact (dif_pos h0).trans rfl

/-- At any other point: the accumulating case's contents, over what the point before left. -/
theorem outsAt0_B (c : Dev nD) (t : Fin cfg0.N) (h0 : ¬t.val % 16 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The proof data -/

/-- On core `c`: the arrays as the region finds them; after the body at point `t` each input's buffer at its block and
    the four outputs' at `outsAt0`; the invariant only the random-number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point that is not a core's first, running sum 4's current buffer holds what the body left at the point before:
    the buffer is written back only after a core's last point, and the window is live and uncut. -/
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
/-- At a point that is not a core's first, running sum 5's current buffer holds what the body left at the point before:
    the buffer is written back only after a core's last point, and the window is live and uncut. -/
theorem before0_5_B (c : Dev nD) (t : Fin cfg0.N) (h0 : ¬t.val % 16 = 0) (d) :
    (dats m 0 c).before 5 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]
/-- At a point that is not a core's first, running sum 6's current buffer holds what the body left at the point before:
    the buffer is written back only after a core's last point, and the window is live and uncut. -/
theorem before0_6_B (c : Dev nD) (t : Fin cfg0.N) (h0 : ¬t.val % 16 = 0) (d) :
    (dats m 0 c).before 6 t d = (outsAt0 m c (t.val - 1) (Nat.lt_of_le_of_lt (Nat.sub_le _ _) t.isLt)).2.2.2 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4000000 in
/-- At any point the inputs' buffers hold their blocks; the point is a core's first or not; if not, the three running
    sums' buffers hold what the point before left; so the case's run applies, and each output buffer ends at the
    case's pieces read back, which is `outsAt0` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 32 := lt_of_lt_of_eq t.isLt (show cfg0.N = 32 from N_0)
  by_cases h0 : t.val % 16 = 0
  · rw [outsAt0_A m c t h0]
    dsimp only
    unfold out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _)
  · rw [outsAt0_B m c t h0]
    simp only [before0_4_B m c t h0, before0_5_B m c t h0, before0_6_B m c t h0]
    (try dsimp only)
    unfold out0_B_3 out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) _ _ _).2.2.2.2 Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem is applied to a program whose later stretch has eighty-two lines: the term exceeds the default budget
set_option maxHeartbeats 8000000 in
set_option backward.isDefEq.respectTransparency.types false in
/-- From any memory with zero counters every weakly fair execution of @main terminates, and every final state has
    each staged array at what the proof data give and every other buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => Idealize.SL.BI.Entails.refl _) (hout := fun c => Idealize.SL.BI.Entails.refl _)

/-- The program runs to the end, nothing faults, and the five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Gen.Hand

end
-- ==== Proof.KIShared.lean ====
/-
  What the two runs of the kernel body share. The program is five host lines (the code vectors' squared lengths as
  a row), one launch over a 2 × 16 grid, and eighty-two host lines after it. Stated here: what the region finds in
  each array (the launch-time memory after the five lines), that the later lines neither allocate nor write any
  array the launch stages, that no line at all writes an argument, the block of each window at a grid point, that
  an input's staging buffer always holds its block, and the body's one branch condition — "this is the first
  point of its core" — in closed form over the 32 points.
-/
import proofs.«128212_j45775761441268_2_alg».proof.Proof.Gen.KernelIdeal.Launch
import proofs.«128212_j45775761441268_2_alg».proof.Proof.Gen.KernelIdeal.Skeleton
import proofs.«128212_j45775761441268_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch-time memory after the five host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
-- the list of later lines has eighty-two entries: unfolding the conjunction over it exceeds the default budget
set_option maxHeartbeats 8000000 in
theorem hostOps1_fresh : (hostOps1 : List (HloOp τ sig (Elt F))).Forall fun op => op.fresh = ∅ := by
  simp only [List.Forall]; repeat' constructor

-- the chain carries the eighty-two later lines as one stretch: the term over it exceeds the default budget
set_option maxHeartbeats 8000000 in
/-- @main is the five lines, the region, the eighty-two lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the staged arrays and the buffers that bypass the launch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem keeps_main_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v3 : (hostOps1 : List (HloOp τ sig (Elt F))).Forall fun op => Proc.devRef .tc main_v3 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v4_0 : (hostOps1 : List (HloOp τ sig (Elt F))).Forall fun op => Proc.devRef .tc main_v4_0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v4_1 : (hostOps1 : List (HloOp τ sig (Elt F))).Forall fun op => Proc.devRef .tc main_v4_1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v4_2 : (hostOps1 : List (HloOp τ sig (Elt F))).Forall fun op => Proc.devRef .tc main_v4_2 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keeps_main_v4_3 : (hostOps1 : List (HloOp τ sig (Elt F))).Forall fun op => Proc.devRef .tc main_v4_3 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each later line writes only its own result buffer, and no result buffer of a later line is a staged array. -/
theorem hostOps1_keeps (w : Fin 7) : (hostOps1 : List (HloOp τ sig (Elt F))).Forall fun op =>
    Proc.devRef .tc (Pipeline.arrRef spec0 w) ∉ op.writes :=
  match w with
  | ⟨0, _⟩ => keeps_main_arg0
  | ⟨1, _⟩ => keeps_main_arg1
  | ⟨2, _⟩ => keeps_main_v3
  | ⟨3, _⟩ => keeps_main_v4_0
  | ⟨4, _⟩ => keeps_main_v4_1
  | ⟨5, _⟩ => keeps_main_v4_2
  | ⟨6, _⟩ => keeps_main_v4_3
/-- So the later lines write no staged array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  · exact (List.forall_iff_forall_mem.mp (hostOps1_keeps w)) op hop

/-- None of the five host lines before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the five host lines before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the five host lines before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the five host lines before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the five host lines before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- None of the host lines after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- None of the host lines after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- None of the host lines after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- From a run that ends with every staged array at what the proof data say and every other buffer as the later
    lines leave it, the five arguments end as launched: the data and the code book are staged inputs, the three
    small arrays are staged by no window and written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The body's branch condition -/

/-- The body's one conditional: the point's second coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 16): the first point of each core. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of output window 3, through which its contents are stated. -/
abbrev VO0_3 : View sig .tc .vmem S2048x256 .f32 := (Memref.whole cc0_stg3_0 : Memref sig .tc .vmem S2048x256 .f32).view
/-- One staging buffer of output window 4, through which its contents are stated. -/
abbrev VO0_4 : View sig .tc .vmem S1x1x512 .f32 := (Memref.whole cc0_stg4_0 : Memref sig .tc .vmem S1x1x512 .f32).view
/-- One staging buffer of output window 5, through which its contents are stated. -/
abbrev VO0_5 : View sig .tc .vmem S1x512x256 .f32 := (Memref.whole cc0_stg5_0 : Memref sig .tc .vmem S1x512x256 .f32).view
/-- One staging buffer of output window 6, through which its contents are stated. -/
abbrev VO0_6 : View sig .tc .vmem S1x1x1 .f32 := (Memref.whole cc0_stg6_0 : Memref sig .tc .vmem S1x1x1 .f32).view
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)

end Cert.KernelIdeal.Gen.Hand

end
-- ==== Proof.KIRunA.lean ====
/-
  The kernel body run once, symbolically, at a point whose second coordinate is zero (the first point of a core): the three
  accumulators are first stored as zero, then the block is scored, quantized and stored, and each accumulator is
  read back and stored again with the block's contribution added.
  The run yields, for each of the four output buffers, the list of pieces the body's stores leave in it.
-/
import proofs.«128212_j45775761441268_2_alg».proof.Proof.KIShared

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the three inputs at their contents `x0 x1 x2`, the quantized block's buffer at anything,
    the accumulators' at anything — the body runs to the continuation holding the inputs as they were and each output
    buffer with the body's pieces written. -/
noncomputable def kernelRun0_A (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) :
    Σ' (L3 : List (View.Piece (Elt F) S2048x256 .f32)) (L4 : List (View.Piece (Elt F) S1x1x512 .f32)) (L5 : List (View.Piece (Elt F) S1x512x256 .f32)), { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__vq_kernel i arg2 harg2 arg3 harg3 arg4 harg4 arg5 harg5 arg6 harg6 arg7 harg7 arg8 harg8) K } := by
  refine ⟨?_, ?_, ?_, ?_, fun E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.KernelIdeal.Gen.Hand

end
-- ==== Proof.KIRunB.lean ====
/-
  The kernel body run once, symbolically, at a point whose second coordinate is not zero: the three accumulators are handed in at
  their running contents, the block is scored, quantized and stored, and each accumulator is read back and stored
  again with the block's contribution added.
  The run yields, for each of the four output buffers, the list of pieces the body's stores leave in it.
-/
import proofs.«128212_j45775761441268_2_alg».proof.Proof.KIRunA

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the three inputs at their contents `x0 x1 x2`, the quantized block's buffer at anything,
    the accumulators' at their running contents `xo4 xo5 xo6` — the body runs to the continuation holding the inputs as they were and each output
    buffer with the body's pieces written. -/
noncomputable def kernelRun0_B (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) :
    Σ' (L3 : List (View.Piece (Elt F) S2048x256 .f32)) (L4 : List (View.Piece (Elt F) S1x1x512 .f32)) (L5 : List (View.Piece (Elt F) S1x512x256 .f32)), { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__vq_kernel i arg2 harg2 arg3 harg3 arg4 harg4 arg5 harg5 arg6 harg6 arg7 harg7 arg8 harg8) K } := by
  refine ⟨?_, ?_, ?_, ?_, fun E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.KernelIdeal.Gen.Hand

end
-- ==== Proof.KIFrame.lean ====
/-
  The launch as a whole. At each of the 32 grid points the body leaves the quantized block in the first output's
  buffer and the three running sums in the other three; the sums are carried from a point to the next (their
  buffers are written back only after a core's sixteenth point) and restart from zero at a core's first point.
  `outsAt0` names what the four buffers hold after each point, by recursion on the point; with it as proof data
  the body meets its obligation at every point, the launch theorem gives the run of the whole program — five
  host lines, the region, eighty-two host lines — and the five arguments end as they were launched.
-/
import proofs.«128212_j45775761441268_2_alg».proof.Proof.KIRunB

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 3 tile its block, so they cover it. -/
theorem cover0_A_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) (y : S2048x256.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S2048x256.size (by sl_kernel_rfl) y

/-- What case A leaves in output 3's staging buffer: its pieces read back. -/
def out0_A_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) : Vec F S2048x256 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

/-- Case A's pieces for output 4 tile its block, so they cover it. -/
theorem cover0_A_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) (y : S1x1x512.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S1x1x512.size (by sl_kernel_rfl) y

/-- What case A leaves in output 4's staging buffer: its pieces read back. -/
def out0_A_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) : Vec F S1x1x512 .f32 :=
  VO0_4.read (Elt F) (VO0_4.writes (Elt F) VO0_4.junk (kernelRun0_A c i arg2 harg2 arg3 harg3 arg4 harg4 arg5 harg5 arg6 harg6 arg7 harg7 arg8 harg8 hc0 x0 x1 x2).2.1)

/-- Case A's pieces for output 5 tile its block, so they cover it. -/
theorem cover0_A_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) (y : S1x512x256.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S1x512x256.size (by sl_kernel_rfl) y

/-- What case A leaves in output 5's staging buffer: its pieces read back. -/
def out0_A_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) : Vec F S1x512x256 .f32 :=
  VO0_5.read (Elt F) (VO0_5.writes (Elt F) VO0_5.junk (kernelRun0_A c i arg2 harg2 arg3 harg3 arg4 harg4 arg5 harg5 arg6 harg6 arg7 harg7 arg8 harg8 hc0 x0 x1 x2).2.2.1)

/-- Case A's pieces for output 6 tile its block, so they cover it. -/
theorem cover0_A_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) (y : S1x1x1.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S1x1x1.size (by sl_kernel_rfl) y

/-- What case A leaves in output 6's staging buffer: its pieces read back. -/
def out0_A_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) : Vec F S1x1x1 .f32 :=
  VO0_6.read (Elt F) (VO0_6.writes (Elt F) VO0_6.junk (kernelRun0_A c i arg2 harg2 arg3 harg3 arg4 harg4 arg5 harg5 arg6 harg6 arg7 harg7 arg8 harg8 hc0 x0 x1 x2).2.2.2.1)

/-- Case B's pieces for output 3 tile its block, so they cover it. -/
theorem cover0_B_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) (y : S2048x256.Idx) :
    ∃ pc ∈ (kernelRun0_B c i arg2 harg2 arg3 harg3 arg4 harg4 arg5 harg5 arg6 harg6 arg7 harg7 arg8 harg8 hc0 x0 x1 x2 xo4 xo5 xo6).1, y ∈ pc.1.set :=
  View.cover_of_tiledL (kernelRun0_B c i arg2 harg2 arg3 harg3 arg4 harg4 arg5 harg5 arg6 harg6 arg7 harg7 arg8 harg8 hc0 x0 x1 x2 xo4 xo5 xo6).1 S2048x256.size (by sl_kernel_rfl) y

/-- What case B leaves in output 3's staging buffer: its pieces read back. -/
def out0_B_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) : Vec F S2048x256 .f32 :=
  VO0_3.read (Elt F) (VO0_3.writes (Elt F) VO0_3.junk (kernelRun0_B c i arg2 harg2 arg3 harg3 arg4 harg4 arg5 harg5 arg6 harg6 arg7 harg7 arg8 harg8 hc0 x0 x1 x2 xo4 xo5 xo6).1)

/-- Case B's pieces for output 4 tile its block, so they cover it. -/
theorem cover0_B_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) (y : S1x1x512.Idx) :
    ∃ pc ∈ (kernelRun0_B c i arg2 harg2 arg3 harg3 arg4 harg4 arg5 harg5 arg6 harg6 arg7 harg7 arg8 harg8 hc0 x0 x1 x2 xo4 xo5 xo6).2.1, y ∈ pc.1.set :=
  View.cover_of_tiledL (kernelRun0_B c i arg2 harg2 arg3 harg3 arg4 harg4 arg5 harg5 arg6 harg6 arg7 harg7 arg8 harg8 hc0 x0 x1 x2 xo4 xo5 xo6).2.1 S1x1x512.size (by sl_kernel_rfl) y

/-- What case B leaves in output 4's staging buffer: its pieces read back. -/
def out0_B_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) : Vec F S1x1x512 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 xo4 xo5 xo6).2.1)

/-- Case B's pieces for output 5 tile its block, so they cover it. -/
theorem cover0_B_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) (y : S1x512x256.Idx) :
    ∃ pc ∈ (kernelRun0_B c i arg2 harg2 arg3 harg3 arg4 harg4 arg5 harg5 arg6 harg6 arg7 harg7 arg8 harg8 hc0 x0 x1 x2 xo4 xo5 xo6).2.2.1, y ∈ pc.1.set :=
  View.cover_of_tiledL (kernelRun0_B c i arg2 harg2 arg3 harg3 arg4 harg4 arg5 harg5 arg6 harg6 arg7 harg7 arg8 harg8 hc0 x0 x1 x2 xo4 xo5 xo6).2.2.1 S1x512x256.size (by sl_kernel_rfl) y

/-- What case B leaves in output 5's staging buffer: its pieces read back. -/
def out0_B_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) : Vec F S1x512x256 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 xo4 xo5 xo6).2.2.1)

/-- Case B's pieces for output 6 tile its block, so they cover it. -/
theorem cover0_B_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) (y : S1x1x1.Idx) :
    ∃ pc ∈ (kernelRun0_B c i arg2 harg2 arg3 harg3 arg4 harg4 arg5 harg5 arg6 harg6 arg7 harg7 arg8 harg8 hc0 x0 x1 x2 xo4 xo5 xo6).2.2.2.1, y ∈ pc.1.set :=
  View.cover_of_tiledL (kernelRun0_B c i arg2 harg2 arg3 harg3 arg4 harg4 arg5 harg5 arg6 harg6 arg7 harg7 arg8 harg8 hc0 x0 x1 x2 xo4 xo5 xo6).2.2.2.1 S1x1x1.size (by sl_kernel_rfl) y

/-- What case B leaves in output 6's staging buffer: its pieces read back. -/
def out0_B_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) : Vec F S1x1x1 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 xo4 xo5 xo6).2.2.2.1)

/-! ## What the four output buffers hold after each point -/

/-- After the body at position `n`: the first point of a core runs the zeroing case on the point's blocks; any other
    point runs the accumulating case on the point's blocks and on what the point before left in the three sums. -/
def outsAt0 (c : Dev nD) : (n : ℕ) → n < cfg0.N → Vec F S2048x256 .f32 × Vec F S1x1x512 .f32 × Vec F S1x512x256 .f32 × Vec F S1x1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
        out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2,
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)

/-- At a core's first point: the zeroing case's contents. -/
theorem outsAt0_A (c : Dev nD) (t : Fin cfg0.N) (h0 : t.val % 16 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
        out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
        out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) := by
  obtain ⟨n, hn⟩ := t
  cases n with
  | zero => exact rfl
  | succ n => exact (dif_pos h0).trans rfl

/-- At any other point: the accumulating case's contents, over what the point before left. -/
theorem outsAt0_B (c : Dev nD) (t : Fin cfg0.N) (h0 : ¬t.val % 16 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The proof data -/

/-- On core `c`: the arrays as the region finds them; after the body at point `t` each input's buffer at its block and
    the four outputs' at `outsAt0`; the invariant only the random-number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point that is not a core's first, running sum 4's current buffer holds what the body left at the point before:
    the buffer is written back only after a core's last point, and the window is live and uncut. -/
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
/-- At a point that is not a core's first, running sum 5's current buffer holds what the body left at the point before:
    the buffer is written back only after a core's last point, and the window is live and uncut. -/
theorem before0_5_B (c : Dev nD) (t : Fin cfg0.N) (h0 : ¬t.val % 16 = 0) (d) :
    (dats m 0 c).before 5 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]
/-- At a point that is not a core's first, running sum 6's current buffer holds what the body left at the point before:
    the buffer is written back only after a core's last point, and the window is live and uncut. -/
theorem before0_6_B (c : Dev nD) (t : Fin cfg0.N) (h0 : ¬t.val % 16 = 0) (d) :
    (dats m 0 c).before 6 t d = (outsAt0 m c (t.val - 1) (Nat.lt_of_le_of_lt (Nat.sub_le _ _) t.isLt)).2.2.2 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4000000 in
/-- At any point the inputs' buffers hold their blocks; the point is a core's first or not; if not, the three running
    sums' buffers hold what the point before left; so the case's run applies, and each output buffer ends at the
    case's pieces read back, which is `outsAt0` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 32 := lt_of_lt_of_eq t.isLt (show cfg0.N = 32 from N_0)
  by_cases h0 : t.val % 16 = 0
  · rw [outsAt0_A m c t h0]
    dsimp only
    unfold out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _)
  · rw [outsAt0_B m c t h0]
    simp only [before0_4_B m c t h0, before0_5_B m c t h0, before0_6_B m c t h0]
    (try dsimp only)
    unfold out0_B_3 out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) _ _ _).2.2.2.2 Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem is applied to a program whose later stretch has eighty-two lines: the term exceeds the default budget
set_option maxHeartbeats 8000000 in
set_option backward.isDefEq.respectTransparency.types false in
/-- From any memory with zero counters every weakly fair execution of @main terminates, and every final state has
    each staged array at what the proof data give and every other buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => Idealize.SL.BI.Entails.refl _) (hout := fun c => Idealize.SL.BI.Entails.refl _)

/-- The program runs to the end, nothing faults, and the five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Gen.Hand

end
-- ==== Proof.VqSpec.lean ====
/-
  The vector quantizer's training step as plain functions of its argument arrays, on the extended reals.

  A row `r` of the data (256 numbers) is scored against each of the 512 code vectors `e k`; the scores pass
  through a softmax to give the row's soft assignment; the assignment times the code book is the quantized row.
  The kernel scores a row by `(2·⟨r, e k⟩ − |e k|²)·1`, the reference by `−(|r|² + |e k|² − ⟨2·r, e k⟩)/1`: for
  finite data the two differ by the row's constant `|r|²`, which a softmax does not see.
  From the assignments `enc n k` of all 65536 rows come three sums — the column sums `Σ_n enc n k`, the
  products `Σ_n enc n k · x n d`, and the squared error `Σ_{n,d} (q n d − x n d)²` — and from those, by a
  fixed chain of pointwise operations and sums over the 512 codes, the loss and the perplexity (`tail`).
  Float literals are kept as the words the programs print; none is evaluated here.
-/
import Idealize.ShloMosaic.PureOps.Ideal

noncomputable section

open scoped BigOperators

namespace Cert.Vq

open Idealize.ShloMosaic

/-! ## The literals, as printed -/

abbrev two : EReal := Ideal.ofBits .f32 0x40000000#32      -- 2.0
abbrev one : EReal := Ideal.ofBits .f32 0x3F800000#32      -- 1.0
abbrev c99 : EReal := Ideal.ofBits .f32 0x3F7D70A4#32      -- 0.99
abbrev c01 : EReal := Ideal.ofBits .f32 0x3C23D70A#32      -- 0.01 (also 1.0 − 0.99 rounded)
abbrev eps5 : EReal := Ideal.ofBits .f32 0x3727C5AC#32     -- 1e-05
abbrev keps : EReal := Ideal.ofBits .f32 0x3BA7C5AC#32     -- 512 · 1e-05
abbrev e10 : EReal := Ideal.ofBits .f32 0x2EDBE6FF#32      -- 1e-10
abbrev nTok : EReal := Ideal.ofBits .f32 0x47800000#32     -- 65536
abbrev nAll : EReal := Ideal.ofBits .f32 0x4B800000#32     -- 65536 · 256
abbrev quarter : EReal := Ideal.ofBits .f32 0x3E800000#32  -- 0.25
abbrev p8 : EReal := Ideal.ofBits .f32 0x3F4CCCCD#32       -- 0.8

/-! ## One row -/

/-- The softmax of one row of 512 scores: `exp (L k − max L) / Σ_k' exp (L k' − max L)`. -/
def softRow (L : Fin 512 → EReal) (k : Fin 512) : EReal :=
  Ideal.div (Ideal.exp (L k - Finset.univ.sup L)) (∑ k', Ideal.exp (L k' - Finset.univ.sup L))

/-- The squared length of code vector `k`. -/
def esq (e : Fin 512 → Fin 256 → EReal) (k : Fin 512) : EReal := ∑ d, e k d * e k d

/-- The squared length of a data row. -/
def xsq (r : Fin 256 → EReal) : EReal := ∑ d, r d * r d

/-- The kernel's score of row `r` against code `k`, the code's squared length `s k` handed in. -/
def logitK (r : Fin 256 → EReal) (e : Fin 512 → Fin 256 → EReal) (s : Fin 512 → EReal) (k : Fin 512) : EReal :=
  (two * (∑ d, r d * e k d) - s k) * one

/-- The reference's score of row `r` against code `k`: minus the squared distance, over the temperature 1. -/
def logitR (r : Fin 256 → EReal) (e : Fin 512 → Fin 256 → EReal) (k : Fin 512) : EReal :=
  Ideal.div (-(xsq r + esq e k - ∑ d, (two * r d) * e k d)) one

/-- The kernel's soft assignment of a row. -/
def encK (r : Fin 256 → EReal) (e : Fin 512 → Fin 256 → EReal) (k : Fin 512) : EReal :=
  softRow (logitK r e (esq e)) k

/-- The reference's soft assignment of a row. -/
def encR (r : Fin 256 → EReal) (e : Fin 512 → Fin 256 → EReal) (k : Fin 512) : EReal :=
  softRow (logitR r e) k

/-- A row's assignment times the code book. -/
def quant (a : Fin 512 → EReal) (e : Fin 512 → Fin 256 → EReal) (d : Fin 256) : EReal := ∑ k, a k * e k d

/-! ## All rows -/

/-- Column sums of the assignments of the rows `n : ι`. -/
def encSum {ι : Type} [Fintype ι] (enc : ι → Fin 512 → EReal) (k : Fin 512) : EReal := ∑ n, enc n k

/-- The assignments transposed, times the data. -/
def encTx {ι : Type} [Fintype ι] (enc : ι → Fin 512 → EReal) (x : ι → Fin 256 → EReal) (k : Fin 512) (d : Fin 256) : EReal :=
  ∑ n, enc n k * x n d

/-- The squared error of the quantized rows against the data. -/
def sqErr {ι : Type} [Fintype ι] (q x : ι → Fin 256 → EReal) : EReal :=
  ∑ n, ∑ d, (q n d - x n d) * (q n d - x n d)

/-! ## From the three sums to the loss and the perplexity -/

/-- The updated cluster sizes. -/
def newSize (es ecs : Fin 512 → EReal) (k : Fin 512) : EReal := c99 * ecs k + c01 * es k

/-- The smoothed cluster sizes: `(size + ε) / (n + 512 ε) · n` with `n` the total. -/
def smooth (es ecs : Fin 512 → EReal) (k : Fin 512) : EReal :=
  Ideal.div (newSize es ecs k + eps5) ((∑ k', newSize es ecs k') + keps) * (∑ k', newSize es ecs k')

/-- The updated code book. -/
def newCode (es : Fin 512 → EReal) (dw : Fin 512 → Fin 256 → EReal) (ecs : Fin 512 → EReal)
    (ew : Fin 512 → Fin 256 → EReal) (k : Fin 512) (d : Fin 256) : EReal :=
  Ideal.div (c99 * ew k d + c01 * dw k d) (smooth es ecs k)

/-- Minus the entropy-like sum of a vector of 512 weights: `−Σ p · log (p + 1e-10)`. -/
def negEnt (p : Fin 512 → EReal) : EReal := -(∑ k, p k * Ideal.log (p k + e10))

/-- The average assignment. -/
def avgProb (es : Fin 512 → EReal) (k : Fin 512) : EReal := Ideal.div (es k) nTok

/-- The updated usage counts, normalised. -/
def usageProb (es uc : Fin 512 → EReal) (k : Fin 512) : EReal :=
  Ideal.div (c99 * uc k + c01 * es k) ((∑ k', (c99 * uc k' + c01 * es k')) + eps5)

/-- The perplexity: `exp` of the entropy term of the average assignment. -/
def perplexity (es : Fin 512 → EReal) : EReal := Ideal.exp (negEnt (avgProb es))

/-- The loss: `mse + 0.25·mse + Σ newCode² + 0.8·(entropy term + diversity term)`, `mse` the squared error over
    the number of entries. -/
def loss (es : Fin 512 → EReal) (dw : Fin 512 → Fin 256 → EReal) (se : EReal) (ecs : Fin 512 → EReal)
    (ew : Fin 512 → Fin 256 → EReal) (uc : Fin 512 → EReal) : EReal :=
  ((Ideal.div se nAll + quarter * Ideal.div se nAll)
      + ∑ k, ∑ d, newCode es dw ecs ew k d * newCode es dw ecs ew k d)
    + p8 * (negEnt (avgProb es) + negEnt (usageProb es uc))

end Cert.Vq

end
-- ==== Proof.RefValue.lean ====
/-
  What the reference computes, read off its run one operation at a time and restated through the plain
  functions of VqSpec: its three results are the quantized rows, the loss and the perplexity of the
  reference-form soft assignment of the data against the code book.
-/
import proofs.«128212_j45775761441268_2_alg».proof.Defs
import proofs.«128212_j45775761441268_2_alg».proof.Proof.Gen.ReferenceIdeal.Read
import proofs.«128212_j45775761441268_2_alg».proof.Proof.VqSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.Vq

/-- Row `n` of the data, as a function of the column. -/
abbrev rowsOf (x0 : S65536x256.Idx → EReal) (n : Fin 65536) (d : Fin 256) : EReal := x0 (ix2 n d)
/-- Code vector `k` of the code book, as a function of the column. -/
abbrev codeOf (x1 : S512x256.Idx → EReal) (k : Fin 512) (d : Fin 256) : EReal := x1 (ix2 k d)

variable (x0 : (⟨S65536x256, .f32⟩ : BufTy).Contents (Elt Ideal)) (x1 : (⟨S512x256, .f32⟩ : BufTy).Contents (Elt Ideal))

/-- The reference's score of row `n` against code `k`. -/
theorem logit_at (n : Fin 65536) (k : Fin 512) :
    Read.val_main_v16 (F := Ideal) x0 x1 (ix2 n k) = logitR (rowsOf x0 n) (codeOf x1) k := by
  have e1 : ∀ d : Fin 256, Read.idx_main_v1 (Read.idx_main_v2 (Read.idx_main_v6 (ix2 n k))) d = ix2 n d :=
    fun d => funext fun a => Fin.ext (by match a with | ⟨0, _⟩ => rfl | ⟨1, _⟩ => rfl)
  have e4 : ∀ d : Fin 256, Read.idx_main_v4 (Read.idx_main_v5 (Read.idx_main_v7 (ix2 n k))) d = ix2 k d :=
    fun d => funext fun a => Fin.ext (by match a with | ⟨0, _⟩ => rfl | ⟨1, _⟩ => rfl)
  have el : ∀ d : Fin 256, Read.lidx_main_v12 (ix2 n k) d = ix2 n d :=
    fun d => funext fun a => Fin.ext (by match a with | ⟨0, _⟩ => rfl | ⟨1, _⟩ => rfl)
  have er : ∀ d : Fin 256, Read.idx_main_v11 (Read.ridx_main_v12 (ix2 n k) d) = ix2 k d :=
    fun d => funext fun a => Fin.ext (by match a with | ⟨0, _⟩ => rfl | ⟨1, _⟩ => rfl)
  rw [Read.val_main_v16_apply, Read.val_main_v14_apply, Read.val_main_v13_apply, Read.val_main_v8_apply,
    Read.val_main_v6_apply, Read.val_main_v2_apply, Read.val_main_v1_apply, Read.val_main_v7_apply,
    Read.val_main_v5_apply, Read.val_main_v4_apply, Read.val_main_v12_apply, Read.val_main_v15_apply]
  simp only [Read.val_main_v0_apply, Read.val_main_v3_apply, Read.val_main_v10_apply, Read.val_main_v9_apply,
    Read.val_main_v11_apply, Read.val_main_cst_apply, Read.val_main_cst_0_apply, Read.val_main_cst_1_apply,
    Read.val_main_cst_2_apply, e1, e4, el, er,
    Ideal.ofBits_def, Ideal.addf_def, Ideal.subf_def, Ideal.mulf_def, Ideal.hostDivf_def, Ideal.hostNegf_def, Ideal.negf_def,
    Ideal.ofBits_zero_f32, zero_add]
  rfl

/-- A row index with the column `k` put back on the reduced axis is the pair (row, column). -/
theorem lift_row (h : S65536x512.Reduces [1] S65536) (n : Fin 65536) (k : Fin (S65536x512.size 1)) :
    h.lift (ix1 n) k = ix2 n (⟨k.val, k.isLt⟩ : Fin 512) := by
  funext c; apply Fin.ext
  fin_cases c <;> rfl

/-- The word of minus infinity denotes the least extended real. -/
theorem negInf_eq_bot : Ideal.ofBits .f32 0xFF800000#32 = (⊥ : EReal) := by
  simp [Ideal.ofBits, Ideal.ieee]

/-- The reference's maximum of a row of scores, folded from minus infinity, is the supremum of the row. -/
theorem rowmax17_at (n : Fin 65536) :
    Read.val_main_v17 (F := Ideal) x0 x1 (ix1 n) = Finset.univ.sup (logitR (rowsOf x0 n) (codeOf x1)) := by
  have h : S65536x512.Reduces [1] S65536 := by decide
  unfold Read.val_main_v17
  rw [Host.reduce_eq_fold_single FloatOps.maximumf _ _ reducesTo_S65536x512_S65536_d1 h h_S_]
  have hf : (Read.val_main_v16 (F := Ideal) x0 x1 ∘ h.lift (ix1 n))
      = fun k : Fin 512 => logitR (rowsOf x0 n) (codeOf x1) k :=
    funext fun k => (congrArg (Read.val_main_v16 (F := Ideal) x0 x1) (lift_row h n k)).trans (logit_at x0 x1 n ⟨k.val, k.isLt⟩)
  rw [hf]
  rw [Read.val_main_cst_3_apply, Ideal.ofBits_def, negInf_eq_bot]
  rfl

/-- The reference then takes the maximum of minus infinity and the row maximum: the row maximum again. -/
theorem rowmax_at (n : Fin 65536) :
    Read.val_main_v19 (F := Ideal) x0 x1 (ix1 n) = Finset.univ.sup (logitR (rowsOf x0 n) (codeOf x1)) := by
  rw [Read.val_main_v19_apply, Read.val_main_v18_apply, Read.val_main_cst_4_apply, rowmax17_at, Ideal.ofBits_def,
    negInf_eq_bot, Ideal.maximumf_def]
  exact max_bot_left _

/-- The exponential of a score less its row's maximum. -/
theorem expo_at (n : Fin 65536) (k : Fin 512) :
    Read.val_main_v23 (F := Ideal) x0 x1 (ix2 n k)
      = Ideal.exp (logitR (rowsOf x0 n) (codeOf x1) k - Finset.univ.sup (logitR (rowsOf x0 n) (codeOf x1))) := by
  have e : Read.idx_main_v20 (Read.idx_main_v21 (ix2 n k)) = ix1 n :=
    funext fun a => Fin.ext (by match a with | ⟨0, _⟩ => rfl)
  rw [Read.val_main_v23_apply, Read.val_main_v22_apply, Read.val_main_v21_apply, Read.val_main_v20_apply, e,
    rowmax_at, logit_at, Ideal.hostUnary_exp_def, Ideal.subf_def]

/-- The reference's soft assignment: the softmax of the row's scores. -/
theorem enc_at (n : Fin 65536) (k : Fin 512) :
    Read.val_main_v27 (F := Ideal) x0 x1 (ix2 n k) = encR (rowsOf x0 n) (codeOf x1) k := by
  have e : ∀ k' : Fin 512, Read.idx_main_v24 (Read.idx_main_v25 (Read.idx_main_v26 (ix2 n k))) k' = ix2 n k' :=
    fun k' => funext fun a => Fin.ext (by match a with | ⟨0, _⟩ => rfl | ⟨1, _⟩ => rfl)
  rw [Read.val_main_v27_apply, Read.val_main_v26_apply, Read.val_main_v25_apply, Read.val_main_v24_apply, expo_at,
    Read.val_main_cst_5_apply]
  simp only [e, expo_at, Ideal.ofBits_def, Ideal.ofBits_zero_f32, zero_add, Ideal.hostDivf_def]
  rfl

/-- The quantized row: the assignment times the code book. -/
theorem quant_at (n : Fin 65536) (d : Fin 256) :
    Read.val_main_v28 (F := Ideal) x0 x1 (ix2 n d) = quant (encR (rowsOf x0 n) (codeOf x1)) (codeOf x1) d := by
  have el : ∀ k : Fin 512, Read.lidx_main_v28 (ix2 n d) k = ix2 n k :=
    fun k => funext fun a => Fin.ext (by match a with | ⟨0, _⟩ => rfl | ⟨1, _⟩ => rfl)
  have er : ∀ k : Fin 512, Read.ridx_main_v28 (ix2 n d) k = ix2 k d :=
    fun k => funext fun a => Fin.ext (by match a with | ⟨0, _⟩ => rfl | ⟨1, _⟩ => rfl)
  rw [Read.val_main_v28_apply]
  simp only [el, er, enc_at]
  rfl

/-- The column sums of the assignments (the program computes them three times). -/
theorem encSum31_at (k : Fin 512) :
    Read.val_main_v31 (F := Ideal) x0 x1 (ix1 k) = encSum (fun n => encR (rowsOf x0 n) (codeOf x1)) k := by
  have e : ∀ n : Fin 65536, Read.idx_main_v31 (ix1 k) n = ix2 n k :=
    fun n => funext fun a => Fin.ext (by match a with | ⟨0, _⟩ => rfl | ⟨1, _⟩ => rfl)
  rw [Read.val_main_v31_apply, Read.val_main_cst_7_apply]
  simp only [e, enc_at, Ideal.ofBits_def, Ideal.ofBits_zero_f32, zero_add]
  rfl

theorem encSum55_at (k : Fin 512) :
    Read.val_main_v55 (F := Ideal) x0 x1 (ix1 k) = encSum (fun n => encR (rowsOf x0 n) (codeOf x1)) k := by
  have e : ∀ n : Fin 65536, Read.idx_main_v55 (ix1 k) n = ix2 n k :=
    fun n => funext fun a => Fin.ext (by match a with | ⟨0, _⟩ => rfl | ⟨1, _⟩ => rfl)
  rw [Read.val_main_v55_apply, Read.val_main_cst_15_apply]
  simp only [e, enc_at, Ideal.ofBits_def, Ideal.ofBits_zero_f32, zero_add]
  rfl

theorem encSum69_at (k : Fin 512) :
    Read.val_main_v69 (F := Ideal) x0 x1 (ix1 k) = encSum (fun n => encR (rowsOf x0 n) (codeOf x1)) k := by
  have e : ∀ n : Fin 65536, Read.idx_main_v69 (ix1 k) n = ix2 n k :=
    fun n => funext fun a => Fin.ext (by match a with | ⟨0, _⟩ => rfl | ⟨1, _⟩ => rfl)
  rw [Read.val_main_v69_apply, Read.val_main_cst_22_apply]
  simp only [e, enc_at, Ideal.ofBits_def, Ideal.ofBits_zero_f32, zero_add]
  rfl

/-- The assignments transposed, times the data. -/
theorem encTx_at (k : Fin 512) (d : Fin 256) :
    Read.val_main_v44 (F := Ideal) x0 x1 (ix2 k d)
      = encTx (fun n => encR (rowsOf x0 n) (codeOf x1)) (rowsOf x0) k d := by
  have el : ∀ n : Fin 65536, Read.idx_main_v43 (Read.lidx_main_v44 (ix2 k d) n) = ix2 n k :=
    fun n => funext fun a => Fin.ext (by match a with | ⟨0, _⟩ => rfl | ⟨1, _⟩ => rfl)
  have er : ∀ n : Fin 65536, Read.ridx_main_v44 (ix2 k d) n = ix2 n d :=
    fun n => funext fun a => Fin.ext (by match a with | ⟨0, _⟩ => rfl | ⟨1, _⟩ => rfl)
  rw [Read.val_main_v44_apply]
  simp only [Read.val_main_v43_apply, el, er, enc_at]
  rfl

/-- The squared error of the quantized rows against the data (the program computes it twice). -/
theorem sqErr61_at :
    Read.val_main_v61 (F := Ideal) x0 x1 ix0
      = sqErr (fun n => quant (encR (rowsOf x0 n) (codeOf x1)) (codeOf x1)) (rowsOf x0) := by
  rw [Read.val_main_v61_apply, Read.val_main_cst_17_apply, ValueIdx.sum_idx2]
  simp only [Read.val_main_v60_apply, Read.val_main_v59_apply, quant_at, Ideal.ofBits_def, Ideal.ofBits_zero_f32,
    zero_add, Ideal.mulf_def, Ideal.subf_def]
  rfl

theorem sqErr65_at :
    Read.val_main_v65 (F := Ideal) x0 x1 ix0
      = sqErr (fun n => quant (encR (rowsOf x0 n) (codeOf x1)) (codeOf x1)) (rowsOf x0) := by
  rw [Read.val_main_v65_apply, Read.val_main_cst_19_apply, ValueIdx.sum_idx2]
  simp only [Read.val_main_v64_apply, Read.val_main_v63_apply, quant_at, Ideal.ofBits_def, Ideal.ofBits_zero_f32,
    zero_add, Ideal.mulf_def, Ideal.subf_def]
  rfl

/-- The first result: the data plus (the quantized rows less the data). -/
theorem out_at (n : Fin 65536) (d : Fin 256) :
    Read.val_main_v96 (F := Ideal) x0 x1 (ix2 n d)
      = rowsOf x0 n d + (quant (encR (rowsOf x0 n) (codeOf x1)) (codeOf x1) d - rowsOf x0 n d) := by
  rw [Read.val_main_v96_apply, Read.val_main_v95_apply, quant_at, Ideal.addf_def, Ideal.subf_def]

end Cert.ReferenceIdeal.RefValue

end
-- ==== Proof.RefTail.lean ====
/-
  The tail of the reference program: from the three sums over the data rows — the column sums of the soft
  assignment, the assignment transposed times the data, and the squared error — to the loss and the perplexity.

  Every step is a pointwise operation on 512 numbers (or 512 x 256), a sum over the 512 codes, or a sum over the
  512 x 256 entries of the code book. Each named quantity of the specification (the updated cluster sizes, their
  total, the smoothed sizes, the updated code book, the usage counts, the mean squared error, the two entropy terms)
  is read off the program at one index and shown to be that quantity; the loss and the perplexity follow.
  The three sums enter only as hypotheses, so nothing here depends on how the assignment itself is computed.
  Float literals are the printed words on both sides and are never evaluated; only the zero a sum starts from is.
-/
import proofs.«128212_j45775761441268_2_alg».proof.Defs
import proofs.«128212_j45775761441268_2_alg».proof.Proof.Gen.ReferenceIdeal.Read
import proofs.«128212_j45775761441268_2_alg».proof.Proof.VqSpec
import Idealize.ShloMosaic.Lib.ValueIdx
import Idealize.ShloMosaic.Lib.Pipeline.Value
import Idealize.ShloMosaic.PureOps.Ideal.Laws

noncomputable section

open scoped BigOperators

namespace Cert.ReferenceIdeal.RefTail

open Cert.ReferenceIdeal Idealize.ShloMosaic Idealize.ShloMosaic.ValueIdx Cert.Vq

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable {x0 : (⟨S65536x256, .f32⟩ : BufTy).Contents (Elt Ideal)} {x1 : (⟨S512x256, .f32⟩ : BufTy).Contents (Elt Ideal)}
  {x2 : (⟨S512, .f32⟩ : BufTy).Contents (Elt Ideal)} {x3 : (⟨S512x256, .f32⟩ : BufTy).Contents (Elt Ideal)}
  {x4 : (⟨S512, .f32⟩ : BufTy).Contents (Elt Ideal)}
  {es : Fin 512 → EReal} {dw : Fin 512 → Fin 256 → EReal} {se : EReal}

/-! ## The cluster sizes -/

/-- The updated cluster size of code `k`: 0.99 times the old size plus 0.01 times the column sum. -/
theorem newSize_at (h31 : ∀ k, Read.val_main_v31 (F := Ideal) x0 x1 (ix1 k) = es k) (k : Fin 512) :
    Read.val_main_v34 (F := Ideal) x0 x1 x2 (ix1 k) = newSize es (fun k => x2 (ix1 k)) k := by
  rw [Read.val_main_v34_apply, Read.val_main_v30_apply, Read.val_main_v29_apply, Read.val_main_cst_6_apply,
    Read.val_main_v33_apply, Read.val_main_v32_apply, Read.val_main_cst_8_apply, h31]
  rfl

/-- Their total over the 512 codes. -/
theorem sizeTotal_at (h31 : ∀ k, Read.val_main_v31 (F := Ideal) x0 x1 (ix1 k) = es k) (i : S_.Idx) :
    Read.val_main_v35 (F := Ideal) x0 x1 x2 i = ∑ k, newSize es (fun k => x2 (ix1 k)) k := by
  have hs : ∑ j : S512.Idx, Read.val_main_v34 (F := Ideal) x0 x1 x2 j = ∑ k, newSize es (fun k => x2 (ix1 k)) k :=
    (sum_idx1 (n := 512) _).trans (Finset.sum_congr rfl fun k _ => newSize_at h31 k)
  rw [Read.val_main_v35_apply, Read.val_main_cst_9_apply, hs]
  simp only [Ideal.ofBits_def, Ideal.ofBits_zero_f32, zero_add]

/-- The smoothed size of code `k`. -/
theorem smooth_at (h31 : ∀ k, Read.val_main_v31 (F := Ideal) x0 x1 (ix1 k) = es k) (k : Fin 512) :
    Read.val_main_v42 (F := Ideal) x0 x1 x2 (ix1 k) = smooth es (fun k => x2 (ix1 k)) k := by
  rw [Read.val_main_v42_apply, Read.val_main_v40_apply, Read.val_main_v37_apply, Read.val_main_v36_apply,
    Read.val_main_cst_10_apply, Read.val_main_v39_apply, Read.val_main_v38_apply, Read.val_main_cst_11_apply,
    Read.val_main_v41_apply, newSize_at h31]
  simp only [sizeTotal_at h31]
  rfl

/-! ## The code book -/

/-- The updated code vector `k` at coordinate `d`. -/
theorem newCode_at (h31 : ∀ k, Read.val_main_v31 (F := Ideal) x0 x1 (ix1 k) = es k)
    (h44 : ∀ k d, Read.val_main_v44 (F := Ideal) x0 x1 (ix2 k d) = dw k d) (k : Fin 512) (d : Fin 256) :
    Read.val_main_v52 (F := Ideal) x0 x1 x2 x3 (ix2 k d)
      = newCode es dw (fun k => x2 (ix1 k)) (fun k d => x3 (ix2 k d)) k d := by
  have e : Read.idx_main_v50 (Read.idx_main_v51 (ix2 k d)) = ix1 k :=
    funext fun a => Fin.ext (by match a with | ⟨0, _⟩ => rfl)
  rw [Read.val_main_v52_apply, Read.val_main_v49_apply, Read.val_main_v46_apply, Read.val_main_v45_apply,
    Read.val_main_cst_12_apply, Read.val_main_v48_apply, Read.val_main_v47_apply, Read.val_main_cst_13_apply,
    Read.val_main_v51_apply, Read.val_main_v50_apply, e, smooth_at h31, h44]
  rfl

/-- The sum of the squares of the updated code book's entries. -/
theorem codeSq_at (h31 : ∀ k, Read.val_main_v31 (F := Ideal) x0 x1 (ix1 k) = es k)
    (h44 : ∀ k d, Read.val_main_v44 (F := Ideal) x0 x1 (ix2 k d) = dw k d) (i : S_.Idx) :
    Read.val_main_v68 (F := Ideal) x0 x1 x2 x3 i
      = ∑ k, ∑ d, newCode es dw (fun k => x2 (ix1 k)) (fun k d => x3 (ix2 k d)) k d
          * newCode es dw (fun k => x2 (ix1 k)) (fun k d => x3 (ix2 k d)) k d := by
  have hs : ∑ j : S512x256.Idx, Read.val_main_v67 (F := Ideal) x0 x1 x2 x3 j
      = ∑ k, ∑ d, newCode es dw (fun k => x2 (ix1 k)) (fun k d => x3 (ix2 k d)) k d
          * newCode es dw (fun k => x2 (ix1 k)) (fun k d => x3 (ix2 k d)) k d := by
    refine (sum_idx2 (n0 := 512) (n1 := 256) _).trans
      (Finset.sum_congr rfl fun k _ => Finset.sum_congr rfl fun d _ => ?_)
    rw [Read.val_main_v67_apply, newCode_at h31 h44]
    rfl
  rw [Read.val_main_v68_apply, Read.val_main_cst_21_apply, hs]
  simp only [Ideal.ofBits_def, Ideal.ofBits_zero_f32, zero_add]

/-! ## The usage counts -/

/-- The updated usage count of code `k`. -/
theorem usage_at (h55 : ∀ k, Read.val_main_v55 (F := Ideal) x0 x1 (ix1 k) = es k) (k : Fin 512) :
    Read.val_main_v58 (F := Ideal) x0 x1 x4 (ix1 k) = c99 * x4 (ix1 k) + c01 * es k := by
  rw [Read.val_main_v58_apply, Read.val_main_v54_apply, Read.val_main_v53_apply, Read.val_main_cst_14_apply,
    Read.val_main_v57_apply, Read.val_main_v56_apply, Read.val_main_cst_16_apply, h55]
  rfl

/-- Their total plus the small constant that keeps the quotient defined. -/
theorem usageTotal_at (h55 : ∀ k, Read.val_main_v55 (F := Ideal) x0 x1 (ix1 k) = es k) (i : S_.Idx) :
    Read.val_main_v79 (F := Ideal) x0 x1 x4 i = (∑ k', (c99 * x4 (ix1 k') + c01 * es k')) + eps5 := by
  have hs : ∑ j : S512.Idx, Read.val_main_v58 (F := Ideal) x0 x1 x4 j = ∑ k', (c99 * x4 (ix1 k') + c01 * es k') :=
    (sum_idx1 (n := 512) _).trans (Finset.sum_congr rfl fun k _ => usage_at h55 k)
  rw [Read.val_main_v79_apply, Read.val_main_v78_apply, Read.val_main_cst_26_apply, Read.val_main_cst_27_apply, hs]
  simp only [Ideal.ofBits_def, Ideal.ofBits_zero_f32, zero_add, Ideal.addf_def]

/-- The normalised usage count of code `k`. -/
theorem usageProb_at (h55 : ∀ k, Read.val_main_v55 (F := Ideal) x0 x1 (ix1 k) = es k) (k : Fin 512) :
    Read.val_main_v81 (F := Ideal) x0 x1 x4 (ix1 k) = usageProb es (fun k => x4 (ix1 k)) k := by
  rw [Read.val_main_v81_apply, Read.val_main_v80_apply, usageTotal_at h55, usage_at h55]
  rfl

/-! ## The mean squared error (the program computes it twice) -/

theorem mse62_at (h61 : Read.val_main_v61 (F := Ideal) x0 x1 ix0 = se) (i : S_.Idx) :
    Read.val_main_v62 (F := Ideal) x0 x1 i = Ideal.div se nAll := by
  obtain rfl : i = ix0 := eq_ix0 i
  rw [Read.val_main_v62_apply, Read.val_main_cst_18_apply, h61]
  rfl

theorem mse66_at (h65 : Read.val_main_v65 (F := Ideal) x0 x1 ix0 = se) (i : S_.Idx) :
    Read.val_main_v66 (F := Ideal) x0 x1 i = Ideal.div se nAll := by
  obtain rfl : i = ix0 := eq_ix0 i
  rw [Read.val_main_v66_apply, Read.val_main_cst_20_apply, h65]
  rfl

/-! ## The two entropy terms -/

/-- The average assignment of code `k`. -/
theorem avgProb_at (h69 : ∀ k, Read.val_main_v69 (F := Ideal) x0 x1 (ix1 k) = es k) (k : Fin 512) :
    Read.val_main_v71 (F := Ideal) x0 x1 (ix1 k) = avgProb es k := by
  rw [Read.val_main_v71_apply, Read.val_main_v70_apply, Read.val_main_cst_23_apply, h69]
  rfl

/-- The entropy term of the average assignment. -/
theorem negEntAvg_at (h69 : ∀ k, Read.val_main_v69 (F := Ideal) x0 x1 (ix1 k) = es k) (i : S_.Idx) :
    Read.val_main_v77 (F := Ideal) x0 x1 i = negEnt (avgProb es) := by
  have hs : ∑ j : S512.Idx, Read.val_main_v75 (F := Ideal) x0 x1 j
      = ∑ k, avgProb es k * Ideal.log (avgProb es k + e10) := by
    refine (sum_idx1 (n := 512) _).trans (Finset.sum_congr rfl fun k _ => ?_)
    rw [Read.val_main_v75_apply, Read.val_main_v74_apply, Read.val_main_v73_apply, Read.val_main_v72_apply,
      Read.val_main_cst_24_apply, avgProb_at h69]
    rfl
  rw [Read.val_main_v77_apply, Read.val_main_v76_apply, Read.val_main_cst_25_apply, hs]
  simp only [Ideal.ofBits_def, Ideal.ofBits_zero_f32, zero_add]
  rfl

/-- The entropy term of the normalised usage counts. -/
theorem negEntUsage_at (h55 : ∀ k, Read.val_main_v55 (F := Ideal) x0 x1 (ix1 k) = es k) (i : S_.Idx) :
    Read.val_main_v87 (F := Ideal) x0 x1 x4 i = negEnt (usageProb es (fun k => x4 (ix1 k))) := by
  have hs : ∑ j : S512.Idx, Read.val_main_v85 (F := Ideal) x0 x1 x4 j
      = ∑ k, usageProb es (fun k => x4 (ix1 k)) k * Ideal.log (usageProb es (fun k => x4 (ix1 k)) k + e10) := by
    refine (sum_idx1 (n := 512) _).trans (Finset.sum_congr rfl fun k _ => ?_)
    rw [Read.val_main_v85_apply, Read.val_main_v84_apply, Read.val_main_v83_apply, Read.val_main_v82_apply,
      Read.val_main_cst_28_apply, usageProb_at h55]
    rfl
  rw [Read.val_main_v87_apply, Read.val_main_v86_apply, Read.val_main_cst_29_apply, hs]
  simp only [Ideal.ofBits_def, Ideal.ofBits_zero_f32, zero_add]
  rfl

/-! ## The two results -/

/-- The perplexity the reference returns is the specification's, of whatever the column sums are. -/
theorem perplexity_of (h69 : ∀ k, Read.val_main_v69 (F := Ideal) x0 x1 (ix1 k) = es k) :
    Read.val_main_v88 (F := Ideal) x0 x1 ix0 = perplexity es := by
  rw [Read.val_main_v88_apply, negEntAvg_at h69]
  rfl

/-- The loss the reference returns is the specification's, of whatever the three sums are. -/
theorem loss_of (h31 : ∀ k, Read.val_main_v31 (F := Ideal) x0 x1 (ix1 k) = es k)
    (h55 : ∀ k, Read.val_main_v55 (F := Ideal) x0 x1 (ix1 k) = es k)
    (h69 : ∀ k, Read.val_main_v69 (F := Ideal) x0 x1 (ix1 k) = es k)
    (h44 : ∀ k d, Read.val_main_v44 (F := Ideal) x0 x1 (ix2 k d) = dw k d)
    (h61 : Read.val_main_v61 (F := Ideal) x0 x1 ix0 = se)
    (h65 : Read.val_main_v65 (F := Ideal) x0 x1 ix0 = se) :
    Read.val_main_v94 (F := Ideal) x0 x1 x2 x3 x4 ix0
      = loss es dw se (fun k => x2 (ix1 k)) (fun k d => x3 (ix2 k d)) (fun k => x4 (ix1 k)) := by
  rw [Read.val_main_v94_apply, Read.val_main_v91_apply, Read.val_main_v90_apply, Read.val_main_v89_apply,
    Read.val_main_cst_30_apply, Read.val_main_v93_apply, Read.val_main_cst_31_apply, Read.val_main_v92_apply,
    mse66_at h65, mse62_at h61, codeSq_at h31 h44, negEntAvg_at h69, negEntUsage_at h55]
  rfl

end Cert.ReferenceIdeal.RefTail

end
-- ==== Proof.Finite.lean ====
/-
  Under the precondition the data and the code book are real-valued.

  The precondition says that, on every device, a conjunction of five tests comes out true; each test asks
  whether every entry of one argument array has absolute value strictly below plus infinity. A conjunction
  of truth values is true only if each of them is; a test over a whole array is true only if it is true at
  every entry; and an extended real whose absolute value lies strictly below plus infinity is neither of the
  two infinities, hence the reading of a real number. The data is the first of the five arrays, the code book
  the second.
-/
import proofs.«128212_j45775761441268_2_alg».proof.Defs
import proofs.«128212_j45775761441268_2_alg».proof.Proof.Gen.Pre_finite_inputs
import Idealize.ShloMosaic.Lib.ValueIdx
import Idealize.ShloMosaic.Lib.ReduceAll

noncomputable section

namespace Cert.Finite

open Idealize.ShloMosaic Idealize.SL.Sem

variable [Cert.Pre_finite_inputs.Facts]

/-! ## One entry -/

/-- The word with every exponent bit set and no fraction bit denotes plus infinity. -/
theorem inf_word : Ideal.ofBits .f32 0x7F800000#32 = (⊤ : EReal) := by
  simp [Ideal.ofBits, Ideal.ieee]

/-- An extended real whose absolute value `max x (−x)` lies strictly below plus infinity is a real number:
    at either infinity the absolute value is plus infinity itself. -/
theorem real_of_abs_lt (x : EReal)
    (hx : Ideal.cmp .olt (max x (-x)) (Ideal.ofBits .f32 0x7F800000#32) = 1#1) : ∃ a : ℝ, x = (a : EReal) := by
  rw [inf_word] at hx
  induction x using EReal.rec with
  | bot => simp [Ideal.cmp] at hx
  | top => simp [Ideal.cmp] at hx
  | coe a => exact ⟨a, rfl⟩

/-! ## The whole arrays -/

/-- An array with no axis has exactly one index. -/
instance subsingleton_scalar_idx : Subsingleton Cert.Pre_finite_inputs.S_.Idx :=
  ⟨fun a b => funext fun d => d.elim0⟩

/-- Every entry of the data array is a real number: the first of the five tests is true, so it is true at
    the entry, and the entry's absolute value is below plus infinity. -/
theorem data_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S65536x256.Idx) :
    ∃ a : ℝ, m ((c.tc : Thread Cert.KernelIdeal.nD Cert.KernelIdeal.τ).loc Cert.KernelIdeal.main_arg0) i = (a : EReal) := by
  have h0 := congrFun (h c) ValueIdx.ix0
  dsimp only [Cert.Pre_finite_inputs.fn, Cert.Pre_finite_inputs.fn_part1] at h0
  simp only [andi, IntOp.andi_eq_one] at h0
  obtain ⟨⟨⟨⟨h3, -⟩, -⟩, -⟩, -⟩ := h0
  exact real_of_abs_lt _ (Host.reduce_andi_all _ _ _ _ _ h3 i)

/-- Every entry of the code book is a real number: the second of the five tests is true, so it is true at
    the entry, and the entry's absolute value is below plus infinity. -/
theorem code_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S512x256.Idx) :
    ∃ a : ℝ, m ((c.tc : Thread Cert.KernelIdeal.nD Cert.KernelIdeal.τ).loc Cert.KernelIdeal.main_arg1) i = (a : EReal) := by
  have h0 := congrFun (h c) ValueIdx.ix0
  dsimp only [Cert.Pre_finite_inputs.fn, Cert.Pre_finite_inputs.fn_part1] at h0
  simp only [andi, IntOp.andi_eq_one] at h0
  obtain ⟨⟨⟨⟨-, h7⟩, -⟩, -⟩, -⟩ := h0
  exact real_of_abs_lt _ (Host.reduce_andi_all _ _ _ _ _ h7 i)

end Cert.Finite

end
-- ==== Proof.VqLaws.lean ====
/-
  Algebraic laws on the extended reals for the vector quantizer's step.

  The two scorings of a row against a code differ, for finite data, by the row's own squared length; a softmax
  is unchanged when every score is shifted by one finite constant; hence the two soft assignments agree.
  Each assignment is a real number (a positive real over a sum of positive reals), so the quantized row is real
  too. Two bookkeeping facts close the module: the sum over all 65536 rows is the sum over 2 x 16 blocks of 2048
  rows, and an accumulator started at zero holds, after n additions, the sum of the n terms.

  Finiteness is used in one way throughout: a finite entry is the reading of a real number, sums and products
  of such readings are readings of the real sums and products, and the identity is then one between reals.
-/
import proofs.«128212_j45775761441268_2_alg».proof.Proof.VqSpec

noncomputable section

open scoped BigOperators

namespace Cert.Vq

open Idealize.ShloMosaic

/-! ## The two literals that enter the scores -/

/-- The word printed for 2.0 denotes the real number 2: sign 0, exponent 128, fraction 0. -/
theorem two_real : two = ((2 : ℝ) : EReal) := by
  simp [two, Ideal.ofBits, Ideal.ieee, -EReal.coe_mul]; norm_num

/-- The word printed for 1.0 denotes 1: sign 0, exponent 127, fraction 0. -/
theorem one_eq : one = 1 := by
  simp [one, Ideal.ofBits, Ideal.ieee, -EReal.coe_mul]; norm_num

/-- Dividing by the literal 1 changes nothing, at the infinities too. -/
theorem div_lit_one (x : EReal) : Ideal.div x one = x := by
  rw [one_eq, ← EReal.coe_one, Ideal.div_coe one_ne_zero]
  simp

/-! ## Real sums -/

/-- A finite sum of reals, read in the extended reals, is the sum of the readings. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, ← EReal.coe_add]

/-- On the reals, adding back what was subtracted returns the other term. -/
theorem add_sub_cancel_real (x q : EReal) (hx : ∃ a : ℝ, x = a) (hq : ∃ a : ℝ, q = a) : x + (q - x) = q := by
  obtain ⟨a, rfl⟩ := hx
  obtain ⟨b, rfl⟩ := hq
  rw [← EReal.coe_sub, ← EReal.coe_add]
  congr 1
  ring

/-! ## The two scores of a row -/

/-- The squared length of a finite row is real. -/
theorem xsq_real (r : Fin 256 → EReal) (hr : ∀ d, ∃ a : ℝ, r d = a) : ∃ a : ℝ, xsq r = a := by
  choose a ha using hr
  refine ⟨∑ d, a d * a d, ?_⟩
  unfold xsq
  simp only [ha, ← EReal.coe_mul, coe_sum]

/-- The reference's score of a finite row against a finite code is real. -/
theorem logitR_real (r : Fin 256 → EReal) (e : Fin 512 → Fin 256 → EReal)
    (hr : ∀ d, ∃ a : ℝ, r d = a) (he : ∀ k d, ∃ a : ℝ, e k d = a) (k : Fin 512) :
    ∃ a : ℝ, logitR r e k = a := by
  choose a ha using hr
  choose b hb using he
  refine ⟨-(∑ d, a d * a d + ∑ d, b k d * b k d - ∑ d, (2 * a d) * b k d), ?_⟩
  unfold logitR esq xsq
  rw [div_lit_one, two_real]
  simp only [ha, hb, ← EReal.coe_mul, coe_sum, ← EReal.coe_sub, ← EReal.coe_add, ← EReal.coe_neg]

/-- For finite data the kernel's score is the reference's score plus the row's squared length:
    `2·⟨r,e⟩ − |e|² = −(|r|² + |e|² − ⟨2r,e⟩) + |r|²`, the factor 1 and the divisor 1 being the identity. -/
theorem logitK_sub_logitR (r : Fin 256 → EReal) (e : Fin 512 → Fin 256 → EReal)
    (hr : ∀ d, ∃ a : ℝ, r d = a) (he : ∀ k d, ∃ a : ℝ, e k d = a) (k : Fin 512) :
    logitK r e (esq e) k = logitR r e k + xsq r := by
  choose a ha using hr
  choose b hb using he
  unfold logitK logitR esq xsq
  rw [div_lit_one, one_eq, mul_one, two_real]
  simp only [ha, hb, ← EReal.coe_mul, coe_sum, ← EReal.coe_sub, ← EReal.coe_add, ← EReal.coe_neg]
  congr 1
  simp only [mul_assoc, ← Finset.mul_sum]
  ring

/-! ## The softmax of a row of real scores -/

/-- The largest of 512 real scores is one of them, hence real. -/
theorem sup_real (L : Fin 512 → EReal) (hL : ∀ k, ∃ a : ℝ, L k = a) :
    ∃ m : ℝ, Finset.univ.sup L = m := by
  obtain ⟨k0, -, h⟩ := Finset.exists_mem_eq_sup Finset.univ ⟨0, Finset.mem_univ _⟩ L
  obtain ⟨a, ha⟩ := hL k0
  exact ⟨a, h.trans ha⟩

/-- Adding a real constant to every score adds it to the largest score: adding a real is monotone and
    keeps the least element. -/
theorem sup_shift (L : Fin 512 → EReal) (c : ℝ) :
    Finset.univ.sup (fun k => L k + (c : EReal)) = Finset.univ.sup L + c := by
  have h := Finset.comp_sup_eq_sup_comp_of_is_total (s := Finset.univ) (f := L)
    (fun x : EReal => x + (c : EReal)) (fun x y hxy => add_le_add hxy le_rfl) (EReal.bot_add _)
  exact h.symm

/-- A softmax does not see a finite constant added to every score: the constant cancels in each
    difference `(L k + c) − (max L + c)`. -/
theorem softRow_shift (L : Fin 512 → EReal) (c : EReal) (hL : ∀ k, ∃ a : ℝ, L k = a) (hc : ∃ a : ℝ, c = a) :
    softRow (fun k => L k + c) = softRow L := by
  obtain ⟨c0, rfl⟩ := hc
  obtain ⟨m, hm⟩ := sup_real L hL
  have key : ∀ k, (L k + (c0 : EReal)) - (Finset.univ.sup L + c0) = L k - Finset.univ.sup L := by
    intro k
    obtain ⟨a, ha⟩ := hL k
    rw [hm, ha, ← EReal.coe_add, ← EReal.coe_add, ← EReal.coe_sub, ← EReal.coe_sub]
    congr 1
    ring
  funext k
  unfold softRow
  rw [sup_shift]
  simp only [key]

/-- The softmax of 512 real scores is real: each exponential is a positive real, so the denominator, a sum
    of 512 positive reals, is a positive real, and the quotient is the real quotient. -/
theorem softRow_real (L : Fin 512 → EReal) (hL : ∀ k, ∃ a : ℝ, L k = a) (k : Fin 512) :
    ∃ a : ℝ, softRow L k = a := by
  obtain ⟨m, hm⟩ := sup_real L hL
  choose a ha using hL
  have hexp : ∀ k, Ideal.exp (L k - Finset.univ.sup L) = ((Real.exp (a k - m) : ℝ) : EReal) := by
    intro k
    rw [hm, ha, ← EReal.coe_sub, Ideal.exp_coe]
  have hpos : (0 : ℝ) < ∑ k', Real.exp (a k' - m) :=
    Finset.sum_pos (fun i _ => Real.exp_pos _) ⟨0, Finset.mem_univ _⟩
  refine ⟨Real.exp (a k - m) * (1 / ∑ k', Real.exp (a k' - m)), ?_⟩
  unfold softRow
  simp only [hexp, coe_sum]
  rw [Ideal.div_coe hpos.ne', ← EReal.coe_mul]

/-! ## The soft assignments and the quantized row -/

/-- For finite data the two soft assignments of a row are the same: their scores differ by the row's
    squared length, a real constant. -/
theorem encK_eq_encR (r : Fin 256 → EReal) (e : Fin 512 → Fin 256 → EReal)
    (hr : ∀ d, ∃ a : ℝ, r d = a) (he : ∀ k d, ∃ a : ℝ, e k d = a) : encK r e = encR r e := by
  funext k
  unfold encK encR
  have h : logitK r e (esq e) = fun k => logitR r e k + xsq r := funext (logitK_sub_logitR r e hr he)
  rw [h, softRow_shift (logitR r e) (xsq r) (logitR_real r e hr he) (xsq_real r hr)]

/-- For finite data every soft assignment is a real number. -/
theorem encR_real (r : Fin 256 → EReal) (e : Fin 512 → Fin 256 → EReal)
    (hr : ∀ d, ∃ a : ℝ, r d = a) (he : ∀ k d, ∃ a : ℝ, e k d = a) (k : Fin 512) :
    ∃ a : ℝ, encR r e k = a :=
  softRow_real (logitR r e) (logitR_real r e hr he) k

/-- Real weights times a real code book give a real quantized row. -/
theorem quant_real (a : Fin 512 → EReal) (e : Fin 512 → Fin 256 → EReal)
    (ha : ∀ k, ∃ b : ℝ, a k = b) (he : ∀ k d, ∃ b : ℝ, e k d = b) (d : Fin 256) :
    ∃ b : ℝ, quant a e d = b := by
  choose a' ha' using ha
  choose b hb using he
  refine ⟨∑ k, a' k * b k d, ?_⟩
  unfold quant
  simp only [ha', hb, ← EReal.coe_mul, coe_sum]

/-! ## Sums over all rows, block by block -/

/-- Rows are numbered block by block: half `c`, block `i` of the half, place `p` in the block, is row
    `(16 c + i) · 2048 + p`; conversely row `n` sits at `c = n / 32768`, `i = (n / 2048) mod 16`, `p = n mod 2048`. -/
def blockEquiv : Fin 2 × Fin 16 × Fin 2048 ≃ Fin 65536 where
  toFun t := ⟨(t.1.val * 16 + t.2.1.val) * 2048 + t.2.2.val, by omega⟩
  invFun n := (⟨n.val / 32768, by omega⟩, ⟨n.val / 2048 % 16, by omega⟩, ⟨n.val % 2048, by omega⟩)
  left_inv := by
    rintro ⟨c, i, p⟩
    refine Prod.ext (Fin.ext ?_) (Prod.ext (Fin.ext ?_) (Fin.ext ?_)) <;> dsimp only <;> omega
  right_inv := by
    intro n
    refine Fin.ext ?_
    dsimp only
    omega

/-- The sum over all 65536 rows, taken block by block: 2 halves of 16 blocks of 2048 rows. Addition of
    extended reals is commutative and associative, so re-indexing along a bijection needs no finiteness. -/
theorem sum_blocks (f : Fin 65536 → EReal) :
    ∑ c : Fin 2, ∑ i : Fin 16, ∑ p : Fin 2048, f ⟨(c.val * 16 + i.val) * 2048 + p.val, by omega⟩ = ∑ n, f n := by
  rw [← Equiv.sum_comp blockEquiv f, Fintype.sum_prod_type]
  refine Finset.sum_congr rfl fun c _ => ?_
  rw [Fintype.sum_prod_type]
  rfl

/-- What an accumulator started at zero holds after `n` additions: the sum of the first `n` terms. -/
theorem fold_add_eq_sum (g : ℕ → EReal) (n : ℕ) :
    (Nat.rec (motive := fun _ => EReal) 0 (fun i acc => acc + g i) n) = ∑ i ∈ Finset.range n, g i := by
  induction n with
  | zero => simp
  | succ m ih => rw [Finset.sum_range_succ, ← ih]

end Cert.Vq

end
-- ==== Proof.VqBridge.lean ====
/-
  From the sums the kernel forms block by block and core by core to the sums over all rows.

  The 65536 data rows are cut into 32 blocks of 2048 rows; each of 2 cores visits 16 of the blocks in turn and
  adds up, over the rows it has seen, the soft assignments, the assignments times the data, and the squared
  error of the quantized rows; the two cores' totals are then added. Since the kernel's and the reference's
  soft assignments of a finite row agree, and since a sum over all rows is the sum over the cores of the sums
  over a core's blocks of the sums over a block's rows, each of the three two-level totals is the reference's
  whole sum. Two smaller facts: the quantized row the kernel returns, written as the data plus the difference,
  is the quantized row itself; and a sum over the first n naturals is the sum over the n indices below n.
-/
import proofs.«128212_j45775761441268_2_alg».proof.Proof.VqLaws

noncomputable section

open scoped BigOperators

namespace Cert.Vq

open Idealize.ShloMosaic

/-! ## Blocks and the cores' points -/

/-- Row `p` of block `t`: blocks are 2048 consecutive rows. -/
def rowAt (t : Fin 32) (p : Fin 2048) : Fin 65536 := ⟨t.val * 2048 + p.val, by omega⟩

/-- The block that core `a` visits at its point `i`: core 0 takes blocks 0–15, core 1 blocks 16–31. -/
def pt (a : Fin 2) (i : Fin 16) : Fin 32 := ⟨a.val * 16 + i.val, by omega⟩

/-- The kernel's soft assignment of row `p` of block `t`. -/
def blkEnc (x : Fin 65536 → Fin 256 → EReal) (e : Fin 512 → Fin 256 → EReal) (t : Fin 32) (p : Fin 2048)
    (k : Fin 512) : EReal := encK (x (rowAt t p)) e k

/-- A block's column sums of the assignments. -/
def blkSum (x : Fin 65536 → Fin 256 → EReal) (e : Fin 512 → Fin 256 → EReal) (t : Fin 32) (k : Fin 512) : EReal :=
  encSum (blkEnc x e t) k

/-- A block's assignments transposed, times the block's rows. -/
def blkTx (x : Fin 65536 → Fin 256 → EReal) (e : Fin 512 → Fin 256 → EReal) (t : Fin 32) (k : Fin 512)
    (d : Fin 256) : EReal := encTx (blkEnc x e t) (fun p => x (rowAt t p)) k d

/-- A block's squared error of the quantized rows against the rows. -/
def blkErr (x : Fin 65536 → Fin 256 → EReal) (e : Fin 512 → Fin 256 → EReal) (t : Fin 32) : EReal :=
  sqErr (fun p => quant (blkEnc x e t p) e) (fun p => x (rowAt t p))

variable {x : Fin 65536 → Fin 256 → EReal} {e : Fin 512 → Fin 256 → EReal}

/-- For finite data the kernel's assignment of a block's row is the reference's assignment of that row. -/
theorem blkEnc_eq (hx : ∀ n d, ∃ a : ℝ, x n d = a) (he : ∀ k d, ∃ a : ℝ, e k d = a) (t : Fin 32) (p : Fin 2048) :
    blkEnc x e t p = encR (x (rowAt t p)) e := by
  funext k
  exact congrFun (encK_eq_encR (x (rowAt t p)) e (hx _) he) k

/-! ## The three sums -/

/-- The cores' totals of the blocks' column sums are the column sums over all rows. -/
theorem encSum_bridge (hx : ∀ n d, ∃ a : ℝ, x n d = a) (he : ∀ k d, ∃ a : ℝ, e k d = a) (k : Fin 512) :
    ∑ a : Fin 2, ∑ i : Fin 16, blkSum x e (pt a i) k = encSum (fun n => encR (x n) e) k := by
  unfold encSum
  rw [← sum_blocks (fun n => encR (x n) e k)]
  refine Finset.sum_congr rfl fun a _ => Finset.sum_congr rfl fun i _ => ?_
  unfold blkSum encSum
  refine Finset.sum_congr rfl fun p _ => ?_
  rw [blkEnc_eq hx he]
  rfl

/-- The cores' totals of the blocks' assignment-times-data sums are those sums over all rows. -/
theorem encTx_bridge (hx : ∀ n d, ∃ a : ℝ, x n d = a) (he : ∀ k d, ∃ a : ℝ, e k d = a) (k : Fin 512) (d : Fin 256) :
    ∑ a : Fin 2, ∑ i : Fin 16, blkTx x e (pt a i) k d = encTx (fun n => encR (x n) e) x k d := by
  unfold encTx
  rw [← sum_blocks (fun n => encR (x n) e k * x n d)]
  refine Finset.sum_congr rfl fun a _ => Finset.sum_congr rfl fun i _ => ?_
  unfold blkTx encTx
  refine Finset.sum_congr rfl fun p _ => ?_
  rw [blkEnc_eq hx he]
  rfl

/-- The cores' totals of the blocks' squared errors are the squared error over all rows. -/
theorem sqErr_bridge (hx : ∀ n d, ∃ a : ℝ, x n d = a) (he : ∀ k d, ∃ a : ℝ, e k d = a) :
    ∑ a : Fin 2, ∑ i : Fin 16, blkErr x e (pt a i) = sqErr (fun n => quant (encR (x n) e) e) x := by
  unfold sqErr
  rw [← sum_blocks (fun n => ∑ d, (quant (encR (x n) e) e d - x n d) * (quant (encR (x n) e) e d - x n d))]
  refine Finset.sum_congr rfl fun a _ => Finset.sum_congr rfl fun i _ => ?_
  unfold blkErr sqErr
  refine Finset.sum_congr rfl fun p _ => ?_
  dsimp only
  rw [blkEnc_eq hx he]
  rfl

/-! ## The returned rows, and an accumulator's range -/

/-- The data plus the difference of the quantized row from the data is the quantized row, and the
    quantized row is the same under either assignment. -/
theorem quant_bridge (hx : ∀ n d, ∃ a : ℝ, x n d = a) (he : ∀ k d, ∃ a : ℝ, e k d = a) (n : Fin 65536) (d : Fin 256) :
    x n d + (quant (encR (x n) e) e d - x n d) = quant (encK (x n) e) e d := by
  rw [add_sub_cancel_real (x n d) (quant (encR (x n) e) e d) (hx n d)
    (quant_real (encR (x n) e) e (encR_real (x n) e (hx n) he) he d), encK_eq_encR (x n) e (hx n) he]

/-- A sum over the naturals below `n` is the sum over the indices below `n`. -/
theorem acc_range (g : ℕ → EReal) (n : ℕ) (f : Fin n → EReal) (hg : ∀ i : Fin n, g i.val = f i) :
    ∑ i ∈ Finset.range n, g i = ∑ i : Fin n, f i := by
  rw [Finset.sum_range]
  exact Finset.sum_congr rfl fun i _ => hg i

end Cert.Vq

end
-- ==== Proof.KIPieces.lean ====
/-
  What the two runs of the kernel body leave in each output buffer, as a value. A run yields, per buffer, the
  list of pieces its stores wrote; written over anything and read back, a list that covers the block reads as
  its last covering store's payload. At a core's first point each running sum is stored as zero, read back, and
  stored again with the block's contribution added to that read-back; at any other point the sum that was
  there is read and stored with the contribution added. The quantized block is one store in both cases.
-/
import proofs.«128212_j45775761441268_2_alg».proof.Proof.KIFrame
import Idealize.ShloMosaic.Lib.Pipeline.Value

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 store or load, as a constant function. -/
theorem hz2 : (![0, 0] : Fin 2 → Nat) = fun _ => 0 := funext fun a => by fin_cases a <;> rfl
/-- The zero offsets of a rank-3 store or load, as a constant function. -/
theorem hz3 : (![0, 0, 0] : Fin 3 → Nat) = fun _ => 0 := funext fun a => by fin_cases a <;> rfl

/-- At any other point the quantized block's buffer holds the one store's payload, as at a first point. -/
theorem out_B_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) :
    out0_B_3 c i arg2 harg2 arg3 harg3 arg4 harg4 arg5 harg5 arg6 harg6 arg7 harg7 arg8 harg8 hc0 x0 x1 x2 xo4 xo5 xo6 = k0_pay11 x0 x1 x2 := by
  unfold out0_B_3
  rw [View.read_writes_eq_canon _ _ _ (cover0_B_3 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero (S := S2048x256) hz2]
  simp only [View.readAt_eq_ld, harg2.read_unread, harg3.read_unread, harg4.read_unread, harg6.read_unread, harg7.read_unread,
    harg8.read_unread, View.ld_unit_zero (S := S2048x256) hz2, View.ld_unit_zero (S := S512x256) hz2,
    View.ld_unit_zero (S := S1x512) hz2, View.ld_unit_zero (S := S1x1x512) hz3, View.ld_unit_zero (S := S1x512x256) hz3,
    View.ld_unit_zero (S := S1x1x1) hz3]

/-- At any other point the column-sum buffer holds what it held plus the block's column sums. -/
theorem out_B_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) :
    out0_B_4 c i arg2 harg2 arg3 harg3 arg4 harg4 arg5 harg5 arg6 harg6 arg7 harg7 arg8 harg8 hc0 x0 x1 x2 xo4 xo5 xo6 = k0_pay1 (k0_pay13 x0 x1 x2) xo4 := by
  unfold out0_B_4
  rw [View.read_writes_eq_canon _ _ _ (cover0_B_4 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero (S := S1x1x512) hz3]
  simp only [View.readAt_eq_ld, harg2.read_unread, harg3.read_unread, harg4.read_unread, harg6.read_unread, harg7.read_unread,
    harg8.read_unread, View.ld_unit_zero (S := S2048x256) hz2, View.ld_unit_zero (S := S512x256) hz2,
    View.ld_unit_zero (S := S1x512) hz2, View.ld_unit_zero (S := S1x1x512) hz3, View.ld_unit_zero (S := S1x512x256) hz3,
    View.ld_unit_zero (S := S1x1x1) hz3]

/-- At any other point the product buffer holds what it held plus the block's transposed-assignment product. -/
theorem out_B_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) :
    out0_B_5 c i arg2 harg2 arg3 harg3 arg4 harg4 arg5 harg5 arg6 harg6 arg7 harg7 arg8 harg8 hc0 x0 x1 x2 xo4 xo5 xo6 = k0_pay2 (k0_pay7 x0) (k0_pay10 x0 x1 x2) xo5 := by
  unfold out0_B_5
  rw [View.read_writes_eq_canon _ _ _ (cover0_B_5 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero (S := S1x512x256) hz3]
  simp only [View.readAt_eq_ld, harg2.read_unread, harg3.read_unread, harg4.read_unread, harg6.read_unread, harg7.read_unread,
    harg8.read_unread, View.ld_unit_zero (S := S2048x256) hz2, View.ld_unit_zero (S := S512x256) hz2,
    View.ld_unit_zero (S := S1x512) hz2, View.ld_unit_zero (S := S1x1x512) hz3, View.ld_unit_zero (S := S1x512x256) hz3,
    View.ld_unit_zero (S := S1x1x1) hz3]

/-- At any other point the squared-error buffer holds what it held plus the block's squared error. -/
theorem out_B_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : ¬cond0_0 i)
    (x0 : Vec F S2048x256 .f32) (x1 : Vec F S512x256 .f32) (x2 : Vec F S1x512 .f32) (xo4 : Vec F S1x1x512 .f32) (xo5 : Vec F S1x512x256 .f32) (xo6 : Vec F S1x1x1 .f32) :
    out0_B_6 c i arg2 harg2 arg3 harg3 arg4 harg4 arg5 harg5 arg6 harg6 arg7 harg7 arg8 harg8 hc0 x0 x1 x2 xo4 xo5 xo6 = k0_pay3 (k0_pay12 x0 x1 x2) xo6 := by
  unfold out0_B_6
  rw [View.read_writes_eq_canon _ _ _ (cover0_B_6 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero (S := S1x1x1) hz3]
  simp only [View.readAt_eq_ld, harg2.read_unread, harg3.read_unread, harg4.read_unread, harg6.read_unread, harg7.read_unread,
    harg8.read_unread, View.ld_unit_zero (S := S2048x256) hz2, View.ld_unit_zero (S := S512x256) hz2,
    View.ld_unit_zero (S := S1x512) hz2, View.ld_unit_zero (S := S1x1x512) hz3, View.ld_unit_zero (S := S1x512x256) hz3,
    View.ld_unit_zero (S := S1x1x1) hz3]

/-- At a core's first point the quantized block's buffer holds the one store's payload: the assignments times the code book. -/
theorem out_A_3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) :
    out0_A_3 c i arg2 harg2 arg3 harg3 arg4 harg4 arg5 harg5 arg6 harg6 arg7 harg7 arg8 harg8 hc0 x0 x1 x2 = k0_pay11 x0 x1 x2 := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero (S := S2048x256) hz2]
  simp only [View.readAt_eq_ld, harg2.read_unread, harg3.read_unread, harg4.read_unread, harg6.read_unread, harg7.read_unread,
    harg8.read_unread, View.ld_unit_zero (S := S2048x256) hz2, View.ld_unit_zero (S := S512x256) hz2,
    View.ld_unit_zero (S := S1x512) hz2, View.ld_unit_zero (S := S1x1x512) hz3, View.ld_unit_zero (S := S1x512x256) hz3,
    View.ld_unit_zero (S := S1x1x1) hz3]

/-- At a core's first point the column-sum buffer was zeroed, read back, and stored with the block's column sums added to the zeros. -/
theorem out_A_4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) :
    out0_A_4 c i arg2 harg2 arg3 harg3 arg4 harg4 arg5 harg5 arg6 harg6 arg7 harg7 arg8 harg8 hc0 x0 x1 x2 = k0_pay1 (k0_pay13 x0 x1 x2) (k0_pay4 (F := F)) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1x512) hz3, View.readCov_unit_zero (S := S1x1x512) _ hz3]
  simp only [View.readAt_eq_ld, harg2.read_unread, harg3.read_unread, harg4.read_unread, harg6.read_unread, harg7.read_unread,
    harg8.read_unread, View.ld_unit_zero (S := S2048x256) hz2, View.ld_unit_zero (S := S512x256) hz2,
    View.ld_unit_zero (S := S1x512) hz2, View.ld_unit_zero (S := S1x1x512) hz3, View.ld_unit_zero (S := S1x512x256) hz3,
    View.ld_unit_zero (S := S1x1x1) hz3]

/-- At a core's first point the product buffer was zeroed, read back, and stored with the block's transposed-assignment product added to the zeros. -/
theorem out_A_5 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) :
    out0_A_5 c i arg2 harg2 arg3 harg3 arg4 harg4 arg5 harg5 arg6 harg6 arg7 harg7 arg8 harg8 hc0 x0 x1 x2 = k0_pay2 (k0_pay7 x0) (k0_pay10 x0 x1 x2) (k0_pay5 (F := F)) := by
  unfold out0_A_5
  rw [View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x512x256) hz3, View.readCov_unit_zero (S := S1x512x256) _ hz3]
  simp only [View.readAt_eq_ld, harg2.read_unread, harg3.read_unread, harg4.read_unread, harg6.read_unread, harg7.read_unread,
    harg8.read_unread, View.ld_unit_zero (S := S2048x256) hz2, View.ld_unit_zero (S := S512x256) hz2,
    View.ld_unit_zero (S := S1x512) hz2, View.ld_unit_zero (S := S1x1x512) hz3, View.ld_unit_zero (S := S1x512x256) hz3,
    View.ld_unit_zero (S := S1x1x1) hz3]

/-- At a core's first point the squared-error buffer was zeroed, read back, and stored with the block's squared error added to the zero. -/
theorem out_A_6 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S1x1x512 .f32) (harg6 : arg6.IsWhole) (arg7 : Memref sig .tc .vmem S1x512x256 .f32) (harg7 : arg7.IsWhole) (arg8 : Memref sig .tc .vmem S1x1x1 .f32) (harg8 : arg8.IsWhole) (hc0 : cond0_0 i)
    (x0 : Vec F S2048x256 .f32) (x1 : Vec F S512x256 .f32) (x2 : Vec F S1x512 .f32) :
    out0_A_6 c i arg2 harg2 arg3 harg3 arg4 harg4 arg5 harg5 arg6 harg6 arg7 harg7 arg8 harg8 hc0 x0 x1 x2 = k0_pay3 (k0_pay12 x0 x1 x2) (k0_pay6 (F := F)) := by
  unfold out0_A_6
  rw [View.read_writes_eq_canon _ _ _ (cover0_A_6 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg6.read_unread, harg7.read_unread,
    harg8.read_unread, View.ld_unit_zero (S := S2048x256) hz2, View.ld_unit_zero (S := S512x256) hz2,
    View.ld_unit_zero (S := S1x512) hz2, View.ld_unit_zero (S := S1x1x512) hz3, View.ld_unit_zero (S := S1x512x256) hz3,
    View.ld_unit_zero (S := S1x1x1) hz3]

end Cert.KernelIdeal.Gen.Hand

end
-- ==== Proof.KIBlocks.lean ====
/-
  How the launch's windows cut the arrays, over the 2 × 16 grid of 32 points.

  Point t of the grid has coordinates (t / 16, t mod 16). The data window and the quantized-result window take,
  at point t, the 2048 rows t·2048 … t·2048 + 2047 of their 65536-row arrays: block t of 32. The code book and
  the row of squared lengths are taken whole at every point. The three per-core sums are arrays with a leading
  axis of extent 2, and at point t the window is the slab t / 16 of that axis; it is written back only at the
  last point of each core, t mod 16 = 15. Stated here: a block of an input read at an index is the array read
  at the corresponding index; every index of a result array lies in the block of some point that writes back;
  and a block of a result array, read at an index, is the array at the corresponding index.
-/
import proofs.«128212_j45775761441268_2_alg».proof.Proof.KIShared
import proofs.«128212_j45775761441268_2_alg».proof.Proof.VqBridge
import Idealize.ShloMosaic.Lib.ValueIdx
import Idealize.ShloMosaic.Lib.Pipeline.Value

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block positions, decided over the 32 points -/

/-- The data window's block at point `t` is block `t` along the rows, block 0 along the columns. -/
theorem idx0 : ∀ t : Fin cfg0.N, win0_0.index t 0 = t.val ∧ win0_0.index t 1 = 0 :=
  (by decide +kernel : ∀ t : Fin grid0.N, win0_0.index t 0 = t.val ∧ win0_0.index t 1 = 0)
/-- The code book's window is block (0, 0) at every point. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The squared-length row's window is block (0, 0) at every point. -/
theorem idx2 : ∀ t : Fin cfg0.N, win0_2.index t 0 = 0 ∧ win0_2.index t 1 = 0 :=
  (by decide +kernel : ∀ t : Fin grid0.N, win0_2.index t 0 = 0 ∧ win0_2.index t 1 = 0)
/-- The quantized result's block at point `t` is block `t` along the rows, block 0 along the columns. -/
theorem idx3 : ∀ t : Fin cfg0.N, win0_3.index t 0 = t.val ∧ win0_3.index t 1 = 0 :=
  (by decide +kernel : ∀ t : Fin grid0.N, win0_3.index t 0 = t.val ∧ win0_3.index t 1 = 0)
/-- The column sums' block at point `t` is slab `t / 16` of the leading axis. -/
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)
/-- The assignment-times-data sums' block at point `t` is slab `t / 16` of the leading axis. -/
theorem idx5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)
/-- The squared-error sums' block at point `t` is slab `t / 16` of the leading axis. -/
theorem idx6 : ∀ t : Fin cfg0.N, win0_6.index t 0 = t.val / 16 ∧ win0_6.index t 1 = 0 ∧ win0_6.index t 2 = 0 :=
  (by decide +kernel : ∀ t : Fin grid0.N, win0_6.index t 0 = t.val / 16 ∧ win0_6.index t 1 = 0 ∧ win0_6.index t 2 = 0)

/-! ## Input blocks read at an index

A block's coordinate on an axis is always the block's position times the block's size plus the coordinate
inside the block. -/

/-- Row `p` of the data block at point `t` is row `t·2048 + p` of the data. -/
theorem iblk0_at (c : Dev nD) (t : Fin cfg0.N) (p : Fin 2048) (d : Fin 256) :
    (iblk m c 0 t : Vec F S2048x256 .f32) (ix2 p d)
      = V m c main_arg0 (ix2 ⟨t.val * 2048 + p.val, by have := t.isLt; have : cfg0.N = 32 := N_0; omega⟩ d) := by
  have hi := idx0 t
  unfold iblk
  rw [View.read_apply]
  show V m c main_arg0 _ = V m c main_arg0 _
  congr 1
  funext a
  apply Fin.ext
  match a with
  | ⟨0, _⟩ => show win0_0.index t 0 * 2048 + 1 * p.val = t.val * 2048 + p.val; rw [hi.1]; omega
  | ⟨1, _⟩ => show win0_0.index t 1 * 256 + 1 * d.val = d.val; rw [hi.2]; omega

/-- The code book's block at any point is the code book. -/
theorem iblk1_at (c : Dev nD) (t : Fin cfg0.N) (k : Fin 512) (d : Fin 256) :
    (iblk m c 1 t : Vec F S512x256 .f32) (ix2 k d) = V m c main_arg1 (ix2 k d) := by
  have hi := idx1 t
  unfold iblk
  rw [View.read_apply]
  show V m c main_arg1 _ = V m c main_arg1 _
  congr 1
  funext a
  apply Fin.ext
  match a with
  | ⟨0, _⟩ => show win0_1.index t 0 * 512 + 1 * k.val = k.val; rw [hi.1]; omega
  | ⟨1, _⟩ => show win0_1.index t 1 * 256 + 1 * d.val = d.val; rw [hi.2]; omega

/-- The squared-length row's block at any point is the row. -/
theorem iblk2_at (c : Dev nD) (t : Fin cfg0.N) (k : Fin 512) :
    (iblk m c 2 t : Vec F S1x512 .f32) (ix2 0 k) = V m c main_v3 (ix2 0 k) := by
  have hi := idx2 t
  unfold iblk
  rw [View.read_apply]
  show V m c main_v3 _ = V m c main_v3 _
  congr 1
  funext a
  apply Fin.ext
  match a with
  | ⟨0, _⟩ => show win0_2.index t 0 * 1 + 1 * 0 = 0; rw [hi.1]
  | ⟨1, _⟩ => show win0_2.index t 1 * 512 + 1 * k.val = k.val; rw [hi.2]; omega

/-! ## The result arrays are covered by the blocks written back -/

/-- Row `n` of the quantized result lies in the block of point `n / 2048`, and every point writes back. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 32 := N_0
  have h0 : (i 0 : Nat) < 65536 := (i 0).isLt
  have h1 : (i 1 : Nat) < 256 := (i 1).isLt
  obtain ⟨t, htv⟩ : ∃ t : Fin cfg0.N, t.val = (i 0 : Nat) / 2048 := ⟨⟨_, by omega⟩, rfl⟩
  refine ⟨t, flush0_3 t, ?_⟩
  have hi := idx3 t
  show i ∈ ((View.whole main_v4_0).slice (win0_3.rect t)).set
  rw [View.set_slice_whole, Rect.mem_set_unit]
  intro a
  match a with
  | ⟨0, _⟩ =>
    show win0_3.index t 0 * 2048 ≤ (i 0 : Nat) ∧ (i 0 : Nat) < win0_3.index t 0 * 2048 + 2048
    rw [hi.1]; omega
  | ⟨1, _⟩ =>
    show win0_3.index t 1 * 256 ≤ (i 1 : Nat) ∧ (i 1 : Nat) < win0_3.index t 1 * 256 + 256
    rw [hi.2]; omega

/-- Slab `a` of the column sums is the block of point `a·16 + 15`, the last point of core `a`, which writes back. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 32 := N_0
  have h0 : (i 0 : Nat) < 2 := (i 0).isLt
  have h1 : (i 1 : Nat) < 1 := (i 1).isLt
  have h2 : (i 2 : Nat) < 512 := (i 2).isLt
  obtain ⟨t, htv⟩ : ∃ t : Fin cfg0.N, t.val = (i 0 : Nat) * 16 + 15 := ⟨⟨_, by omega⟩, rfl⟩
  refine ⟨t, (flush0_4 t).mpr (by omega), ?_⟩
  have hi := idx4 t
  show i ∈ ((View.whole main_v4_1).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [hi.1]; omega
  | ⟨1, _⟩ =>
    show win0_4.index t 1 * 1 ≤ (i 1 : Nat) ∧ (i 1 : Nat) < win0_4.index t 1 * 1 + 1
    rw [hi.2.1]; omega
  | ⟨2, _⟩ =>
    show win0_4.index t 2 * 512 ≤ (i 2 : Nat) ∧ (i 2 : Nat) < win0_4.index t 2 * 512 + 512
    rw [hi.2.2]; omega

/-- Slab `a` of the assignment-times-data sums is the block of point `a·16 + 15`, which writes back. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 32 := N_0
  have h0 : (i 0 : Nat) < 2 := (i 0).isLt
  have h1 : (i 1 : Nat) < 512 := (i 1).isLt
  have h2 : (i 2 : Nat) < 256 := (i 2).isLt
  obtain ⟨t, htv⟩ : ∃ t : Fin cfg0.N, t.val = (i 0 : Nat) * 16 + 15 := ⟨⟨_, by omega⟩, rfl⟩
  refine ⟨t, (flush0_5 t).mpr (by omega), ?_⟩
  have hi := idx5 t
  show i ∈ ((View.whole main_v4_2).slice (win0_5.rect t)).set
  rw [View.set_slice_whole, Rect.mem_set_unit]
  intro a
  match a with
  | ⟨0, _⟩ =>
    show win0_5.index t 0 * 1 ≤ (i 0 : Nat) ∧ (i 0 : Nat) < win0_5.index t 0 * 1 + 1
    rw [hi.1]; omega
  | ⟨1, _⟩ =>
    show win0_5.index t 1 * 512 ≤ (i 1 : Nat) ∧ (i 1 : Nat) < win0_5.index t 1 * 512 + 512
    rw [hi.2.1]; omega
  | ⟨2, _⟩ =>
    show win0_5.index t 2 * 256 ≤ (i 2 : Nat) ∧ (i 2 : Nat) < win0_5.index t 2 * 256 + 256
    rw [hi.2.2]; omega

/-- Slab `a` of the squared-error sums is the block of point `a·16 + 15`, which writes back. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have hN : cfg0.N = 32 := N_0
  have h0 : (i 0 : Nat) < 2 := (i 0).isLt
  have h1 : (i 1 : Nat) < 1 := (i 1).isLt
  have h2 : (i 2 : Nat) < 1 := (i 2).isLt
  obtain ⟨t, htv⟩ : ∃ t : Fin cfg0.N, t.val = (i 0 : Nat) * 16 + 15 := ⟨⟨_, by omega⟩, rfl⟩
  refine ⟨t, (flush0_6 t).mpr (by omega), ?_⟩
  have hi := idx6 t
  show i ∈ ((View.whole main_v4_3).slice (win0_6.rect t)).set
  rw [View.set_slice_whole, Rect.mem_set_unit]
  intro a
  match a with
  | ⟨0, _⟩ =>
    show win0_6.index t 0 * 1 ≤ (i 0 : Nat) ∧ (i 0 : Nat) < win0_6.index t 0 * 1 + 1
    rw [hi.1]; omega
  | ⟨1, _⟩ =>
    show win0_6.index t 1 * 1 ≤ (i 1 : Nat) ∧ (i 1 : Nat) < win0_6.index t 1 * 1 + 1
    rw [hi.2.1]; omega
  | ⟨2, _⟩ =>
    show win0_6.index t 2 * 1 ≤ (i 2 : Nat) ∧ (i 2 : Nat) < win0_6.index t 2 * 1 + 1
    rw [hi.2.2]; omega

/-! ## Result blocks read back at an index -/

/-- Row `p` of the quantized result's block at point `t` is row `t·2048 + p` of the array. -/
theorem blk3_at (c : Dev nD) (G : Buf (Elt F) ((cfg0.win 3).arr.view.loc (c.tc : Thread nD τ))) (t : Fin cfg0.N)
    (p : Fin 2048) (d : Fin 256) :
    (((cfg0.win 3).blk t).view.read (Elt F) G : Vec F S2048x256 .f32) (ix2 p d)
      = G (ix2 ⟨t.val * 2048 + p.val, by have := t.isLt; have : cfg0.N = 32 := N_0; omega⟩ d) := by
  have hi := idx3 t
  rw [View.read_apply]
  show G _ = G _
  congr 1
  funext a
  apply Fin.ext
  match a with
  | ⟨0, _⟩ => show win0_3.index t 0 * 2048 + 1 * p.val = t.val * 2048 + p.val; rw [hi.1]; omega
  | ⟨1, _⟩ => show win0_3.index t 1 * 256 + 1 * d.val = d.val; rw [hi.2]; omega

/-- The column sums' block at point `t` is slab `t / 16` of the array. -/
theorem blk4_at (c : Dev nD) (G : Buf (Elt F) ((cfg0.win 4).arr.view.loc (c.tc : Thread nD τ))) (t : Fin cfg0.N)
    (k : Fin 512) :
    (((cfg0.win 4).blk t).view.read (Elt F) G : Vec F S1x1x512 .f32) (ix3 0 0 k)
      = G (ix3 ⟨t.val / 16, by have := t.isLt; have : cfg0.N = 32 := N_0; omega⟩ 0 k) := by
  have hi := idx4 t
  rw [View.read_apply]
  show G _ = G _
  congr 1
  funext a
  apply Fin.ext
  match a with
  | ⟨0, _⟩ => show win0_4.index t 0 * 1 + 1 * 0 = t.val / 16; rw [hi.1]; omega
  | ⟨1, _⟩ => show win0_4.index t 1 * 1 + 1 * 0 = 0; rw [hi.2.1]
  | ⟨2, _⟩ => show win0_4.index t 2 * 512 + 1 * k.val = k.val; rw [hi.2.2]; omega

/-- The assignment-times-data sums' block at point `t` is slab `t / 16` of the array. -/
theorem blk5_at (c : Dev nD) (G : Buf (Elt F) ((cfg0.win 5).arr.view.loc (c.tc : Thread nD τ))) (t : Fin cfg0.N)
    (k : Fin 512) (d : Fin 256) :
    (((cfg0.win 5).blk t).view.read (Elt F) G : Vec F S1x512x256 .f32) (ix3 0 k d)
      = G (ix3 ⟨t.val / 16, by have := t.isLt; have : cfg0.N = 32 := N_0; omega⟩ k d) := by
  have hi := idx5 t
  rw [View.read_apply]
  show G _ = G _
  congr 1
  funext a
  apply Fin.ext
  match a with
  | ⟨0, _⟩ => show win0_5.index t 0 * 1 + 1 * 0 = t.val / 16; rw [hi.1]; omega
  | ⟨1, _⟩ => show win0_5.index t 1 * 512 + 1 * k.val = k.val; rw [hi.2.1]; omega
  | ⟨2, _⟩ => show win0_5.index t 2 * 256 + 1 * d.val = d.val; rw [hi.2.2]; omega

/-- The squared-error sums' block at point `t` is slab `t / 16` of the array. -/
theorem blk6_at (c : Dev nD) (G : Buf (Elt F) ((cfg0.win 6).arr.view.loc (c.tc : Thread nD τ))) (t : Fin cfg0.N) :
    (((cfg0.win 6).blk t).view.read (Elt F) G : Vec F S1x1x1 .f32) (ix3 0 0 0)
      = G (ix3 ⟨t.val / 16, by have := t.isLt; have : cfg0.N = 32 := N_0; omega⟩ 0 0) := by
  have hi := idx6 t
  rw [View.read_apply]
  show G _ = G _
  congr 1
  funext a
  apply Fin.ext
  match a with
  | ⟨0, _⟩ => show win0_6.index t 0 * 1 + 1 * 0 = t.val / 16; rw [hi.1]; omega
  | ⟨1, _⟩ => show win0_6.index t 1 * 1 + 1 * 0 = 0; rw [hi.2.1]
  | ⟨2, _⟩ => show win0_6.index t 2 * 1 + 1 * 0 = 0; rw [hi.2.2]

end Cert.KernelIdeal.Gen.Hand

end
-- ==== Proof.KIDefs.lean ====
/-
  Names for what the kernel program computes, as functions of the launch-time memory: the data rows and the code
  book, the three sums taken block by block over the two cores' sixteen points each, and the three results.
-/
import proofs.«128212_j45775761441268_2_alg».proof.Proof.KIShared
import proofs.«128212_j45775761441268_2_alg».proof.Proof.VqBridge
import Idealize.ShloMosaic.Lib.ValueIdx

noncomputable section

namespace Cert.KernelIdeal.Value

open Cert.KernelIdeal Cert.KernelIdeal.Gen Cert.KernelIdeal.Gen.Hand Cert.Vq
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The data rows at launch. -/
def dataOf (c : Dev nD) (n : Fin 65536) (d : Fin 256) : EReal := m ((c.tc : Thread nD τ).loc main_arg0) (ix2 n d)
/-- The code book at launch. -/
def bookOf (c : Dev nD) (k : Fin 512) (d : Fin 256) : EReal := m ((c.tc : Thread nD τ).loc main_arg1) (ix2 k d)
/-- The column sums of the assignments, block by block over the two cores. -/
def kSum (c : Dev nD) (k : Fin 512) : EReal := ∑ a : Fin 2, ∑ i : Fin 16, blkSum (dataOf m c) (bookOf m c) (pt a i) k
/-- The assignments transposed times the data, block by block. -/
def kTx (c : Dev nD) (k : Fin 512) (d : Fin 256) : EReal := ∑ a : Fin 2, ∑ i : Fin 16, blkTx (dataOf m c) (bookOf m c) (pt a i) k d
/-- The squared error, block by block. -/
def kErr (c : Dev nD) : EReal := ∑ a : Fin 2, ∑ i : Fin 16, blkErr (dataOf m c) (bookOf m c) (pt a i)
/-- The quantized rows. -/
def kQuant (c : Dev nD) : Buf (Elt Ideal) ((c.tc : Thread nD τ).loc main_v4_0) :=
  fun j => quant (encK (dataOf m c (j 0)) (bookOf m c)) (bookOf m c) (j 1)
/-- The loss, as the contents of a scalar buffer. -/
def kLoss (c : Dev nD) : Buf (Elt Ideal) ((c.tc : Thread nD τ).loc main_v63) :=
  fun _ => loss (kSum m c) (kTx m c) (kErr m c) (fun k => m ((c.tc : Thread nD τ).loc main_arg2) (ix1 k))
    (fun k d => m ((c.tc : Thread nD τ).loc main_arg3) (ix2 k d)) (fun k => m ((c.tc : Thread nD τ).loc main_arg4) (ix1 k))
/-- The perplexity, as the contents of a scalar buffer. -/
def kPerp (c : Dev nD) : Buf (Elt Ideal) ((c.tc : Thread nD τ).loc main_v57) := fun _ => perplexity (kSum m c)

end Cert.KernelIdeal.Value

end
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.KernelPayload.lean ====
/-
  The kernel body's arithmetic read at one index, on the extended reals.

  One grid step holds a block `X` of 2048 data rows, the whole code book `E` (512 codes of 256 numbers) and the
  codes' squared lengths `S` as a row of 512. The body scores every row against every code by
  `(2·⟨X p, E k⟩ − S k)·1`, passes each row of scores through a softmax (the row's maximum subtracted first),
  multiplies the resulting assignments by the code book to get the quantized rows, and forms three sums over the
  block: the assignments' column sums, the assignments transposed times the data, and the squared error of the
  quantized rows. Here each of those values is read at an index as the plain function of `Cert.Vq` that it is:
  a matrix product is the sum over its one contracted coordinate, a reduction along an axis is the sum (or the
  supremum) over that axis's coordinate, and the layout operations (casts that add or drop unit axes, a row or a
  column repeated) read one element of their operand. Narrowing to bf16 is the identity on extended reals.
-/
import proofs.«128212_j45775761441268_2_alg».proof.Proof.Gen.KernelIdeal.Skeleton
import proofs.«128212_j45775761441268_2_alg».proof.Proof.VqSpec
import proofs.«128212_j45775761441268_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Vq

/-- Row `p` of the data block. -/
abbrev rowOf (X : S2048x256.Idx → EReal) (p : Fin 2048) (d : Fin 256) : EReal := X (ix2 p d)
/-- Code vector `k`. -/
abbrev codeOf (E : S512x256.Idx → EReal) (k : Fin 512) (d : Fin 256) : EReal := E (ix2 k d)
/-- The handed-in squared length of code `k`. -/
abbrev sqOf (S : S1x512.Idx → EReal) (k : Fin 512) : EReal := S (ix2 0 k)
/-- The block's soft assignment of row `p` to code `k`. -/
abbrev encB (X : S2048x256.Idx → EReal) (E : S512x256.Idx → EReal) (S : S1x512.Idx → EReal) (p : Fin 2048) (k : Fin 512) : EReal :=
  softRow (logitK (rowOf X p) (codeOf E) (sqOf S)) k

variable (X : Vec Ideal S2048x256 .f32) (E : Vec Ideal S512x256 .f32) (S : Vec Ideal S1x512 .f32)

/-! ## The three accumulator updates and the three zero fills -/

theorem acc1_at (v37 : FVec Ideal S1x512 .f32) (v42 : Vec Ideal S1x1x512 .f32) (k : Fin 512) :
    k0_pay1 (F := Ideal) v37 v42 (ix3 0 0 k) = v42 (ix3 0 0 k) + v37 (ix2 0 k) := by
  unfold k0_pay1
  show (shapeCast S1x1x512 v42 shapeCasts_S1x1x512_S1x1x512 (ix3 0 0 k) : EReal)
      + shapeCast S1x1x512 v37 shapeCasts_S1x512_S1x1x512 (ix3 0 0 k) = _
  rw [shapeCast_self, shapeCast_ab_1ab_apply]

/-- The third accumulator's update: what was there plus the block's squared error. -/
theorem acc3_at (v35 : FVec Ideal S1x1x1 .f32) (v50 : Vec Ideal S1x1x1 .f32) :
    k0_pay3 (F := Ideal) v35 v50 (ix3 0 0 0) = v50 (ix3 0 0 0) + v35 (ix3 0 0 0) := by
  unfold k0_pay3
  show (shapeCast S1x1x1 v50 shapeCasts_S1x1x1_S1x1x1 (ix3 0 0 0) : EReal) + v35 (ix3 0 0 0) = _
  rw [shapeCast_self]

/-- The first accumulator's initial fill is zero everywhere. -/
theorem zero1_at (j : S1x1x512.Idx) : k0_pay4 (F := Ideal) j = 0 := by
  exact Ideal.ofBits_zero_f32

/-- The second accumulator's initial fill is zero everywhere. -/
theorem zero2_at (j : S1x512x256.Idx) : k0_pay5 (F := Ideal) j = 0 := by
  exact Ideal.ofBits_zero_f32

/-- The third accumulator's initial fill is zero. -/
theorem zero3_at (j : S1x1x1.Idx) : k0_pay6 (F := Ideal) j = 0 := by
  exact Ideal.ofBits_zero_f32

/-! ## Matrix products into a zero accumulator -/

theorem dotRowCode_l0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
/-- … and the right operand's column is the result's column. -/
theorem dotRowCode_r1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl
/-- A `[2048, 256]` array times a `[256, 512]` array into a zero accumulator, read at `(i, j)`: the sum over the 256 contracted coordinates. -/
theorem dotRowCode_apply {φ₁ φ₂ : FTy} (A : FVec Ideal S2048x256 φ₁) (B : FVec Ideal S256x512 φ₂) (i : Fin 2048) (j : Fin 512) :
    matmul (F := Ideal) dot_S2048x256_S256x512_S2048x512_1_0_0_1_n_n none A B (constant (F := Ideal) S2048x512 .f32 0x00000000#32) (ix2 i j)
      = ∑ c : Fin 256, A (ix2 i c) * B (ix2 c j) := by
  show FloatOps.matmul dot_S2048x256_S256x512_S2048x512_1_0_0_1_n_n none A B (constant (F := Ideal) S2048x512 .f32 0x00000000#32) (ix2 i j) = _
  rw [Ideal.matmul_constant_zero_apply, ← Equiv.sum_comp (contrEquiv1 dot_S2048x256_S256x512_S2048x512_1_0_0_1_n_n 256 rfl rfl).symm]
  refine Finset.sum_congr rfl fun c _ => ?_
  have hc := contrEquiv1_symm_val dot_S2048x256_S256x512_S2048x512_1_0_0_1_n_n 256 rfl rfl c
  have el : dot_S2048x256_S256x512_S2048x512_1_0_0_1_n_n.lhsIdx (ix2 i j) ((contrEquiv1 dot_S2048x256_S256x512_S2048x512_1_0_0_1_n_n 256 rfl rfl).symm c) = ix2 i c := funext fun a => Fin.ext (by
    match a with
    | ⟨0, _⟩ => exact dotRowCode_l0 _ _
    | ⟨1, _⟩ => exact (dot_S2048x256_S256x512_S2048x512_1_0_0_1_n_n.lhsIdx_val_of_single rfl _ _).trans hc)
  have er : dot_S2048x256_S256x512_S2048x512_1_0_0_1_n_n.rhsIdx (ix2 i j) ((contrEquiv1 dot_S2048x256_S256x512_S2048x512_1_0_0_1_n_n 256 rfl rfl).symm c) = ix2 c j := funext fun a => Fin.ext (by
    match a with
    | ⟨0, _⟩ => exact (dot_S2048x256_S256x512_S2048x512_1_0_0_1_n_n.rhsIdx_val_of_single rfl _ _).trans hc
    | ⟨1, _⟩ => exact dotRowCode_r1 _ _)
  rw [el, er]

/-- The same two facts for the second product. -/
theorem dotEncCode_l0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem dotEncCode_r1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl
/-- A `[2048, 512]` array times a `[512, 256]` array into a zero accumulator, read at `(i, j)`: the sum over the 512 contracted coordinates. -/
theorem dotEncCode_apply {φ₁ φ₂ : FTy} (A : FVec Ideal S2048x512 φ₁) (B : FVec Ideal S512x256 φ₂) (i : Fin 2048) (j : Fin 256) :
    matmul (F := Ideal) dot_S2048x512_S512x256_S2048x256_1_0_0_1_n_n none A B (constant (F := Ideal) S2048x256 .f32 0x00000000#32) (ix2 i j)
      = ∑ c : Fin 512, A (ix2 i c) * B (ix2 c j) := by
  show FloatOps.matmul dot_S2048x512_S512x256_S2048x256_1_0_0_1_n_n none A B (constant (F := Ideal) S2048x256 .f32 0x00000000#32) (ix2 i j) = _
  rw [Ideal.matmul_constant_zero_apply, ← Equiv.sum_comp (contrEquiv1 dot_S2048x512_S512x256_S2048x256_1_0_0_1_n_n 512 rfl rfl).symm]
  refine Finset.sum_congr rfl fun c _ => ?_
  have hc := contrEquiv1_symm_val dot_S2048x512_S512x256_S2048x256_1_0_0_1_n_n 512 rfl rfl c
  have el : dot_S2048x512_S512x256_S2048x256_1_0_0_1_n_n.lhsIdx (ix2 i j) ((contrEquiv1 dot_S2048x512_S512x256_S2048x256_1_0_0_1_n_n 512 rfl rfl).symm c) = ix2 i c := funext fun a => Fin.ext (by
    match a with
    | ⟨0, _⟩ => exact dotEncCode_l0 _ _
    | ⟨1, _⟩ => exact (dot_S2048x512_S512x256_S2048x256_1_0_0_1_n_n.lhsIdx_val_of_single rfl _ _).trans hc)
  have er : dot_S2048x512_S512x256_S2048x256_1_0_0_1_n_n.rhsIdx (ix2 i j) ((contrEquiv1 dot_S2048x512_S512x256_S2048x256_1_0_0_1_n_n 512 rfl rfl).symm c) = ix2 c j := funext fun a => Fin.ext (by
    match a with
    | ⟨0, _⟩ => exact (dot_S2048x512_S512x256_S2048x256_1_0_0_1_n_n.rhsIdx_val_of_single rfl _ _).trans hc
    | ⟨1, _⟩ => exact dotEncCode_r1 _ _)
  rw [el, er]

/-- The same two facts for the third product. -/
theorem dotEncTData_l0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem dotEncTData_r1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl
/-- A `[512, 2048]` array times a `[2048, 256]` array into a zero accumulator, read at `(i, j)`: the sum over the 2048 contracted coordinates. -/
theorem dotEncTData_apply {φ₁ φ₂ : FTy} (A : FVec Ideal S512x2048 φ₁) (B : FVec Ideal S2048x256 φ₂) (i : Fin 512) (j : Fin 256) :
    matmul (F := Ideal) dot_S512x2048_S2048x256_S512x256_1_0_0_1_n_n none A B (constant (F := Ideal) S512x256 .f32 0x00000000#32) (ix2 i j)
      = ∑ c : Fin 2048, A (ix2 i c) * B (ix2 c j) := by
  show FloatOps.matmul dot_S512x2048_S2048x256_S512x256_1_0_0_1_n_n none A B (constant (F := Ideal) S512x256 .f32 0x00000000#32) (ix2 i j) = _
  rw [Ideal.matmul_constant_zero_apply, ← Equiv.sum_comp (contrEquiv1 dot_S512x2048_S2048x256_S512x256_1_0_0_1_n_n 2048 rfl rfl).symm]
  refine Finset.sum_congr rfl fun c _ => ?_
  have hc := contrEquiv1_symm_val dot_S512x2048_S2048x256_S512x256_1_0_0_1_n_n 2048 rfl rfl c
  have el : dot_S512x2048_S2048x256_S512x256_1_0_0_1_n_n.lhsIdx (ix2 i j) ((contrEquiv1 dot_S512x2048_S2048x256_S512x256_1_0_0_1_n_n 2048 rfl rfl).symm c) = ix2 i c := funext fun a => Fin.ext (by
    match a with
    | ⟨0, _⟩ => exact dotEncTData_l0 _ _
    | ⟨1, _⟩ => exact (dot_S512x2048_S2048x256_S512x256_1_0_0_1_n_n.lhsIdx_val_of_single rfl _ _).trans hc)
  have er : dot_S512x2048_S2048x256_S512x256_1_0_0_1_n_n.rhsIdx (ix2 i j) ((contrEquiv1 dot_S512x2048_S2048x256_S512x256_1_0_0_1_n_n 2048 rfl rfl).symm c) = ix2 c j := funext fun a => Fin.ext (by
    match a with
    | ⟨0, _⟩ => exact (dot_S512x2048_S2048x256_S512x256_1_0_0_1_n_n.rhsIdx_val_of_single rfl _ _).trans hc
    | ⟨1, _⟩ => exact dotEncTData_r1 _ _)
  rw [el, er]

/-! ## Reductions of a `[2048, 512]` array along one axis -/

/-- The word for `−∞` denotes the bottom element of the extended reals. -/
theorem ofBits_neg_inf : Ideal.ofBits .f32 0xFF800000#32 = ⊥ := by
  simp [Ideal.ofBits, Ideal.ieee]

/-- The sum along the second axis, at row `p`: the sum over that row's 512 entries. -/
theorem sumAlongCodes_apply (V : FVec Ideal S2048x512 .f32) (hφ : FKind.Formats .f32)
    (hacc : (0x00000000#32 : BitVec 32) = 0x00000000#32) (p : Fin 2048) :
    multiReduction (F := Ideal) .add [1] S2048 V 0x00000000#32 reduces_S2048x512_S2048 hφ hacc (ix1 p)
      = ∑ k : Fin 512, V (ix2 p k) := by
  refine (Ideal.multiReduction_add_single V 0x00000000#32 reduces_S2048x512_S2048 hφ hacc (ix1 p)).trans ?_
  refine Finset.sum_congr rfl fun k _ => congrArg V (funext fun a => Fin.ext ?_)
  match a with
  | ⟨0, _⟩ => rfl
  | ⟨1, _⟩ => rfl

/-- The sum along the first axis, at column `k`: the sum over that column's 2048 entries. -/
theorem sumAlongRows_apply (V : FVec Ideal S2048x512 .f32) (hφ : FKind.Formats .f32)
    (hacc : (0x00000000#32 : BitVec 32) = 0x00000000#32) (k : Fin 512) :
    multiReduction (F := Ideal) .add [0] S512 V 0x00000000#32 reduces_S2048x512_S512 hφ hacc (ix1 k)
      = ∑ p : Fin 2048, V (ix2 p k) := by
  refine (Ideal.multiReduction_add_single V 0x00000000#32 reduces_S2048x512_S512 hφ hacc (ix1 k)).trans ?_
  refine Finset.sum_congr rfl fun p _ => congrArg V (funext fun a => Fin.ext ?_)
  match a with
  | ⟨0, _⟩ => rfl
  | ⟨1, _⟩ => rfl

/-- The maximum along the second axis from `−∞`, at row `p`: the supremum of that row's 512 entries. -/
theorem maxAlongCodes_apply (V : FVec Ideal S2048x512 .f32) (hφ : FKind.Formats .f32)
    (hacc : (0xFF800000#32 : BitVec 32) = 0xFF800000#32) (p : Fin 2048) :
    multiReduction (F := Ideal) .maximumf [1] S2048 V 0xFF800000#32 reduces_S2048x512_S2048 hφ hacc (ix1 p)
      = Finset.univ.sup fun k : Fin 512 => V (ix2 p k) := by
  refine (Ideal.multiReduction_maximumf_single V 0xFF800000#32 reduces_S2048x512_S2048 hφ hacc (ix1 p)).trans ?_
  have hf : (V ∘ reduces_S2048x512_S2048.lift (ix1 p)) = fun k : Fin 512 => V (ix2 p k) :=
    funext fun k => congrArg V (funext fun a => Fin.ext (by
      match a with
      | ⟨0, _⟩ => rfl
      | ⟨1, _⟩ => rfl))
  show Finset.fold max (Ideal.ofBits .f32 0xFF800000#32) (V ∘ reduces_S2048x512_S2048.lift (ix1 p)) Finset.univ = _
  rw [hf, ofBits_neg_inf]
  rfl

/-! ## The row-wise softmax and the scores -/

/-- Each row's maximum, repeated along the row. -/
def rowMaxB (L : FVec Ideal S2048x512 .f32) : FVec Ideal S2048x512 .f32 :=
  broadcastTo S2048x512
    (shapeCast S2048x1 (multiReduction .maximumf [1] S2048 L 0xFF800000#32 reduces_S2048x512_S2048 (.inl rfl) rfl) shapeCasts_S2048_S2048x1)
    broadcasts_S2048x1_S2048x512

/-- The row-wise softmax of a `[2048, 512]` array, operation by operation as the body computes it: the row's maximum
    subtracted, the exponential, the row's sum of exponentials, the quotient. -/
def softRows (L : FVec Ideal S2048x512 .f32) : FVec Ideal S2048x512 .f32 :=
  divf (exp (subf L (rowMaxB L)))
    (broadcastTo S2048x512
      (shapeCast S2048x1 (multiReduction .add [1] S2048 (exp (subf L (rowMaxB L))) 0x00000000#32 reduces_S2048x512_S2048 (.inl rfl) rfl) shapeCasts_S2048_S2048x1)
      broadcasts_S2048x1_S2048x512)

/-- The block's scores, operation by operation as the body computes them: `(2 · (X · Eᵀ) − S) · 1`, the row `S`
    repeated over the 2048 data rows. -/
def scoreB : FVec Ideal S2048x512 .f32 :=
  mulf
    (subf
      (mulf (broadcast S2048x512 (Scalar.ofBits (F := Ideal) .f32 0x40000000#32))
        (matmul dot_S2048x256_S256x512_S2048x512_1_0_0_1_n_n none (k0_pay7 X)
          (transpose S256x512 [1, 0] (k0_pay8 E) transposes_S512x256_p1_0_S256x512) (constant S2048x512 .f32 0x00000000#32)))
      (broadcastTo S2048x512 (shapeCast S1x512 S shapeCasts_S1x512_S1x512) broadcasts_S1x512_S2048x512))
    (broadcast S2048x512 (Scalar.ofBits (F := Ideal) .f32 0x3F800000#32))

/-- The body's assignments are the softmax of its scores. -/
theorem pay9_eq : k0_pay9 (F := Ideal) X E S = softRows (scoreB X E S) := rfl

/-- At `(p, k)` the repeated maximum is the supremum of row `p`. -/
theorem rowMaxB_apply (L : FVec Ideal S2048x512 .f32) (p : Fin 2048) (k : Fin 512) :
    rowMaxB L (ix2 p k) = Finset.univ.sup fun k' : Fin 512 => L (ix2 p k') := by
  unfold rowMaxB
  rw [broadcastTo_a1_ab_apply, shapeCast_a_a1_apply]
  exact maxAlongCodes_apply L _ _ p

/-- At `(p, k)` the softmax is the softmax of row `p` at `k`. -/
theorem softRows_apply (L : FVec Ideal S2048x512 .f32) (p : Fin 2048) (k : Fin 512) :
    softRows L (ix2 p k) = softRow (fun k' => L (ix2 p k')) k := by
  unfold softRows softRow
  show Ideal.div (Ideal.exp (L (ix2 p k) - rowMaxB L (ix2 p k))) _ = _
  rw [broadcastTo_a1_ab_apply, shapeCast_a_a1_apply, sumAlongCodes_apply, rowMaxB_apply]
  refine congrArg (Ideal.div _) (Finset.sum_congr rfl fun k' _ => ?_)
  show Ideal.exp (L (ix2 p k') - rowMaxB L (ix2 p k')) = _
  rw [rowMaxB_apply]

/-- At `(p, k)` the score is the kernel's score of row `p` against code `k`. -/
theorem scoreB_apply (p : Fin 2048) (k : Fin 512) :
    scoreB X E S (ix2 p k) = logitK (rowOf X p) (codeOf E) (sqOf S) k := by
  unfold scoreB logitK
  show (Ideal.ofBits .f32 0x40000000#32 * matmul (F := Ideal) dot_S2048x256_S256x512_S2048x512_1_0_0_1_n_n none (k0_pay7 X)
          (transpose S256x512 [1, 0] (k0_pay8 E) transposes_S512x256_p1_0_S256x512) (constant (F := Ideal) S2048x512 .f32 0x00000000#32) (ix2 p k)
        - broadcastTo S2048x512 (shapeCast S1x512 S shapeCasts_S1x512_S1x512) broadcasts_S1x512_S2048x512 (ix2 p k))
      * Ideal.ofBits .f32 0x3F800000#32 = _
  rw [dotRowCode_apply, broadcastTo_1b_ab_apply, shapeCast_self]
  refine congrArg (fun t => (two * t - S (ix2 0 k)) * one) (Finset.sum_congr rfl fun d _ => ?_)
  rw [transpose_ix2_apply]
  rfl

/-! ## The total sum over a `[1, 2048, 256]` array, and a one-element array -/

/-- A sum over the index set of a `[1, 2048, 256]` array is the double sum over its last two coordinates. -/
theorem sum_idx_1x2048x256 {M : Type*} [AddCommMonoid M] (f : S1x2048x256.Idx → M) :
    ∑ i, f i = ∑ p : Fin 2048, ∑ d : Fin 256, f (ix3 0 p d) := by
  let e : S1x2048x256.Idx ≃ Fin 2048 × Fin 256 :=
    { toFun := fun i => (i 1, i 2)
      invFun := fun q => ix3 0 q.1 q.2
      left_inv := fun i => funext fun a => Fin.ext (by
        match a with
        | ⟨0, _⟩ =>
          have h0 : (i 0).val < 1 := (i 0).isLt
          show (0 : ℕ) = (i 0).val
          omega
        | ⟨1, _⟩ => rfl
        | ⟨2, _⟩ => rfl)
      right_inv := fun _ => rfl }
  rw [← Equiv.sum_comp e.symm f, Fintype.sum_prod_type]
  rfl

/-- A one-element vector viewed as a `[1, 1, 1]` array reads its one element at every index. -/
theorem shapeCast_1_111_apply {α : Type} (x : S1.Idx → α) (h : S1.ShapeCasts S1x1x1) (j : S1x1x1.Idx) :
    shapeCast S1x1x1 x h j = x (ix1 0) :=
  shapeCast_apply x h _ _ (by
    have h0 : (j 0).val < 1 := (j 0).isLt
    have h1 : (j 1).val < 1 := (j 1).isLt
    have h2 : (j 2).val < 1 := (j 2).isLt
    rw [Shape.rowMajor_val_one, Shape.rowMajor_val_three]
    show (0 : ℕ) = ((j 0).val * 1 + (j 1).val) * 1 + (j 2).val
    omega)

/-- The body's way to one number: a one-element vector viewed as a `[1, 1, 1]` array, its element taken out and
    repeated over `[1, 1, 1]`, is that element at every index. -/
theorem scalarOf_apply (v : FVec Ideal S1 .f32) (j : S1x1x1.Idx) :
    broadcast S1x1x1 (extractAt ![0, 0, 0] (shapeCast S1x1x1 v shapeCasts_S1_S1x1x1) inpos_S1x1x1_p0_0_0) j = v (ix1 0) := by
  show shapeCast S1x1x1 v shapeCasts_S1_S1x1x1 _ = _
  exact shapeCast_1_111_apply v _ _

/-- A `[2048, 256]` array viewed as `[1, 2048, 256]` and summed over its last two axes: the double sum of its entries. -/
theorem totalOf_apply (V : FVec Ideal S2048x256 .f32) (hφ : FKind.Formats .f32)
    (hacc : (0x00000000#32 : BitVec 32) = 0x00000000#32) (j : S1.Idx) :
    multiReduction (F := Ideal) .add [1, 2] S1 (shapeCast S1x2048x256 V shapeCasts_S2048x256_S1x2048x256) 0x00000000#32
        reduces_S1x2048x256_S1 hφ hacc j
      = ∑ p : Fin 2048, ∑ d : Fin 256, V (ix2 p d) := by
  refine (Ideal.multiReduction_add_total _ 0x00000000#32 reduces_S1x2048x256_S1 (by decide) hφ hacc j).trans ?_
  rw [sum_idx_1x2048x256]
  exact Finset.sum_congr rfl fun p _ => Finset.sum_congr rfl fun d _ => shapeCast_ab_1ab_apply V _ 0 p d

/-! ## The assignments, the quantized rows, and the block's three sums -/

theorem enc_at (p : Fin 2048) (k : Fin 512) : k0_pay9 (F := Ideal) X E S (ix2 p k) = encB X E S p k := by
  rw [pay9_eq, softRows_apply]
  exact congrArg (fun L => softRow L k) (funext fun k' => scoreB_apply X E S p k')

/-- The quantized row `p` at `d`: the row's assignments times the code book. -/
theorem quant_at (p : Fin 2048) (d : Fin 256) :
    k0_pay11 (F := Ideal) X E S (ix2 p d) = quant (encB X E S p) (codeOf E) d := by
  unfold k0_pay11 quant
  show matmul (F := Ideal) dot_S2048x512_S512x256_S2048x256_1_0_0_1_n_n none (k0_pay10 (F := Ideal) X E S) (k0_pay8 (F := Ideal) E)
      (constant (F := Ideal) S2048x256 .f32 0x00000000#32) (ix2 p d) = _
  rw [dotEncCode_apply]
  refine Finset.sum_congr rfl fun c _ => ?_
  show k0_pay9 (F := Ideal) X E S (ix2 p c) * E (ix2 c d) = _
  rw [enc_at]

/-- The block's column sum of the assignments at code `k`. -/
theorem encSum_at (k : Fin 512) : k0_pay13 (F := Ideal) X E S (ix2 0 k) = encSum (encB X E S) k := by
  unfold k0_pay13 encSum
  show shapeCast S1x512 (multiReduction (F := Ideal) .add [0] S512 (k0_pay9 (F := Ideal) X E S) 0x00000000#32
      reduces_S2048x512_S512 (.inl rfl) rfl) shapeCasts_S512_S1x512 (ix2 0 k) = _
  rw [shapeCast_a_1a_apply, sumAlongRows_apply]
  exact Finset.sum_congr rfl fun p _ => enc_at X E S p k

/-- The block's squared error of the quantized rows against the data. -/
theorem sqErr_at :
    k0_pay12 (F := Ideal) X E S (ix3 0 0 0) = sqErr (fun p => quant (encB X E S p) (codeOf E)) (rowOf X) := by
  unfold k0_pay12 sqErr
  refine (scalarOf_apply _ _).trans ?_
  refine (totalOf_apply _ _ _ _).trans ?_
  refine Finset.sum_congr rfl fun p _ => Finset.sum_congr rfl fun d _ => ?_
  rw [mulf_apply, subf_apply, quant_at]

/-- The second accumulator's update at `(k, d)`: what was there plus the assignments transposed times the data. -/
theorem acc2_at (v46 : Vec Ideal S1x512x256 .f32) (k : Fin 512) (d : Fin 256) :
    k0_pay2 (F := Ideal) (k0_pay7 X) (k0_pay10 X E S) v46 (ix3 0 k d) = v46 (ix3 0 k d) + encTx (encB X E S) (rowOf X) k d := by
  unfold k0_pay2 encTx
  show (shapeCast S1x512x256 v46 shapeCasts_S1x512x256_S1x512x256 (ix3 0 k d) : EReal)
      + shapeCast S1x512x256 (matmul (F := Ideal) dot_S512x2048_S2048x256_S512x256_1_0_0_1_n_n none
          (transpose S512x2048 [1, 0] (k0_pay10 (F := Ideal) X E S) transposes_S2048x512_p1_0_S512x2048) (k0_pay7 (F := Ideal) X)
          (constant (F := Ideal) S512x256 .f32 0x00000000#32)) shapeCasts_S512x256_S1x512x256 (ix3 0 k d) = _
  rw [shapeCast_self, shapeCast_ab_1ab_apply, dotEncTData_apply]
  refine congrArg (v46 (ix3 0 k d) + ·) (Finset.sum_congr rfl fun p _ => ?_)
  rw [transpose_ix2_apply]
  show k0_pay9 (F := Ideal) X E S (ix2 p k) * X (ix2 p d) = _
  rw [enc_at]

end Cert.KernelIdeal.Payload

end
-- ==== Proof.KernelPrefix.lean ====
/-
  The kernel program's five host lines before the launch: they square the code book entrywise, sum each
  code vector's squares, and lay the 512 sums out as one row. Read from arbitrary buffer contents: the row
  the launch stages as its third operand holds the squared lengths of the code vectors, and the two
  arguments the lines read are left as they were.
-/
import proofs.«128212_j45775761441268_2_alg».proof.Proof.Gen.KernelIdeal.Launch
import proofs.«128212_j45775761441268_2_alg».proof.Proof.VqSpec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

open scoped BigOperators

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Cert.Vq

variable (W : Valuation τ sig (Elt Ideal))

/-- Squared entrywise, summed along each code vector from zero, stood up as a column and laid down as a row: entry
    `k` of the row is the squared length of code vector `k`. -/
theorem sq_of_code (e : FVec Ideal S512x256 .f32) (k : Fin 512) :
    transpose S1x512 [1, 0]
        (broadcastInDim S512x1 ![0] bcast_S512_S512x1_0
          (Host.reduceAdd (F := Ideal) (mulf e e) (constant (F := Ideal) S_ .f32 0x00000000#32)
            reducesTo_S512x256_S512_d1 h_S_))
        transposes_S512x1_S1x512_1_0 (ix2 (0 : Fin 1) k)
      = esq (fun k d => e (ix2 k d)) k := by
  rw [transpose_apply [1, 0] _ transposes_S512x1_S1x512_1_0 (ix2 (0 : Fin 1) k) (ix2 k (0 : Fin 1))
      (fun b => match b with | ⟨0, _⟩ => rfl | ⟨1, _⟩ => rfl),
    broadcastInDim_apply _ bcast_S512_S512x1_0 _ (ix2 k (0 : Fin 1)) (ix1 k)
      (fun a => match a with | ⟨0, _⟩ => by show k.val = if (512 : Nat) = 1 then 0 else k.val; rw [if_neg (by decide)])]
  simp only [Host.reduceAdd, Ideal.hostReduceAdd_def]
  rw [Ideal.hostReduceAdd_single reducesTo_S512x256_S512_d1 (by decide)]
  show Ideal.ofBits .f32 0x00000000#32 + _ = _
  rw [Ideal.ofBits_zero_f32, zero_add]
  unfold esq
  refine Finset.sum_congr rfl fun d _ => ?_
  have hd : ∀ h : S512x256.Reduces [1] S512, h.lift (ix1 k) d = ix2 k (⟨d.val, d.isLt⟩ : Fin 256) := fun h =>
    funext fun a => Fin.ext (by match a with | ⟨0, _⟩ => rfl | ⟨1, _⟩ => rfl)
  show e _ * e _ = _
  rw [hd]
  rfl

/-- The five lines, composed: the row is the transposed column of the code vectors' sums of squares. -/
theorem sq_row_eq :
    (StableHlo.after (List.flatten [hostOps0]) W (Proc.devRef .tc main_v3) : S1x512.Idx → EReal)
      = transpose S1x512 [1, 0]
          (broadcastInDim S512x1 ![0] bcast_S512_S512x1_0
            (Host.reduceAdd (F := Ideal)
              (mulf (W (Proc.devRef .tc main_arg1) : S512x256.Idx → EReal) (W (Proc.devRef .tc main_arg1) : S512x256.Idx → EReal))
              (constant (F := Ideal) S_ .f32 0x00000000#32) reducesTo_S512x256_S512_d1 h_S_))
          transposes_S512x1_S1x512_1_0 := by
  simp only [hostOps0, List.flatten_cons, List.flatten_nil, List.append_nil]
  after_results

/-- Entry `k` of the row the launch stages is the squared length of code vector `k`. -/
theorem sq_row_at (k : Fin 512) :
    (StableHlo.after (List.flatten [hostOps0]) W (Proc.devRef .tc main_v3) : S1x512.Idx → EReal) (ix2 (0 : Fin 1) k)
      = esq (fun k d => (W (Proc.devRef .tc main_arg1) : S512x256.Idx → EReal) (ix2 k d)) k := by
  rw [sq_row_eq]
  exact sq_of_code (W (Proc.devRef .tc main_arg1)) k

/-- None of the five lines writes the code book: it is left as it was. -/
theorem code_kept :
    StableHlo.after (List.flatten [hostOps0]) W (Proc.devRef .tc main_arg1) = W (Proc.devRef .tc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))

/-- None of the five lines writes the data: it is left as it was. -/
theorem data_kept :
    StableHlo.after (List.flatten [hostOps0]) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))

end Cert.KernelIdeal.Prefix

end
-- ==== Proof.KIAccum.lean ====
/-
  What the four output buffers hold after each grid point, in closed form.

  At every point the first buffer holds the point's block of quantized rows. The other three are running
  sums over a core's sixteen points: the first point of a core stores zero plus its block's contribution, every
  later point adds its block's contribution to what the point before left. So after point n the buffer holds
  the sum of the contributions of the points n − n mod 16, …, n — the points of n's core up to n — and at a
  core's last point, n mod 16 = 15, the sum over all sixteen of the core's points.
  The blocks the body sees are the launch-time data rows t·2048 …, the whole code book, and the code vectors'
  squared lengths, so each contribution is the corresponding block sum of the plain functions.
-/
import proofs.«128212_j45775761441268_2_alg».proof.Proof.KIFrame
import proofs.«128212_j45775761441268_2_alg».proof.Proof.KIPieces
import proofs.«128212_j45775761441268_2_alg».proof.Proof.KIBlocks
import proofs.«128212_j45775761441268_2_alg».proof.Proof.KernelPayload
import proofs.«128212_j45775761441268_2_alg».proof.Proof.KernelPrefix
import proofs.«128212_j45775761441268_2_alg».proof.Proof.KIDefs
import proofs.«128212_j45775761441268_2_alg».proof.Proof.VqBridge

set_option maxRecDepth 16384

noncomputable section

open scoped BigOperators

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Vq Cert.KernelIdeal.Value Idealize.ShloMosaic.ValueIdx

variable (m : (ℓ : Loc nD τ sig) → Buf (Elt Ideal) ℓ)

/-! ## The blocks the body sees, as the launch-time data -/

/-- A grid point as a block number. -/
def pt32 (t : Fin cfg0.N) : Fin 32 := ⟨t.val, by have := t.isLt; have : cfg0.N = 32 := N_0; omega⟩

/-- Row `p` of the data block at point `t` is data row `t·2048 + p`. -/
theorem row_at (c : Dev nD) (t : Fin cfg0.N) (p : Fin 2048) :
    Payload.rowOf (iblk m c 0 t) p = dataOf m c (rowAt (pt32 t) p) := by
  funext d
  show (iblk m c 0 t : Vec Ideal S2048x256 .f32) (ix2 p d) = _
  rw [iblk0_at, V_main_arg0]
  rfl

/-- The code-book block at any point is the launch-time code book. -/
theorem book_at (c : Dev nD) (t : Fin cfg0.N) : Payload.codeOf (iblk m c 1 t) = bookOf m c := by
  funext k d
  show (iblk m c 1 t : Vec Ideal S512x256 .f32) (ix2 k d) = _
  rw [iblk1_at, V_main_arg1]
  rfl

/-- The squared-length row at any point holds the squared lengths of the launch-time code vectors: it is what
    the host lines before the launch computed from the code book. -/
theorem sq_at (c : Dev nD) (t : Fin cfg0.N) : Payload.sqOf (iblk m c 2 t) = esq (bookOf m c) := by
  funext k
  show (iblk m c 2 t : Vec Ideal S1x512 .f32) (ix2 0 k) = _
  rw [iblk2_at]
  exact Prefix.sq_row_at (fun b => m (c, b)) k

/-- So the body's soft assignment of row `p` at point `t` is the kernel's assignment of data row `t·2048 + p`. -/
theorem encB_at (c : Dev nD) (t : Fin cfg0.N) (p : Fin 2048) (k : Fin 512) :
    Payload.encB (iblk m c 0 t) (iblk m c 1 t) (iblk m c 2 t) p k = blkEnc (dataOf m c) (bookOf m c) (pt32 t) p k := by
  show softRow (logitK (Payload.rowOf (iblk m c 0 t) p) (Payload.codeOf (iblk m c 1 t)) (Payload.sqOf (iblk m c 2 t))) k
    = softRow (logitK (dataOf m c (rowAt (pt32 t) p)) (bookOf m c) (esq (bookOf m c))) k
  rw [row_at, book_at, sq_at]

/-- The same, as functions of the row and the code. -/
theorem encB_eq (c : Dev nD) (t : Fin cfg0.N) :
    Payload.encB (iblk m c 0 t) (iblk m c 1 t) (iblk m c 2 t) = blkEnc (dataOf m c) (bookOf m c) (pt32 t) :=
  funext fun p => funext fun k => encB_at m c t p k

/-- The rows of the data block at point `t`, as a function of the row. -/
theorem rows_eq (c : Dev nD) (t : Fin cfg0.N) :
    Payload.rowOf (iblk m c 0 t) = fun p => dataOf m c (rowAt (pt32 t) p) :=
  funext fun p => row_at m c t p

/-! ## One point's contributions -/

/-- The column sums of block `t'`, zero past the last block. -/
def gSum (c : Dev nD) (t' : ℕ) (k : Fin 512) : EReal :=
  if h : t' < 32 then blkSum (dataOf m c) (bookOf m c) ⟨t', h⟩ k else 0
/-- The assignment-times-data sums of block `t'`, zero past the last block. -/
def gTx (c : Dev nD) (t' : ℕ) (k : Fin 512) (d : Fin 256) : EReal :=
  if h : t' < 32 then blkTx (dataOf m c) (bookOf m c) ⟨t', h⟩ k d else 0
/-- The squared error of block `t'`, zero past the last block. -/
def gErr (c : Dev nD) (t' : ℕ) : EReal :=
  if h : t' < 32 then blkErr (dataOf m c) (bookOf m c) ⟨t', h⟩ else 0

theorem pt_lt (t : Fin cfg0.N) : t.val < 32 := by have := t.isLt; have : cfg0.N = 32 := N_0; omega

/-- The column sums the body forms at point `t` are those of block `t`. -/
theorem blkSum_at (c : Dev nD) (t : Fin cfg0.N) (k : Fin 512) :
    k0_pay13 (F := Ideal) (iblk m c 0 t) (iblk m c 1 t) (iblk m c 2 t) (ix2 0 k) = gSum m c t.val k := by
  rw [Payload.encSum_at, gSum, dif_pos (pt_lt t), encB_eq]
  rfl

/-- The assignment-times-data sums the body forms at point `t` are those of block `t`. -/
theorem blkTx_at (c : Dev nD) (t : Fin cfg0.N) (k : Fin 512) (d : Fin 256) :
    encTx (Payload.encB (iblk m c 0 t) (iblk m c 1 t) (iblk m c 2 t)) (Payload.rowOf (iblk m c 0 t)) k d
      = gTx m c t.val k d := by
  rw [gTx, dif_pos (pt_lt t), encB_eq, rows_eq]
  rfl

/-- The squared error the body forms at point `t` is that of block `t`. -/
theorem blkErr_at (c : Dev nD) (t : Fin cfg0.N) :
    k0_pay12 (F := Ideal) (iblk m c 0 t) (iblk m c 1 t) (iblk m c 2 t) (ix3 0 0 0) = gErr m c t.val := by
  rw [Payload.sqErr_at, gErr, dif_pos (pt_lt t), encB_eq, rows_eq, book_at]
  rfl

/-! ## The quantized block -/

/-- After any point the first buffer holds the point's quantized rows. -/
theorem quant_at_pt (c : Dev nD) (n : ℕ) (hn : n < cfg0.N) (p : Fin 2048) (d : Fin 256) :
    (outsAt0 m c n hn).1 (ix2 p d) = quant (blkEnc (dataOf m c) (bookOf m c) (pt32 ⟨n, hn⟩) p) (bookOf m c) d := by
  have key : (outsAt0 m c n hn).1
      = k0_pay11 (F := Ideal) (iblk m c 0 ⟨n, hn⟩) (iblk m c 1 ⟨n, hn⟩) (iblk m c 2 ⟨n, hn⟩) := by
    by_cases h0 : n % 16 = 0
    · rw [outsAt0_A m c ⟨n, hn⟩ h0]; simp only [out_A_3]
    · rw [outsAt0_B m c ⟨n, hn⟩ h0]; simp only [out_B_3]
  rw [key, Payload.quant_at, book_at, encB_eq]

/-! ## The running sums: a first point, a later point -/

theorem sum_A (c : Dev nD) (n : ℕ) (hn : n < cfg0.N) (h0 : n % 16 = 0) (k : Fin 512) :
    (outsAt0 m c n hn).2.1 (ix3 0 0 k) = gSum m c n k := by
  rw [outsAt0_A m c ⟨n, hn⟩ h0]
  simp only [out_A_4]
  rw [Payload.acc1_at, Payload.zero1_at, zero_add]
  exact blkSum_at m c ⟨n, hn⟩ k

theorem sum_B (c : Dev nD) (n : ℕ) (hn : n + 1 < cfg0.N) (h0 : ¬(n + 1) % 16 = 0) (k : Fin 512) :
    (outsAt0 m c (n + 1) hn).2.1 (ix3 0 0 k)
      = (outsAt0 m c n (Nat.lt_of_succ_lt hn)).2.1 (ix3 0 0 k) + gSum m c (n + 1) k := by
  rw [outsAt0_B m c ⟨n + 1, hn⟩ h0]
  simp only [out_B_4]
  rw [Payload.acc1_at, blkSum_at m c ⟨n + 1, hn⟩ k]
  rfl

theorem tx_A (c : Dev nD) (n : ℕ) (hn : n < cfg0.N) (h0 : n % 16 = 0) (k : Fin 512) (d : Fin 256) :
    (outsAt0 m c n hn).2.2.1 (ix3 0 k d) = gTx m c n k d := by
  rw [outsAt0_A m c ⟨n, hn⟩ h0]
  simp only [out_A_5]
  rw [Payload.acc2_at, Payload.zero2_at, zero_add]
  exact blkTx_at m c ⟨n, hn⟩ k d

theorem tx_B (c : Dev nD) (n : ℕ) (hn : n + 1 < cfg0.N) (h0 : ¬(n + 1) % 16 = 0) (k : Fin 512) (d : Fin 256) :
    (outsAt0 m c (n + 1) hn).2.2.1 (ix3 0 k d)
      = (outsAt0 m c n (Nat.lt_of_succ_lt hn)).2.2.1 (ix3 0 k d) + gTx m c (n + 1) k d := by
  rw [outsAt0_B m c ⟨n + 1, hn⟩ h0]
  simp only [out_B_5]
  rw [Payload.acc2_at, blkTx_at m c ⟨n + 1, hn⟩ k d]
  rfl

theorem err_A (c : Dev nD) (n : ℕ) (hn : n < cfg0.N) (h0 : n % 16 = 0) :
    (outsAt0 m c n hn).2.2.2 (ix3 0 0 0) = gErr m c n := by
  rw [outsAt0_A m c ⟨n, hn⟩ h0]
  simp only [out_A_6]
  rw [Payload.acc3_at, Payload.zero3_at, zero_add]
  exact blkErr_at m c ⟨n, hn⟩

theorem err_B (c : Dev nD) (n : ℕ) (hn : n + 1 < cfg0.N) (h0 : ¬(n + 1) % 16 = 0) :
    (outsAt0 m c (n + 1) hn).2.2.2 (ix3 0 0 0)
      = (outsAt0 m c n (Nat.lt_of_succ_lt hn)).2.2.2 (ix3 0 0 0) + gErr m c (n + 1) := by
  rw [outsAt0_B m c ⟨n + 1, hn⟩ h0]
  simp only [out_B_6]
  rw [Payload.acc3_at, blkErr_at m c ⟨n + 1, hn⟩]
  rfl

/-! ## The running sums in closed form -/

/-- A quantity that starts afresh at every multiple of 16 and otherwise adds a term to what the index before
    held is, at index `n`, the sum of the terms from the last multiple of 16 up to `n`. -/
theorem fold_range {N : ℕ} (f : (n : ℕ) → n < N → EReal) (g : ℕ → EReal)
    (hA : ∀ n (hn : n < N), n % 16 = 0 → f n hn = g n)
    (hB : ∀ n (hn : n + 1 < N), ¬(n + 1) % 16 = 0 → f (n + 1) hn = f n (Nat.lt_of_succ_lt hn) + g (n + 1)) :
    ∀ n (hn : n < N), f n hn = ∑ j ∈ Finset.range (n % 16 + 1), g (n - n % 16 + j) := by
  intro n
  induction n with
  | zero => intro hn; rw [hA 0 hn rfl]; simp
  | succ n ih =>
    intro hn
    by_cases h0 : (n + 1) % 16 = 0
    · rw [hA _ hn h0, h0]; simp
    · have e1 : (n + 1) % 16 = n % 16 + 1 := by omega
      have e2 : n + 1 - (n + 1) % 16 = n - n % 16 := by omega
      have e3 : n - n % 16 + (n % 16 + 1) = n + 1 := by omega
      rw [hB _ hn h0, e2, e1, Finset.sum_range_succ, ← ih (Nat.lt_of_succ_lt hn), e3]

/-- After point `n` the second buffer holds the column sums of the blocks of `n`'s core up to `n`. -/
theorem sum_at_pt (c : Dev nD) (n : ℕ) (hn : n < cfg0.N) (k : Fin 512) :
    (outsAt0 m c n hn).2.1 (ix3 0 0 k) = ∑ j ∈ Finset.range (n % 16 + 1), gSum m c (n - n % 16 + j) k :=
  fold_range (fun n hn => (outsAt0 m c n hn).2.1 (ix3 0 0 k)) (fun t' => gSum m c t' k)
    (fun n hn h0 => sum_A m c n hn h0 k) (fun n hn h0 => sum_B m c n hn h0 k) n hn

/-- After point `n` the third buffer holds the assignment-times-data sums of the blocks of `n`'s core up to `n`. -/
theorem tx_at_pt (c : Dev nD) (n : ℕ) (hn : n < cfg0.N) (k : Fin 512) (d : Fin 256) :
    (outsAt0 m c n hn).2.2.1 (ix3 0 k d) = ∑ j ∈ Finset.range (n % 16 + 1), gTx m c (n - n % 16 + j) k d :=
  fold_range (fun n hn => (outsAt0 m c n hn).2.2.1 (ix3 0 k d)) (fun t' => gTx m c t' k d)
    (fun n hn h0 => tx_A m c n hn h0 k d) (fun n hn h0 => tx_B m c n hn h0 k d) n hn

/-- After point `n` the fourth buffer holds the squared errors of the blocks of `n`'s core up to `n`. -/
theorem err_at_pt (c : Dev nD) (n : ℕ) (hn : n < cfg0.N) :
    (outsAt0 m c n hn).2.2.2 (ix3 0 0 0) = ∑ j ∈ Finset.range (n % 16 + 1), gErr m c (n - n % 16 + j) :=
  fold_range (fun n hn => (outsAt0 m c n hn).2.2.2 (ix3 0 0 0)) (fun t' => gErr m c t')
    (fun n hn h0 => err_A m c n hn h0) (fun n hn h0 => err_B m c n hn h0) n hn

/-! ## At a core's last point: the sum over the core's sixteen blocks -/

/-- The `i`-th point of the core of a last point `t` is block `(t / 16)·16 + i`. -/
theorem core_pt (t : Fin cfg0.N) (i : Fin 16) (h : t.val - t.val % 16 + i.val < 32) :
    (⟨t.val - t.val % 16 + i.val, h⟩ : Fin 32)
      = pt ⟨t.val / 16, by have := t.isLt; have : cfg0.N = 32 := N_0; omega⟩ i :=
  Fin.ext (by show t.val - t.val % 16 + i.val = t.val / 16 * 16 + i.val; omega)

theorem sum_at_flush (c : Dev nD) (t : Fin cfg0.N) (h15 : t.val % 16 = 15) (k : Fin 512) :
    (outsAt0 m c t.val t.isLt).2.1 (ix3 0 0 k)
      = ∑ i : Fin 16, blkSum (dataOf m c) (bookOf m c)
          (pt ⟨t.val / 16, by have := t.isLt; have : cfg0.N = 32 := N_0; omega⟩ i) k := by
  have ht := pt_lt t
  rw [sum_at_pt m c t.val t.isLt k, show t.val % 16 + 1 = 16 by omega]
  refine acc_range _ 16 _ (fun i => ?_)
  have hi := i.isLt
  have hlt : t.val - t.val % 16 + i.val < 32 := by omega
  show gSum m c (t.val - t.val % 16 + i.val) k = _
  rw [gSum, dif_pos hlt, core_pt t i hlt]

theorem tx_at_flush (c : Dev nD) (t : Fin cfg0.N) (h15 : t.val % 16 = 15) (k : Fin 512) (d : Fin 256) :
    (outsAt0 m c t.val t.isLt).2.2.1 (ix3 0 k d)
      = ∑ i : Fin 16, blkTx (dataOf m c) (bookOf m c)
          (pt ⟨t.val / 16, by have := t.isLt; have : cfg0.N = 32 := N_0; omega⟩ i) k d := by
  have ht := pt_lt t
  rw [tx_at_pt m c t.val t.isLt k d, show t.val % 16 + 1 = 16 by omega]
  refine acc_range _ 16 _ (fun i => ?_)
  have hi := i.isLt
  have hlt : t.val - t.val % 16 + i.val < 32 := by omega
  show gTx m c (t.val - t.val % 16 + i.val) k d = _
  rw [gTx, dif_pos hlt, core_pt t i hlt]

theorem err_at_flush (c : Dev nD) (t : Fin cfg0.N) (h15 : t.val % 16 = 15) :
    (outsAt0 m c t.val t.isLt).2.2.2 (ix3 0 0 0)
      = ∑ i : Fin 16, blkErr (dataOf m c) (bookOf m c)
          (pt ⟨t.val / 16, by have := t.isLt; have : cfg0.N = 32 := N_0; omega⟩ i) := by
  have ht := pt_lt t
  rw [err_at_pt m c t.val t.isLt, show t.val % 16 + 1 = 16 by omega]
  refine acc_range _ 16 _ (fun i => ?_)
  have hi := i.isLt
  have hlt : t.val - t.val % 16 + i.val < 32 := by omega
  show gErr m c (t.val - t.val % 16 + i.val) = _
  rw [gErr, dif_pos hlt, core_pt t i hlt]

end Cert.KernelIdeal.Gen.Hand

end
-- ==== Proof.KernelTail.lean ====
/-
  The kernel program's host lines after the launch: from the per-core partial sums the launch leaves — one slice
  per core of the column sums of the soft assignment, of the assignment transposed times the data, and of the
  squared error — to the loss and the perplexity.

  The first lines add the two cores' slices (a sum over the leading axis of extent 2, then a reshape that drops a unit
  axis); from there the chain is the one that defines the specification's tail: the updated cluster sizes, their
  total, the smoothed sizes, the updated code book and the sum of its squares, the usage counts and their normalised
  form, the mean squared error, the two entropy terms, and last the perplexity and the loss. The lines are read from an
  arbitrary state of the buffers at the end of the launch; the partial sums enter only as hypotheses.

  The plan: each named quantity is first written as a function of earlier ones, built from the very operations the
  lines apply (`tEs` … `tLoss`); the buffers after the lines are those functions of the buffers before them
  (`after_perplexity`, `after_loss`); and each function read at an index is the specification's quantity.
  Float literals are the printed words on both sides and are never evaluated; only the zero a sum starts from is.
-/
import proofs.«128212_j45775761441268_2_alg».proof.Proof.Gen.KernelIdeal.Launch
import proofs.«128212_j45775761441268_2_alg».proof.Proof.VqSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Tail

open Cert.KernelIdeal Cert.KernelIdeal.Gen Idealize.ShloMosaic Idealize.ShloMosaic.TcCoe Idealize.ShloMosaic.ValueIdx
  Idealize.ShloMosaic.StableHlo Cert.Vq

/-! ## Sums over index sets, by coordinates -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The operations read at an index -/

section Ops

variable {s : Shape} {φ : FTy}

/-- The host's quotient at an index is the quotient of the elements. -/
theorem hdivf_at (a b : FVec Ideal s φ) (i : s.Idx) : Host.divf a b i = Ideal.div (a i) (b i) := rfl
/-- The host's logarithm at an index. -/
theorem hlog_at (a : FVec Ideal s φ) (i : s.Idx) : Host.log a i = Ideal.log (a i) := rfl
/-- The host's exponential at an index. -/
theorem hexp_at (a : FVec Ideal s φ) (i : s.Idx) : Host.exp a i = Ideal.exp (a i) := rfl
/-- The host's negation at an index. -/
theorem hnegf_at (a : FVec Ideal s φ) (i : s.Idx) : Host.negf a i = -(a i) := rfl

end Ops

/-- A scalar broadcast to the 512 codes reads the scalar everywhere. -/
theorem bc512_at {α : Type} (y : S_.Idx → α) (i : S512.Idx) :
    broadcastInDim S512 ![] bcast_S_S512 y i = y ix0 :=
  broadcastInDim_apply _ bcast_S_S512 y i ix0 (fun a => a.elim0)

/-- A scalar broadcast to the code book's shape reads the scalar everywhere. -/
theorem bc512x256_at {α : Type} (y : S_.Idx → α) (i : S512x256.Idx) :
    broadcastInDim S512x256 ![] bcast_S_S512x256 y i = y ix0 :=
  broadcastInDim_apply _ bcast_S_S512x256 y i ix0 (fun a => a.elim0)

/-- A vector over the codes broadcast along the 256 coordinates (as a column, then across) reads its entry `k`. -/
theorem bcCol_at {α : Type} (y : S512.Idx → α) (k : Fin 512) (d : Fin 256) :
    broadcastInDim S512x256 ![0, 1] bcast_S512x1_S512x256_0_1 (broadcastInDim S512x1 ![0] bcast_S512_S512x1_0 y) (ix2 k d)
      = y (ix1 k) := by
  rw [broadcastInDim_apply _ bcast_S512x1_S512x256_0_1 _ (ix2 k d) (ix2 k (0 : Fin 1)) (fun a => match a with
      | ⟨0, _⟩ => by show k.val = if (512 : Nat) = 1 then 0 else k.val; rw [if_neg (by decide)]
      | ⟨1, _⟩ => by show 0 = if (1 : Nat) = 1 then 0 else d.val; rw [if_pos rfl]),
    broadcastInDim_apply _ bcast_S512_S512x1_0 y (ix2 k (0 : Fin 1)) (ix1 k) (fun a => match a with
      | ⟨0, _⟩ => by show k.val = if (512 : Nat) = 1 then 0 else k.val; rw [if_neg (by decide)])]

/-- The host's sum of a vector over the 512 codes, from zero. -/
theorem sum512_at (y : (⟨S512, .f32⟩ : BufTy).Contents (Elt Ideal)) (i : S_.Idx) :
    Host.reduceAdd (F := Ideal) y (constant S_ .f32 0x00000000#32) reducesTo_S512_S_d0 h_S_ i = ∑ k : Fin 512, y (ix1 k) := by
  simp only [Host.reduceAdd, Ideal.hostReduceAdd_def]
  rw [Ideal.hostReduceAdd_total reducesTo_S512_S_d0 (fun b => b.elim0) y _ i, constant_apply, Ideal.ofBits_zero_f32, zero_add]
  exact sum_idx1 (n := 512) _

/-- The host's sum of a 512 x 256 array over both axes, from zero. -/
theorem sum512x256_at (y : (⟨S512x256, .f32⟩ : BufTy).Contents (Elt Ideal)) (i : S_.Idx) :
    Host.reduceAdd (F := Ideal) y (constant S_ .f32 0x00000000#32) reducesTo_S512x256_S_d0_1 h_S_ i
      = ∑ k : Fin 512, ∑ d : Fin 256, y (ix2 k d) := by
  simp only [Host.reduceAdd, Ideal.hostReduceAdd_def]
  rw [Ideal.hostReduceAdd_total reducesTo_S512x256_S_d0_1 (fun b => b.elim0) y _ i, constant_apply, Ideal.ofBits_zero_f32, zero_add]
  exact sum_idx2 (n0 := 512) (n1 := 256) _

/-! ## The tail's quantities as functions of earlier ones, built from the lines' own operations -/

/-- The two cores' slices of the column sums added, as a vector over the 512 codes (lines %5, %6). -/
def tEs (a1 : (⟨S2x1x512, .f32⟩ : BufTy).Contents (Elt Ideal)) : (⟨S512, .f32⟩ : BufTy).Contents (Elt Ideal) :=
  fun i => shapeCast S512 (Host.reduceAdd (F := Ideal) a1 (constant S_ .f32 0x00000000#32) reducesTo_S2x1x512_S1x512_d0 h_S_)
    shapeCasts_S1x512_S512 i

/-- The two cores' slices of the assignment-times-data products added (line %7). -/
def tDw (a2 : (⟨S2x512x256, .f32⟩ : BufTy).Contents (Elt Ideal)) : (⟨S512x256, .f32⟩ : BufTy).Contents (Elt Ideal) :=
  Host.reduceAdd (F := Ideal) a2 (constant S_ .f32 0x00000000#32) reducesTo_S2x512x256_S512x256_d0 h_S_

/-- The two cores' squared errors added, as a scalar (lines %8, %9). -/
def tSe (a3 : (⟨S2x1x1, .f32⟩ : BufTy).Contents (Elt Ideal)) : (⟨S_, .f32⟩ : BufTy).Contents (Elt Ideal) :=
  fun i => shapeCast S_ (Host.reduceAdd (F := Ideal) a3 (constant S_ .f32 0x00000000#32) reducesTo_S2x1x1_S1x1_d0 h_S_)
    shapeCasts_S1x1_S_ i

section Chain

variable (es : (⟨S512, .f32⟩ : BufTy).Contents (Elt Ideal)) (dw : (⟨S512x256, .f32⟩ : BufTy).Contents (Elt Ideal))
  (se : (⟨S_, .f32⟩ : BufTy).Contents (Elt Ideal))
  (x2 : (⟨S512, .f32⟩ : BufTy).Contents (Elt Ideal)) (x3 : (⟨S512x256, .f32⟩ : BufTy).Contents (Elt Ideal))
  (x4 : (⟨S512, .f32⟩ : BufTy).Contents (Elt Ideal))

/-- The updated cluster sizes (line %14). -/
def tNewSize : (⟨S512, .f32⟩ : BufTy).Contents (Elt Ideal) :=
  addf (mulf (broadcastInDim S512 ![] bcast_S_S512 (constant (F := Ideal) S_ .f32 0x3F7D70A4#32)) x2)
    (mulf (broadcastInDim S512 ![] bcast_S_S512 (constant (F := Ideal) S_ .f32 0x3C23D70A#32)) es)

/-- Their total (line %15). -/
def tTotal : (⟨S_, .f32⟩ : BufTy).Contents (Elt Ideal) :=
  Host.reduceAdd (F := Ideal) (tNewSize es x2) (constant S_ .f32 0x00000000#32) reducesTo_S512_S_d0 h_S_

/-- The smoothed cluster sizes (line %22). -/
def tSmooth : (⟨S512, .f32⟩ : BufTy).Contents (Elt Ideal) :=
  mulf
    (Host.divf (addf (tNewSize es x2) (broadcastInDim S512 ![] bcast_S_S512 (constant (F := Ideal) S_ .f32 0x3727C5AC#32)))
      (broadcastInDim S512 ![] bcast_S_S512 (addf (tTotal es x2) (constant (F := Ideal) S_ .f32 0x3BA7C5AC#32))))
    (broadcastInDim S512 ![] bcast_S_S512 (tTotal es x2))

/-- The updated code book (line %30). -/
def tNewCode : (⟨S512x256, .f32⟩ : BufTy).Contents (Elt Ideal) :=
  Host.divf
    (addf (mulf (broadcastInDim S512x256 ![] bcast_S_S512x256 (constant (F := Ideal) S_ .f32 0x3F7D70A4#32)) x3)
      (mulf (broadcastInDim S512x256 ![] bcast_S_S512x256 (constant (F := Ideal) S_ .f32 0x3C23D70A#32)) dw))
    (broadcastInDim S512x256 ![0, 1] bcast_S512x1_S512x256_0_1 (broadcastInDim S512x1 ![0] bcast_S512_S512x1_0 (tSmooth es x2)))

/-- The sum of the squares of its entries (line %38). -/
def tCodeSq : (⟨S_, .f32⟩ : BufTy).Contents (Elt Ideal) :=
  Host.reduceAdd (F := Ideal) (mulf (tNewCode es dw x2 x3) (tNewCode es dw x2 x3)) (constant S_ .f32 0x00000000#32)
    reducesTo_S512x256_S_d0_1 h_S_

/-- The updated usage counts (line %35). -/
def tUsage : (⟨S512, .f32⟩ : BufTy).Contents (Elt Ideal) :=
  addf (mulf (broadcastInDim S512 ![] bcast_S_S512 (constant (F := Ideal) S_ .f32 0x3F7D70A4#32)) x4)
    (mulf (broadcastInDim S512 ![] bcast_S_S512 (constant (F := Ideal) S_ .f32 0x3C23D70A#32)) es)

/-- The mean squared error (line %36). -/
def tMse : (⟨S_, .f32⟩ : BufTy).Contents (Elt Ideal) :=
  Host.divf se (constant (F := Ideal) S_ .f32 0x4B800000#32)

/-- The average assignment (line %40). -/
def tAvg : (⟨S512, .f32⟩ : BufTy).Contents (Elt Ideal) :=
  Host.divf es (broadcastInDim S512 ![] bcast_S_S512 (constant (F := Ideal) S_ .f32 0x47800000#32))

/-- Minus the entropy-like sum of a vector of 512 weights (lines %42 … %46, and %52 … %56). -/
def tNegEnt (p : (⟨S512, .f32⟩ : BufTy).Contents (Elt Ideal)) : (⟨S_, .f32⟩ : BufTy).Contents (Elt Ideal) :=
  Host.negf (Host.reduceAdd (F := Ideal)
    (mulf p (Host.log (addf p (broadcastInDim S512 ![] bcast_S_S512 (constant (F := Ideal) S_ .f32 0x2EDBE6FF#32)))))
    (constant S_ .f32 0x00000000#32) reducesTo_S512_S_d0 h_S_)

/-- The normalised usage counts (line %50). -/
def tUsageProb : (⟨S512, .f32⟩ : BufTy).Contents (Elt Ideal) :=
  Host.divf (tUsage es x4)
    (broadcastInDim S512 ![] bcast_S_S512
      (addf (Host.reduceAdd (F := Ideal) (tUsage es x4) (constant S_ .f32 0x00000000#32) reducesTo_S512_S_d0 h_S_)
        (constant (F := Ideal) S_ .f32 0x3727C5AC#32)))

/-- The perplexity (line %57). -/
def tPerp : (⟨S_, .f32⟩ : BufTy).Contents (Elt Ideal) := Host.exp (F := Ideal) (s := S_) (φ := .f32) (tNegEnt (tAvg es))

/-- The loss (line %63). -/
def tLoss : (⟨S_, .f32⟩ : BufTy).Contents (Elt Ideal) :=
  addf
    (addf (addf (tMse se) (mulf (constant (F := Ideal) S_ .f32 0x3E800000#32) (tMse se))) (tCodeSq es dw x2 x3))
    (mulf (constant (F := Ideal) S_ .f32 0x3F4CCCCD#32) (addf (tNegEnt (tAvg es)) (tNegEnt (tUsageProb es x4))))

end Chain

/-! ## The buffers after the lines are those functions of the buffers before them -/

variable (W : Valuation τ sig (Elt Ideal))

-- the list of lines has eighty-two entries: folding over it exceeds the default budgets
set_option maxRecDepth 8192 in
set_option maxHeartbeats 4000000 in
/-- The perplexity's buffer after the lines. -/
theorem after_perplexity :
    StableHlo.after (hostOps1 (F := Ideal)) W (Proc.devRef .tc main_v57) = tPerp (tEs (W (Proc.devRef .tc main_v4_1))) := by
  after_results_simp
  rfl

set_option maxRecDepth 8192 in
set_option maxHeartbeats 16000000 in
/-- The loss's buffer after the lines. -/
theorem after_loss :
    StableHlo.after (hostOps1 (F := Ideal)) W (Proc.devRef .tc main_v63)
      = tLoss (tEs (W (Proc.devRef .tc main_v4_1))) (tDw (W (Proc.devRef .tc main_v4_2))) (tSe (W (Proc.devRef .tc main_v4_3)))
          (W (Proc.devRef .tc main_arg2)) (W (Proc.devRef .tc main_arg3)) (W (Proc.devRef .tc main_arg4)) := by
  after_results_simp
  rfl

set_option maxRecDepth 8192 in
set_option maxHeartbeats 4000000 in
/-- No line after the launch writes the quantized rows. -/
theorem quantized_kept :
    StableHlo.after (hostOps1 (F := Ideal)) W (Proc.devRef .tc main_v4_0) = W (Proc.devRef .tc main_v4_0) := by
  after_results_simp

/-! ## The three sums: the two cores' slices added -/

/-- The column sum of code `k`: the two cores' partial sums added. -/
theorem tEs_at (a1 : (⟨S2x1x512, .f32⟩ : BufTy).Contents (Elt Ideal)) (k : Fin 512) :
    tEs a1 (ix1 k) = ∑ a : Fin 2, a1 (ix3 a (0 : Fin 1) k) := by
  show shapeCast S512 _ shapeCasts_S1x512_S512 (ix1 k) = _
  rw [shapeCast_1a_a_apply]
  simp only [Host.reduceAdd, Ideal.hostReduceAdd_def]
  rw [Ideal.hostReduceAdd_single reducesTo_S2x1x512_S1x512_d0 (by decide), constant_apply, Ideal.ofBits_zero_f32, zero_add]
  exact Finset.sum_congr rfl fun a _ => congrArg a1 (funext fun e => Fin.ext (by
    match e with | ⟨0, _⟩ => rfl | ⟨1, _⟩ => rfl | ⟨2, _⟩ => rfl))

/-- The assignment-times-data product at `(k, d)`: the two cores' partial sums added. -/
theorem tDw_at (a2 : (⟨S2x512x256, .f32⟩ : BufTy).Contents (Elt Ideal)) (k : Fin 512) (d : Fin 256) :
    tDw a2 (ix2 k d) = ∑ a : Fin 2, a2 (ix3 a k d) := by
  unfold tDw
  simp only [Host.reduceAdd, Ideal.hostReduceAdd_def]
  rw [Ideal.hostReduceAdd_single reducesTo_S2x512x256_S512x256_d0 (by decide), constant_apply, Ideal.ofBits_zero_f32, zero_add]
  exact Finset.sum_congr rfl fun a _ => congrArg a2 (funext fun e => Fin.ext (by
    match e with | ⟨0, _⟩ => rfl | ⟨1, _⟩ => rfl | ⟨2, _⟩ => rfl))

/-- The squared error: the two cores' partial sums added. -/
theorem tSe_at (a3 : (⟨S2x1x1, .f32⟩ : BufTy).Contents (Elt Ideal)) (i : S_.Idx) :
    tSe a3 i = ∑ a : Fin 2, a3 (ix3 a (0 : Fin 1) (0 : Fin 1)) := by
  show shapeCast S_ _ shapeCasts_S1x1_S_ i = _
  rw [shapeCast_apply _ shapeCasts_S1x1_S_ i (ix2 (0 : Fin 1) (0 : Fin 1)) (by
    rw [Shape.rowMajor_val_two]; exact (Shape.rowMajorPi_zero _ i).symm)]
  simp only [Host.reduceAdd, Ideal.hostReduceAdd_def]
  rw [Ideal.hostReduceAdd_single reducesTo_S2x1x1_S1x1_d0 (by decide), constant_apply, Ideal.ofBits_zero_f32, zero_add]
  exact Finset.sum_congr rfl fun a _ => congrArg a3 (funext fun e => Fin.ext (by
    match e with | ⟨0, _⟩ => rfl | ⟨1, _⟩ => rfl | ⟨2, _⟩ => rfl))

/-! ## Each quantity of the chain, read at an index, is the specification's -/

section ChainAt

variable (es : (⟨S512, .f32⟩ : BufTy).Contents (Elt Ideal)) (dw : (⟨S512x256, .f32⟩ : BufTy).Contents (Elt Ideal))
  (se : (⟨S_, .f32⟩ : BufTy).Contents (Elt Ideal))
  (x2 : (⟨S512, .f32⟩ : BufTy).Contents (Elt Ideal)) (x3 : (⟨S512x256, .f32⟩ : BufTy).Contents (Elt Ideal))
  (x4 : (⟨S512, .f32⟩ : BufTy).Contents (Elt Ideal))

theorem tNewSize_at (k : Fin 512) :
    tNewSize es x2 (ix1 k) = newSize (fun k => es (ix1 k)) (fun k => x2 (ix1 k)) k := by
  unfold tNewSize
  rw [addf_apply, mulf_apply, mulf_apply, bc512_at, bc512_at, constant_apply, constant_apply]
  rfl

theorem tTotal_at (i : S_.Idx) :
    tTotal es x2 i = ∑ k, newSize (fun k => es (ix1 k)) (fun k => x2 (ix1 k)) k := by
  unfold tTotal
  rw [sum512_at]
  exact Finset.sum_congr rfl fun k _ => tNewSize_at es x2 k

theorem tSmooth_at (k : Fin 512) :
    tSmooth es x2 (ix1 k) = smooth (fun k => es (ix1 k)) (fun k => x2 (ix1 k)) k := by
  unfold tSmooth
  rw [mulf_apply, hdivf_at, addf_apply, bc512_at, bc512_at, bc512_at, addf_apply, constant_apply, constant_apply,
    tNewSize_at, tTotal_at]
  rfl

theorem tNewCode_at (k : Fin 512) (d : Fin 256) :
    tNewCode es dw x2 x3 (ix2 k d)
      = newCode (fun k => es (ix1 k)) (fun k d => dw (ix2 k d)) (fun k => x2 (ix1 k)) (fun k d => x3 (ix2 k d)) k d := by
  unfold tNewCode
  rw [hdivf_at, addf_apply, mulf_apply, mulf_apply, bc512x256_at, bc512x256_at, constant_apply, constant_apply,
    bcCol_at, tSmooth_at]
  rfl

theorem tCodeSq_at (i : S_.Idx) :
    tCodeSq es dw x2 x3 i
      = ∑ k, ∑ d, newCode (fun k => es (ix1 k)) (fun k d => dw (ix2 k d)) (fun k => x2 (ix1 k)) (fun k d => x3 (ix2 k d)) k d
          * newCode (fun k => es (ix1 k)) (fun k d => dw (ix2 k d)) (fun k => x2 (ix1 k)) (fun k d => x3 (ix2 k d)) k d := by
  unfold tCodeSq
  rw [sum512x256_at]
  refine Finset.sum_congr rfl fun k _ => Finset.sum_congr rfl fun d _ => ?_
  rw [mulf_apply, tNewCode_at]

theorem tUsage_at (k : Fin 512) : tUsage es x4 (ix1 k) = c99 * x4 (ix1 k) + c01 * es (ix1 k) := by
  unfold tUsage
  rw [addf_apply, mulf_apply, mulf_apply, bc512_at, bc512_at, constant_apply, constant_apply]

theorem tMse_at (i : S_.Idx) : tMse se i = Ideal.div (se i) nAll := by
  unfold tMse
  rw [hdivf_at, constant_apply]

theorem tAvg_at (k : Fin 512) : tAvg es (ix1 k) = avgProb (fun k => es (ix1 k)) k := by
  unfold tAvg
  rw [hdivf_at, bc512_at, constant_apply]
  rfl

theorem tNegEnt_at (p : (⟨S512, .f32⟩ : BufTy).Contents (Elt Ideal)) (q : Fin 512 → EReal) (hp : ∀ k, p (ix1 k) = q k)
    (i : S_.Idx) : tNegEnt p i = negEnt q := by
  unfold tNegEnt negEnt
  rw [hnegf_at, sum512_at]
  refine congrArg (fun z : EReal => -z) (Finset.sum_congr rfl fun k _ => ?_)
  rw [mulf_apply, hlog_at, addf_apply, bc512_at, constant_apply, hp]

theorem tUsageProb_at (k : Fin 512) :
    tUsageProb es x4 (ix1 k) = usageProb (fun k => es (ix1 k)) (fun k => x4 (ix1 k)) k := by
  unfold tUsageProb
  rw [hdivf_at, bc512_at, addf_apply, sum512_at, constant_apply]
  simp only [tUsage_at]
  rfl

theorem tPerp_at (i : S_.Idx) : tPerp es i = perplexity (fun k => es (ix1 k)) := by
  unfold tPerp
  rw [hexp_at, tNegEnt_at _ _ (tAvg_at es)]
  rfl

theorem tLoss_at (i : S_.Idx) :
    tLoss es dw se x2 x3 x4 i
      = loss (fun k => es (ix1 k)) (fun k d => dw (ix2 k d)) (se i) (fun k => x2 (ix1 k)) (fun k d => x3 (ix2 k d))
          (fun k => x4 (ix1 k)) := by
  unfold tLoss
  simp only [addf_apply, mulf_apply, constant_apply, tMse_at, tCodeSq_at, tNegEnt_at _ _ (tAvg_at es),
    tNegEnt_at _ _ (tUsageProb_at es x4)] <;> rfl

end ChainAt

/-! ## The two results -/

variable {p1 : Fin 2 → Fin 512 → EReal} {p2 : Fin 2 → Fin 512 → Fin 256 → EReal} {p3 : Fin 2 → EReal}

/-- The perplexity the lines leave is the specification's, of the two cores' column sums added. -/
theorem perplexity_of (h1 : ∀ a k, W (Proc.devRef .tc main_v4_1) (ix3 a (0 : Fin 1) k) = p1 a k) :
    StableHlo.after (hostOps1 (F := Ideal)) W (Proc.devRef .tc main_v57) ix0 = perplexity (fun k => ∑ a, p1 a k) := by
  rw [after_perplexity, tPerp_at]
  refine congrArg perplexity (funext fun k => ?_)
  rw [tEs_at]
  exact Finset.sum_congr rfl fun a _ => h1 a k

/-- The loss the lines leave is the specification's, of the two cores' three sums added. -/
theorem loss_of (h1 : ∀ a k, W (Proc.devRef .tc main_v4_1) (ix3 a (0 : Fin 1) k) = p1 a k)
    (h2 : ∀ a k d, W (Proc.devRef .tc main_v4_2) (ix3 a k d) = p2 a k d)
    (h3 : ∀ a, W (Proc.devRef .tc main_v4_3) (ix3 a (0 : Fin 1) (0 : Fin 1)) = p3 a) :
    StableHlo.after (hostOps1 (F := Ideal)) W (Proc.devRef .tc main_v63) ix0
      = loss (fun k => ∑ a, p1 a k) (fun k d => ∑ a, p2 a k d) (∑ a, p3 a)
          (fun k => W (Proc.devRef .tc main_arg2) (ix1 k)) (fun k d => W (Proc.devRef .tc main_arg3) (ix2 k d))
          (fun k => W (Proc.devRef .tc main_arg4) (ix1 k)) := by
  rw [after_loss, tLoss_at]
  have e1 : (fun k => tEs (W (Proc.devRef .tc main_v4_1)) (ix1 k)) = fun k => ∑ a, p1 a k :=
    funext fun k => (tEs_at _ k).trans (Finset.sum_congr rfl fun a _ => h1 a k)
  have e2 : (fun k d => tDw (W (Proc.devRef .tc main_v4_2)) (ix2 k d)) = fun k d => ∑ a, p2 a k d :=
    funext fun k => funext fun d => (tDw_at _ k d).trans (Finset.sum_congr rfl fun a _ => h2 a k d)
  have e3 : tSe (W (Proc.devRef .tc main_v4_3)) ix0 = ∑ a, p3 a :=
    (tSe_at _ ix0).trans (Finset.sum_congr rfl fun a _ => h3 a)
  rw [e1, e2, e3]

end Cert.KernelIdeal.Tail

end
-- ==== Proof.KIValue.lean ====
/-
  What the kernel program computes, at the exact instance. After the launch the quantized array holds, row by row,
  the kernel-form soft assignment of the row times the code book; each core's slice of the three sum arrays holds
  the sum over the core's sixteen blocks of the block's column sums, of its assignments-transposed-times-data, and
  of its squared error; the later host lines add the two cores' slices and carry the sums to the loss and the
  perplexity. So the three results are the quantized rows, the loss and the perplexity of the sums over all
  thirty-two blocks, as functions of the launch-time data, code book and three small arrays.
-/
import proofs.«128212_j45775761441268_2_alg».proof.Proof.KIFrame
import proofs.«128212_j45775761441268_2_alg».proof.Proof.KIPieces
import proofs.«128212_j45775761441268_2_alg».proof.Proof.KIBlocks
import proofs.«128212_j45775761441268_2_alg».proof.Proof.KIDefs
import proofs.«128212_j45775761441268_2_alg».proof.Proof.KIAccum
import proofs.«128212_j45775761441268_2_alg».proof.Proof.KernelPayload
import proofs.«128212_j45775761441268_2_alg».proof.Proof.KernelPrefix
import proofs.«128212_j45775761441268_2_alg».proof.Proof.KernelTail
import proofs.«128212_j45775761441268_2_alg».proof.Proof.VqBridge
import Idealize.ShloMosaic.Lib.Pipeline.Value
import Idealize.ShloMosaic.Lib.ValueIdx

set_option maxRecDepth 16384

noncomputable section

namespace Cert.KernelIdeal.Value

open Cert.KernelIdeal Cert.KernelIdeal.Gen Cert.KernelIdeal.Gen.Hand Cert.Vq
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The four result arrays after the launch -/

/-- Each core's slice of the column sums: the sum over the core's sixteen blocks. -/
def slabSum (c : Dev nD) : Buf (Elt Ideal) ((c.tc : Thread nD τ).loc main_v4_1) :=
  fun j => (∑ i : Fin 16, blkSum (dataOf m c) (bookOf m c) (pt (j 0) i) (j 2) : EReal)
/-- Each core's slice of the assignments-transposed-times-data. -/
def slabTx (c : Dev nD) : Buf (Elt Ideal) ((c.tc : Thread nD τ).loc main_v4_2) :=
  fun j => (∑ i : Fin 16, blkTx (dataOf m c) (bookOf m c) (pt (j 0) i) (j 1) (j 2) : EReal)
/-- Each core's slice of the squared error. -/
def slabErr (c : Dev nD) : Buf (Elt Ideal) ((c.tc : Thread nD τ).loc main_v4_3) :=
  fun j => (∑ i : Fin 16, blkErr (dataOf m c) (bookOf m c) (pt (j 0) i) : EReal)

/-- What point `t` writes back of the quantized array is block `t` of the quantized rows. -/
theorem flushed3_eq (c : Dev nD) (t : Fin cfg0.N) (hf : (cfg0.win 3).flush t = true) :
    (dats m 0 c).flushed 3 t = ((cfg0.win 3).blk t).view.read (Elt Ideal) (kQuant m c) := by
  show (cfg0.win 3).cut (grid0.coords t) ((dats m 0 c).after 3 t) = _
  rw [after0_3]
  funext y
  obtain ⟨p, d, rfl⟩ : ∃ (p : Fin 2048) (d : Fin 256), y = ix2 p d := ⟨y 0, y 1, eq_ix2 y⟩
  rw [blk3_at]
  show (outsAt0 m c t.val t.isLt).1 (ix2 p d) = _
  rw [quant_at_pt]
  rfl

/-- So the quantized array ends at the quantized rows: every row lies in the block of its point, written back there. -/
theorem final3 (c : Dev nD) : (dats m 0 c).arrAt 3 cfg0.N = kQuant m c :=
  (dats m 0 c).arrAt_eq_of_cover 3 (kQuant m c) (flushed3_eq m c) (cover3 c)

/-- A core's last point writes back the sum over the core's sixteen blocks of the column sums. -/
theorem flushed4_eq (c : Dev nD) (t : Fin cfg0.N) (hf : (cfg0.win 4).flush t = true) :
    (dats m 0 c).flushed 4 t = ((cfg0.win 4).blk t).view.read (Elt Ideal) (slabSum m c) := by
  have h15 : t.val % 16 = 15 := (flush0_4 t).mp hf
  show (cfg0.win 4).cut (grid0.coords t) ((dats m 0 c).after 4 t) = _
  rw [after0_4]
  funext y
  obtain ⟨a0, b0, k, rfl⟩ : ∃ (a0 : Fin 1) (b0 : Fin 1) (k : Fin 512), y = ix3 a0 b0 k := ⟨y 0, y 1, y 2, eq_ix3 y⟩
  obtain rfl : a0 = 0 := Subsingleton.elim _ _
  obtain rfl : b0 = 0 := Subsingleton.elim _ _
  rw [blk4_at]
  show (outsAt0 m c t.val t.isLt).2.1 (ix3 0 0 k) = _
  rw [sum_at_flush m c t h15 k]
  rfl

theorem final4 (c : Dev nD) : (dats m 0 c).arrAt 4 cfg0.N = slabSum m c :=
  (dats m 0 c).arrAt_eq_of_cover 4 (slabSum m c) (flushed4_eq m c) (cover4 c)

/-- The same for the assignments-transposed-times-data. -/
theorem flushed5_eq (c : Dev nD) (t : Fin cfg0.N) (hf : (cfg0.win 5).flush t = true) :
    (dats m 0 c).flushed 5 t = ((cfg0.win 5).blk t).view.read (Elt Ideal) (slabTx m c) := by
  have h15 : t.val % 16 = 15 := (flush0_5 t).mp hf
  show (cfg0.win 5).cut (grid0.coords t) ((dats m 0 c).after 5 t) = _
  rw [after0_5]
  funext y
  obtain ⟨a0, k, d, rfl⟩ : ∃ (a0 : Fin 1) (k : Fin 512) (d : Fin 256), y = ix3 a0 k d := ⟨y 0, y 1, y 2, eq_ix3 y⟩
  obtain rfl : a0 = 0 := Subsingleton.elim _ _
  rw [blk5_at]
  show (outsAt0 m c t.val t.isLt).2.2.1 (ix3 0 k d) = _
  rw [tx_at_flush m c t h15 k d]
  rfl

theorem final5 (c : Dev nD) : (dats m 0 c).arrAt 5 cfg0.N = slabTx m c :=
  (dats m 0 c).arrAt_eq_of_cover 5 (slabTx m c) (flushed5_eq m c) (cover5 c)

/-- The same for the squared error. -/
theorem flushed6_eq (c : Dev nD) (t : Fin cfg0.N) (hf : (cfg0.win 6).flush t = true) :
    (dats m 0 c).flushed 6 t = ((cfg0.win 6).blk t).view.read (Elt Ideal) (slabErr m c) := by
  have h15 : t.val % 16 = 15 := (flush0_6 t).mp hf
  show (cfg0.win 6).cut (grid0.coords t) ((dats m 0 c).after 6 t) = _
  rw [after0_6]
  funext y
  obtain ⟨a0, b0, c0, rfl⟩ : ∃ (a0 : Fin 1) (b0 : Fin 1) (c0 : Fin 1), y = ix3 a0 b0 c0 := ⟨y 0, y 1, y 2, eq_ix3 y⟩
  obtain rfl : a0 = 0 := Subsingleton.elim _ _
  obtain rfl : b0 = 0 := Subsingleton.elim _ _
  obtain rfl : c0 = 0 := Subsingleton.elim _ _
  rw [blk6_at]
  show (outsAt0 m c t.val t.isLt).2.2.2 (ix3 0 0 0) = _
  rw [err_at_flush m c t h15]
  rfl

theorem final6 (c : Dev nD) : (dats m 0 c).arrAt 6 cfg0.N = slabErr m c :=
  (dats m 0 c).arrAt_eq_of_cover 6 (slabErr m c) (flushed6_eq m c) (cover6 c)

/-! ## The later host lines, and the run -/

/-- What the later lines start from on core `c`: the region-entry contents with each staged array at its final contents. -/
abbrev Wtail (c : Dev nD) : Valuation τ sig (Elt Ideal) :=
  Pipeline.withArrays (cfgs 0).spec c (V0 m c) fun w => (dats m 0 c).arrAt w (cfgs 0).N

theorem tail_sum (c : Dev nD) : Wtail m c (Proc.devRef .tc main_v4_1) = slabSum m c :=
  (Pipeline.withArrays_arr spec0 launch0.win.arr_inj c _ _ 4).trans (final4 m c)
theorem tail_tx (c : Dev nD) : Wtail m c (Proc.devRef .tc main_v4_2) = slabTx m c :=
  (Pipeline.withArrays_arr spec0 launch0.win.arr_inj c _ _ 5).trans (final5 m c)
theorem tail_err (c : Dev nD) : Wtail m c (Proc.devRef .tc main_v4_3) = slabErr m c :=
  (Pipeline.withArrays_arr spec0 launch0.win.arr_inj c _ _ 6).trans (final6 m c)
theorem tail_arg2 (c : Dev nD) : Wtail m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem tail_arg3 (c : Dev nD) : Wtail m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem tail_arg4 (c : Dev nD) : Wtail m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)

/-- The loss the later lines compute from the two cores' slices is the loss of the sums over all thirty-two blocks. -/
theorem tail_loss (c : Dev nD) :
    StableHlo.after (hostOps1 (F := Ideal)) (Wtail m c) (Proc.devRef .tc main_v63) = kLoss m c := by
  funext j
  rw [eq_ix0 j]
  rw [Cert.KernelIdeal.Tail.loss_of (Wtail m c)
    (p1 := fun a k => ∑ i : Fin 16, blkSum (dataOf m c) (bookOf m c) (pt a i) k)
    (p2 := fun a k d => ∑ i : Fin 16, blkTx (dataOf m c) (bookOf m c) (pt a i) k d)
    (p3 := fun a => ∑ i : Fin 16, blkErr (dataOf m c) (bookOf m c) (pt a i))
    (fun a k => by rw [tail_sum]; rfl) (fun a k d => by rw [tail_tx]; rfl) (fun a => by rw [tail_err]; rfl),
    tail_arg2, tail_arg3, tail_arg4]
  rfl

/-- And the perplexity likewise. -/
theorem tail_perp (c : Dev nD) :
    StableHlo.after (hostOps1 (F := Ideal)) (Wtail m c) (Proc.devRef .tc main_v57) = kPerp m c := by
  funext j
  rw [eq_ix0 j]
  rw [Cert.KernelIdeal.Tail.perplexity_of (Wtail m c)
    (p1 := fun a k => ∑ i : Fin 16, blkSum (dataOf m c) (bookOf m c) (pt a i) k)
    (fun a k => by rw [tail_sum]; rfl)]
  rfl

/-- The kernel program, run from any memory with zero counters: it ends with its three results at the quantized rows,
    the loss and the perplexity of the launch-time arrays, and the five arguments as launched. -/
theorem run_value : θ_run defs (onTc (τ := τ) (main (F := Ideal))) ⟨m, fun _ => 0, ρ⟩ (fun r => ∀ c : Dev nD,
      r.2.mem ((c.tc : Thread nD τ).loc main_v4_0) = kQuant m c
      ∧ r.2.mem ((c.tc : Thread nD τ).loc main_v63) = kLoss m c
      ∧ r.2.mem ((c.tc : Thread nD τ).loc main_v57) = kPerp m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  obtain ⟨hA, hR⟩ := h c
  refine ⟨(hA 3).trans (final3 m c), ?_, ?_,
    (hA 0).trans (((dats m 0 c).arrAt_in 0 rfl _).trans ((A_eq m c 0).trans (V_main_arg0 m c))),
    (hA 1).trans (((dats m 0 c).arrAt_in 1 rfl _).trans ((A_eq m c 1).trans (V_main_arg1 m c))),
    (hR main_arg2 (Pipeline.mem_restRefs_of main_arg2 (by decide) (by decide))).trans (W_main_arg2 m (dats m) c),
    (hR main_arg3 (Pipeline.mem_restRefs_of main_arg3 (by decide) (by decide))).trans (W_main_arg3 m (dats m) c),
    (hR main_arg4 (Pipeline.mem_restRefs_of main_arg4 (by decide) (by decide))).trans (W_main_arg4 m (dats m) c)⟩
  · refine (hR main_v63 (Pipeline.mem_restRefs_of main_v63 (by decide) (by decide))).trans ?_
    unfold Pipeline.afterTail₀
    simp only [List.flatten_cons, List.flatten_nil, List.append_nil]
    exact tail_loss m c
  · refine (hR main_v57 (Pipeline.mem_restRefs_of main_v57 (by decide) (by decide))).trans ?_
    unfold Pipeline.afterTail₀
    simp only [List.flatten_cons, List.flatten_nil, List.append_nil]
    exact tail_perp m c

end Cert.KernelIdeal.Value

end
-- ==== Proof.Algebraic.lean ====
/-
  The two programs agree at the ideal values, and the reference leaves its arguments alone.

  The kernel program ends with the quantized rows, the loss and the perplexity computed from three two-level totals
  (over the two cores, over a core's sixteen blocks, over a block's 2048 rows) of the kernel-form soft assignment.
  The reference ends with the data plus (quantized rows less data), the loss and the perplexity computed from the
  three sums over all 65536 rows of the reference-form soft assignment. Under the precondition the data and the code
  book are real-valued; then the two soft assignments agree row by row, each two-level total is the whole sum, and
  the data plus the difference is the quantized row. The loss and the perplexity are the same functions of the three
  sums and of the three small arrays on both sides, and the small arrays agree because the two memories agree on the
  arguments. So the three results are equal, index by index.
-/
import proofs.«128212_j45775761441268_2_alg».proof.Defs
import proofs.«128212_j45775761441268_2_alg».proof.Proof.Gen.ReferenceIdeal.Read
import proofs.«128212_j45775761441268_2_alg».proof.Proof.RefValue
import proofs.«128212_j45775761441268_2_alg».proof.Proof.RefTail
import proofs.«128212_j45775761441268_2_alg».proof.Proof.Finite
import proofs.«128212_j45775761441268_2_alg».proof.Proof.VqBridge
import proofs.«128212_j45775761441268_2_alg».proof.Proof.KIValue
import Idealize.ShloMosaic.Lib.ValueIdx

noncomputable section

open Idealize.ShloMosaic Idealize.ShloMosaic.TcCoe Idealize.SL.Sem

namespace Cert.Proof.VqClaims

open Cert.Vq Cert.KernelIdeal.Value Idealize.ShloMosaic.ValueIdx

/-- The reference runs and its five argument arrays end as they started. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the five arguments both programs run, end with equal results, and leave the
    arguments unchanged. -/
theorem algebraic : Cert.algebraic_KernelIdeal_ReferenceIdeal := by
  intro m ρ m' ρ' hpre hagree
  refine ⟨fun c => kQuant m c, fun c => kLoss m c, fun c => kPerp m c, run_value m ρ, ?_⟩
  refine (θ_run Cert.ReferenceIdeal.defs _ _).mono (fun _ h c => ?_) (Cert.ReferenceIdeal.Value.run (F := Ideal) m' ρ')
  -- under the precondition the data and the code book are real-valued
  have hx : ∀ n d, ∃ a : ℝ, dataOf m c n d = a := fun n d => Cert.Finite.data_real m hpre c (ix2 n d)
  have he : ∀ k d, ∃ a : ℝ, bookOf m c k d = a := fun k d => Cert.Finite.code_real m hpre c (ix2 k d)
  -- the reference's three sums are the kernel's two-level totals
  have hsum : ∀ k, encSum (fun n => encR (dataOf m c n) (bookOf m c)) k = kSum m c k :=
    fun k => (encSum_bridge hx he k).symm
  have htx : ∀ k d, encTx (fun n => encR (dataOf m c n) (bookOf m c)) (dataOf m c) k d = kTx m c k d :=
    fun k d => (encTx_bridge hx he k d).symm
  have herr : sqErr (fun n => quant (encR (dataOf m c n) (bookOf m c)) (bookOf m c)) (dataOf m c) = kErr m c :=
    (sqErr_bridge hx he).symm
  refine ⟨(h c).1.trans ?_, (h c).2.1.trans ?_, (h c).2.2.1.trans ?_, (h c).2.2.2⟩
  · -- the quantized rows
    rw [Cert.ReferenceIdeal.Read.val_main_v96_eq, (hagree c).1, (hagree c).2.1]
    funext j
    obtain ⟨n, d, rfl⟩ : ∃ (n : Fin 65536) (d : Fin 256), j = ix2 n d := ⟨j 0, j 1, eq_ix2 j⟩
    rw [Cert.ReferenceIdeal.RefValue.out_at]
    exact quant_bridge hx he n d
  · -- the loss
    rw [Cert.ReferenceIdeal.Read.val_main_v94_eq, (hagree c).1, (hagree c).2.1, (hagree c).2.2.1, (hagree c).2.2.2.1,
      (hagree c).2.2.2.2]
    funext j
    obtain rfl : j = ix0 := eq_ix0 j
    exact Cert.ReferenceIdeal.RefTail.loss_of
      (fun k => (Cert.ReferenceIdeal.RefValue.encSum31_at _ _ k).trans (hsum k))
      (fun k => (Cert.ReferenceIdeal.RefValue.encSum55_at _ _ k).trans (hsum k))
      (fun k => (Cert.ReferenceIdeal.RefValue.encSum69_at _ _ k).trans (hsum k))
      (fun k d => (Cert.ReferenceIdeal.RefValue.encTx_at _ _ k d).trans (htx k d))
      ((Cert.ReferenceIdeal.RefValue.sqErr61_at _ _).trans herr)
      ((Cert.ReferenceIdeal.RefValue.sqErr65_at _ _).trans herr)
  · -- the perplexity
    rw [Cert.ReferenceIdeal.Read.val_main_v88_eq, (hagree c).1, (hagree c).2.1]
    funext j
    obtain rfl : j = ix0 := eq_ix0 j
    exact Cert.ReferenceIdeal.RefTail.perplexity_of
      (fun k => (Cert.ReferenceIdeal.RefValue.encSum69_at _ _ k).trans (hsum k))

end Cert.Proof.VqClaims

end
-- ==== Proof.lean ====
/-
  A vector-quantizer training step: 65536 data rows of 256 numbers are scored against 512 code vectors, the scores of
  a row pass through a softmax, the soft assignment times the code book is the quantized row; from the assignments
  come the column sums, the assignments-transposed-times-data and the squared error, and from those, by a fixed chain
  of pointwise operations and sums over the codes, a loss and a perplexity. The kernel program does this on blocks
  of 2048 rows over a 2 × 16 grid, carrying the three sums from point to point on each core and adding the two
  cores' sums on the host; the reference does it on all rows at once.

  The claim has five parts. Each kernel program — as printed on words, and read on the extended reals — runs to the
  end without a fault and leaves its five arguments unchanged: the body is run once for a core's first point and once
  for any other point, what the output buffers hold after each point is named by recursion on the point, and the
  launch theorem carries that through the five host lines before the region and the eighty-two after it (KFrame,
  KIFrame). The reference's frame is its run with the results dropped. Nothing was rewritten between the two kernel
  programs. And on the extended reals, from memories that agree on the arguments, the two programs end with equal
  results: the kernel's score of a row differs from the reference's by the row's squared length, a constant a
  softmax does not see — this is where the inputs' finiteness is used — and a sum over all rows is the sum over the
  two cores of the sum over sixteen blocks of the sum over a block's rows (Algebraic, over VqLaws and VqBridge).
-/
import proofs.«128212_j45775761441268_2_alg».proof.Defs
import proofs.«128212_j45775761441268_2_alg».proof.Proof.KFrame
import proofs.«128212_j45775761441268_2_alg».proof.Proof.KIFrame
import proofs.«128212_j45775761441268_2_alg».proof.Proof.Algebraic
import proofs.«128212_j45775761441268_2_alg».proof.Proof.Gen.Kernel
import proofs.«128212_j45775761441268_2_alg».proof.Proof.Gen.KernelIdeal
import proofs.«128212_j45775761441268_2_alg».proof.Proof.Gen.ReferenceIdeal
import proofs.«128212_j45775761441268_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.Hand.frame m ρ,
    fun m ρ _ => Cert.KernelIdeal.Gen.Hand.frame m ρ,
    VqClaims.frame_ri,
    trivial,
    VqClaims.algebraic⟩

end Cert.Proof

end
